-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x16384 : Shape := ⟨2, ![4096, 16384]⟩
abbrev S16384 : Shape := ⟨1, ![16384]⟩
abbrev S16384x4096 : Shape := ⟨2, ![16384, 4096]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x16384 : S_.BroadcastsInDim S4096x16384 (![] : Fin 0 → Fin S4096x16384.rank)
  reducesTo_S4096x16384_S_d0_1 : S4096x16384.ReducesTo [0, 1] S_
  bcast_S_S16384 : S_.BroadcastsInDim S16384 (![] : Fin 0 → Fin S16384.rank)
  reducesTo_S16384_S_d0 : S16384.ReducesTo [0] S_
  bcast_S_S16384x4096 : S_.BroadcastsInDim S16384x4096 (![] : Fin 0 → Fin S16384x4096.rank)
  reducesTo_S16384x4096_S_d0_1 : S16384x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S16384x4096 1) : IVec S_ 1 :=
  let main_c_5 : IVec S_ 1 := constantI S_ 1 1#1
  let main_v17 : IVec S_ 1 := (fun x v => Host.reduce IntOp.andi x v reducesTo_S16384x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S2x2048x4096 .f32) (main_arg1 : FVec F S4096x16384 .f32) (main_arg2 : FVec F S16384 .f32) (main_arg3 : FVec F S16384x4096 .f32) (main_arg4 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x16384 .f32 := Host.absf main_arg1
  let main_cst_0 : FVec F S_ .f32 := constant S_ .f32 0x7F800000#32
  let main_v5 : FVec F S4096x16384 .f32 := broadcastInDim S4096x16384 ![] bcast_S_S4096x16384 main_cst_0
  let main_v6 : IVec S4096x16384 1 := cmpf .olt main_v4 main_v5
  let main_c_1 : IVec S_ 1 := constantI S_ 1 1#1
  let main_v7 : IVec S_ 1 := (fun x v => Host.reduce IntOp.andi x v reducesTo_S4096x16384_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S16384x4096 .f32 := Host.absf main_arg3
  let main_cst_4 : FVec F S_ .f32 := constant S_ .f32 0x7F800000#32
  let main_v15 : FVec F S16384x4096 .f32 := broadcastInDim S16384x4096 ![] bcast_S_S16384x4096 main_cst_4
  let main_v16 : IVec S16384x4096 1 := cmpf .olt main_v14 main_v15
  fn_part1 (F := F) main_arg4 main_v13 main_v16
-- ==== Kernel.lean ====
abbrev S2x2048x4096 : Shape := ⟨3, ![2, 2048, 4096]⟩
abbrev S4096x16384 : Shape := ⟨2, ![4096, 16384]⟩
abbrev S16384 : Shape := ⟨1, ![16384]⟩
abbrev S16384x4096 : Shape := ⟨2, ![16384, 4096]⟩
abbrev S4096 : Shape := ⟨1, ![4096]⟩
abbrev S4096x4096 : Shape := ⟨2, ![4096, 4096]⟩
abbrev S1x16384 : Shape := ⟨2, ![1, 16384]⟩
abbrev S1x4096 : Shape := ⟨2, ![1, 4096]⟩
abbrev S1024x1024 : Shape := ⟨2, ![1024, 1024]⟩
abbrev S1024x2048 : Shape := ⟨2, ![1024, 2048]⟩
abbrev S1x2048 : Shape := ⟨2, ![1, 2048]⟩
abbrev S256x2048 : Shape := ⟨2, ![256, 2048]⟩
abbrev S1024x512 : Shape := ⟨2, ![1024, 512]⟩
abbrev S512x2048 : Shape := ⟨2, ![512, 2048]⟩

abbrev nBuf : Space → Nat
  | .hbm => 14
  | .vmem => 18
  | .smem => 0
  | _ => 0

abbrev bufTy : (tb : Table) → Fin (tcTables nBuf tb) → BufTy
  | .hbm, ⟨0, _⟩ => ⟨S2x2048x4096, .f32⟩
  | .hbm, ⟨1, _⟩ => ⟨S4096x16384, .f32⟩
  | .hbm, ⟨2, _⟩ => ⟨S16384, .f32⟩
  | .hbm, ⟨3, _⟩ => ⟨S16384x4096, .f32⟩
  | .hbm, ⟨4, _⟩ => ⟨S4096, .f32⟩
  | .hbm, ⟨5, _⟩ => ⟨S4096x4096, .f32⟩
  | .hbm, ⟨6, _⟩ => ⟨S4096x4096, .bf16⟩
  | .hbm, ⟨7, _⟩ => ⟨S4096x16384, .bf16⟩
  | .hbm, ⟨8, _⟩ => ⟨S16384x4096, .bf16⟩
  | .hbm, ⟨9, _⟩ => ⟨S1x16384, .f32⟩
  | .hbm, ⟨10, _⟩ => ⟨S1x4096, .f32⟩
  | .hbm, ⟨11, _⟩ => ⟨S4096x16384, .bf16⟩
  | .hbm, ⟨12, _⟩ => ⟨S4096x4096, .f32⟩
  | .hbm, ⟨13, _⟩ => ⟨S2x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048, .f32⟩
  | .local _ .vmem, ⟨5, _⟩ => ⟨S1x2048, .f32⟩
  | .local _ .vmem, ⟨6, _⟩ => ⟨S1024x2048, .bf16⟩
  | .local _ .vmem, ⟨7, _⟩ => ⟨S1024x2048, .bf16⟩
  | .local _ .vmem, ⟨8, _⟩ => ⟨S1024x2048, .f32⟩
  | .local _ .vmem, ⟨9, _⟩ => ⟨S1024x512, .bf16⟩
  | .local _ .vmem, ⟨10, _⟩ => ⟨S1024x512, .bf16⟩
  | .local _ .vmem, ⟨11, _⟩ => ⟨S512x2048, .bf16⟩
  | .local _ .vmem, ⟨12, _⟩ => ⟨S512x2048, .bf16⟩
  | .local _ .vmem, ⟨13, _⟩ => ⟨S1x2048, .f32⟩
  | .local _ .vmem, ⟨14, _⟩ => ⟨S1x2048, .f32⟩
  | .local _ .vmem, ⟨15, _⟩ => ⟨S1024x2048, .f32⟩
  | .local _ .vmem, ⟨16, _⟩ => ⟨S1024x2048, .f32⟩
  | .local _ .vmem, ⟨17, _⟩ => ⟨S1024x2048, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 2, 32], ![false, false, false]⟩

def k1_cond2 (i : grid1.Coords) : BitVec 1 :=
  let arg2 : BitVec 32 := BitVec.ofNat 32 (i 2).val
  let c31_i32 : BitVec 32 := 31#32
  let v13 : BitVec 1 := Scalar.cmpi .eq arg2 c31_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S2x2048x4096_S4096x4096 : S2x2048x4096.ShapeCasts S4096x4096
  bitsLt_bf16_f32 : FTy.bits .bf16 < FTy.bits .f32
  shapeCasts_S16384_S1x16384 : S16384.ShapeCasts S1x16384
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1024x2048_S256x2048_0_0 : ∀ a, (![0, 0] : Fin 2 → Nat) a + S256x2048.size a ≤ S1024x2048.size a
  h_S256x2048 : 0 < S256x2048.numel
  broadcasts_S1x2048_S256x2048 : S1x2048.Broadcasts S256x2048
  packedbf16_S1024x2048_S256x2048_0_0 : (Rect.unit (s := S1024x2048) ![0, 0] S256x2048.size inb_S1024x2048_S256x2048_0_0).PackedRows (EltTy.packing .bf16)
  inb_S1024x2048_S256x2048_256_0 : ∀ a, (![256, 0] : Fin 2 → Nat) a + S256x2048.size a ≤ S1024x2048.size a
  packedbf16_S1024x2048_S256x2048_256_0 : (Rect.unit (s := S1024x2048) ![256, 0] S256x2048.size inb_S1024x2048_S256x2048_256_0).PackedRows (EltTy.packing .bf16)
  inb_S1024x2048_S256x2048_512_0 : ∀ a, (![512, 0] : Fin 2 → Nat) a + S256x2048.size a ≤ S1024x2048.size a
  packedbf16_S1024x2048_S256x2048_512_0 : (Rect.unit (s := S1024x2048) ![512, 0] S256x2048.size inb_S1024x2048_S256x2048_512_0).PackedRows (EltTy.packing .bf16)
  inb_S1024x2048_S256x2048_768_0 : ∀ a, (![768, 0] : Fin 2 → Nat) a + S256x2048.size a ≤ S1024x2048.size a
  packedbf16_S1024x2048_S256x2048_768_0 : (Rect.unit (s := S1024x2048) ![768, 0] S256x2048.size inb_S1024x2048_S256x2048_768_0).PackedRows (EltTy.packing .bf16)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  broadcasts_S1x2048_S1024x2048 : S1x2048.Broadcasts S1024x2048
  shapeCasts_S4096x4096_S2x2048x4096 : S4096x4096.ShapeCasts S2x2048x4096
  dot_S1024x1024_S1024x2048_S1024x2048_1_0_0_1_n_n_wf : DotDims.WF S1024x1024 S1024x2048 S1024x2048 [1] [0] [0] [1] [] []
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x16384.size a
  hwx0_1 : ∀ i : grid0.Coords, EltTy.bits .bf16 = 32 ∨ (Rect.block (s := S4096x16384) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S4096x16384.size a
  hwx0_3 : ∀ i : grid0.Coords, EltTy.bits .bf16 = 32 ∨ (Rect.block (s := S4096x16384) S1024x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x16384.size a
  hwx1_0 : ∀ i : grid1.Coords, EltTy.bits .bf16 = 32 ∨ (Rect.block (s := S4096x16384) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S16384x4096.size a
  hwx1_1 : ∀ i : grid1.Coords, EltTy.bits .bf16 = 32 ∨ (Rect.block (s := S16384x4096) S512x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S4096x4096.size a
  hwx1_3 : ∀ i : grid1.Coords, EltTy.bits .f32 = 32 ∨ (Rect.block (s := S4096x4096) S1024x2048.size (cc1_transform_3 i) (hinb1_3 i)).WholeWords (EltTy.packing .f32)

variable [Facts₀]

def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v6) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096x16384 : Shape := ⟨2, ![4096, 16384]⟩
abbrev S16384 : Shape := ⟨1, ![16384]⟩
abbrev S16384x4096 : Shape := ⟨2, ![16384, 4096]⟩
abbrev S4096 : Shape := ⟨1, ![4096]⟩
abbrev S2x2048x16384 : Shape := ⟨3, ![2, 2048, 16384]⟩
abbrev S1x1x16384 : Shape := ⟨3, ![1, 1, 16384]⟩
abbrev S_ : Shape := ⟨0, ![]⟩
abbrev S1x1x4096 : Shape := ⟨3, ![1, 1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x16384, .f32⟩
  | .hbm, ⟨2, _⟩ => ⟨S16384, .f32⟩
  | .hbm, ⟨3, _⟩ => ⟨S16384x4096, .f32⟩
  | .hbm, ⟨4, _⟩ => ⟨S4096, .f32⟩
  | .hbm, ⟨5, _⟩ => ⟨S2x2048x16384, .f32⟩
  | .hbm, ⟨6, _⟩ => ⟨S1x1x16384, .f32⟩
  | .hbm, ⟨7, _⟩ => ⟨S2x2048x16384, .f32⟩
  | .hbm, ⟨8, _⟩ => ⟨S2x2048x16384, .f32⟩
  | .hbm, ⟨9, _⟩ => ⟨S2x2048x16384, .f32⟩
  | .hbm, ⟨10, _⟩ => ⟨S2x2048x16384, .f32⟩
  | .hbm, ⟨11, _⟩ => ⟨S_, .f32⟩
  | .hbm, ⟨12, _⟩ => ⟨S2x2048x16384, .f32⟩
  | .hbm, ⟨13, _⟩ => ⟨S2x2048x16384, .f32⟩
  | .hbm, ⟨14, _⟩ => ⟨S2x2048x16384, .f32⟩
  | .hbm, ⟨15, _⟩ => ⟨S_, .f32⟩
  | .hbm, ⟨16, _⟩ => ⟨S2x2048x16384, .f32⟩
  | .hbm, ⟨17, _⟩ => ⟨S2x2048x16384, .f32⟩
  | .hbm, ⟨18, _⟩ => ⟨S2x2048x16384, .f32⟩
  | .hbm, ⟨19, _⟩ => ⟨S_, .f32⟩
  | .hbm, ⟨20, _⟩ => ⟨S2x2048x16384, .f32⟩
  | .hbm, ⟨21, _⟩ => ⟨S2x2048x16384, .f32⟩
  | .hbm, ⟨22, _⟩ => ⟨S_, .f32⟩
  | .hbm, ⟨23, _⟩ => ⟨S2x2048x16384, .f32⟩
  | .hbm, ⟨24, _⟩ => ⟨S2x2048x16384, .f32⟩
  | .hbm, ⟨25, _⟩ => ⟨S2x2048x16384, .f32⟩
  | .hbm, ⟨26, _⟩ => ⟨S2x2048x4096, .f32⟩
  | .hbm, ⟨27, _⟩ => ⟨S1x1x4096, .f32⟩
  | .hbm, ⟨28, _⟩ => ⟨S2x2048x4096, .f32⟩
  | .hbm, ⟨29, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S16384_S1x1x16384_2 : S16384.BroadcastsInDim S1x1x16384 (![2] : Fin 1 → Fin S1x1x16384.rank)
  bcast_S1x1x16384_S2x2048x16384_0_1_2 : S1x1x16384.BroadcastsInDim S2x2048x16384 (![0, 1, 2] : Fin 3 → Fin S2x2048x16384.rank)
  bcast_S_S2x2048x16384 : S_.BroadcastsInDim S2x2048x16384 (![] : Fin 0 → Fin S2x2048x16384.rank)
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  dot_S2x2048x4096_S4096x16384_S2x2048x16384_2_0_01_1_n_n_wf : DotDims.WF S2x2048x4096 S4096x16384 S2x2048x16384 [2] [0] [0, 1] [1] [] []
  dot_S2x2048x16384_S16384x4096_S2x2048x4096_2_0_01_1_n_n_wf : DotDims.WF S2x2048x16384 S16384x4096 S2x2048x4096 [2] [0] [0, 1] [1] [] []

variable [Facts₀]

def dot_S2x2048x4096_S4096x16384_S2x2048x16384_2_0_01_1_n_n : DotDims S2x2048x4096 S4096x16384 S2x2048x16384 where
  lhsContracting := [2]
  rhsContracting := [0]
  lhsNonContracting := [0, 1]
  rhsNonContracting := [1]
  lhsBatch := []
  rhsBatch := []
  wf := dot_S2x2048x4096_S4096x16384_S2x2048x16384_2_0_01_1_n_n_wf
def dot_S2x2048x16384_S16384x4096_S2x2048x4096_2_0_01_1_n_n : DotDims S2x2048x16384 S16384x4096 S2x2048x4096 where
  lhsContracting := [2]
  rhsContracting := [0]
  lhsNonContracting := [0, 1]
  rhsNonContracting := [1]
  lhsBatch := []
  rhsBatch := []
  wf := dot_S2x2048x16384_S16384x4096_S2x2048x4096_2_0_01_1_n_n_wf

class Facts : Prop extends Facts₀ where

variable [Facts]
-- ==== Proof.BitsGemm1Points.lean ====
/-
  The first matrix product's grid, point by point. The grid is (row block i, column block j, reduction step k) with k the
  fastest axis, 4 steps per (i, j). The body zeroes its accumulator when k = 0, adds one partial product at
  every step, and at the last step the block is activated and written out. This module states the two branch conditions over a
  point number t (first step iff t % 4 = 0, last step iff t % 4 = 3), where the output window is idle (every
  step but the last, and there its block is not written back), the staging buffers the body is called with, and
  the class invariant with the accumulator split off.
-/
import proofs.«169177_j50285477101612_2_alg».proof.Proof.Gen.Kernel.Launch
import proofs.«169177_j50285477101612_2_alg».proof.Proof.Gen.Kernel.Skeleton
import proofs.«169177_j50285477101612_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gemm1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions -/

/-- The reduction step is the first one (k = 0): the accumulator is zeroed. -/
abbrev atFirstStep (i : grid0.Coords) : Prop :=
  (Scalar.cmpi .ne (Scalar.extui (Scalar.cmpi .eq (BitVec.ofNat 32 (i 2).val) 0#32)) 0#32) = 1#1
theorem atFirstStep_iff : ∀ t : Fin cfg0.N, atFirstStep (grid0.coords t) ↔ t.val % 4 = 0 :=
  (by decide +kernel : ∀ t : Fin grid0.N, atFirstStep (grid0.coords t) ↔ t.val % 4 = 0)

/-- The reduction step is the last one: the block is activated and written out. -/
abbrev atLastStep (i : grid0.Coords) : Prop := k0_cond2 i = 1#1
theorem atLastStep_iff : ∀ t : Fin cfg0.N, atLastStep (grid0.coords t) ↔ t.val % 4 = 3 :=
  (by decide +kernel : ∀ t : Fin grid0.N, atLastStep (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Before the last step nothing is stored into the output window, -/
theorem idle3 : ∀ t : Fin cfg0.N, ¬atLastStep (grid0.coords t) → cfg0.idle 3 (grid0.coords t) = true := by decide +kernel
/-- and its block is not written back there. -/
theorem noFlush3 : ∀ t : Fin cfg0.N, ¬atLastStep (grid0.coords t) → (cfg0.win 3).flush t = false := by decide +kernel
/-- At the last step the output window is stored into. -/
theorem live3 : ∀ t : Fin cfg0.N, atLastStep (grid0.coords t) → cfg0.idle 3 (grid0.coords t) = false := by decide +kernel

/-! ## The memrefs the body is called with -/

abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x2048 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x2048 .bf16 := win0_3.stage (cfg0.slots t 3)
abbrev hs3 (t : Fin cfg0.N) : (ms3 t).IsWhole := hstage0_3 ((cfg0.slots t 3).cast nbuf0_3)
/-- The accumulator: a whole scoped buffer of the kernel's own. -/
abbrev accM : Memref sig .tc .vmem S1024x2048 .f32 := Memref.whole cc0_scratch0
/-- The accumulator and the output block as views, through which their contents are stated. -/
abbrev accV : View sig .tc .vmem S1024x2048 .f32 := accM.view
abbrev outV : View sig .tc .vmem S1024x2048 .bf16 := (Memref.whole cc0_stg3_0 : Memref sig .tc .vmem S1024x2048 .bf16).view

/-- The scoped buffers that are neither this call's staging buffers nor its accumulator, each whole at some contents. -/
def restOfScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the invariant holds beside the accumulator: the other scoped buffers at some contents and the generator
    register at some state. -/
def restInv (c : Dev nD) : sProp 𝕄 := iprop(restOfScoped (F := F) c ∗ (∃ r, prngReg c r))

/-- The class invariant is the accumulator owned at some contents beside the rest. -/
theorem classInv_split (c : Dev nD) :
    (Pipeline.ΦA spec0 c : sProp 𝕄) ⊣⊢ iprop((∃ d, owns (c : Thread nD τ) accM fullShare d) ∗ restInv (F := F) c) := by
  unfold Pipeline.ΦA restInv restOfScoped; rw [scopedRest0_eq]; simp only [accM, owns_whole]
  constructor
  · iintro ⟨⟨HA, R1, R2, R3, R4, R5, R6, R7, R8, R9⟩, Hg⟩
    isplitl [HA]; · iexact HA
    isplitr [Hg]
    swap; · iexact Hg
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  · iintro ⟨HA, ⟨R1, R2, R3, R4, R5, R6, R7, R8, R9⟩, Hg⟩
    isplitr [Hg]
    swap; · iexact Hg
    isplitl [HA]; · iexact HA
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9

end Cert.Kernel.Gemm1

end
-- ==== Proof.BitsGemm1RunFirst.lean ====
/-
  The first matrix product's body at the FIRST reduction step of a block (k = 0, not the last step): the accumulator,
  found at anything, is zeroed and then holds this step's partial product; nothing is stored into the output
  buffer, which comes back as it was found, as do the three input blocks. The accumulator's stores are recorded
  as a list of pieces (last store first).
-/
import proofs.«169177_j50285477101612_2_alg».proof.Proof.BitsGemm1Points

set_option maxRecDepth 16384

noncomputable section

namespace Cert.Kernel.Gemm1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runFirst (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : atFirstStep i) (hc1 : ¬atLastStep i)
    (x0 : Vec F S1024x1024 .bf16) (x1 : Vec F S1024x2048 .bf16) (x2 : Vec F S1x2048 .f32) :
    { LA : List (View.Piece (Elt F) S1024x2048 .f32) //
      ∀ (d3 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare d3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare d3 ∗ (∃ f, arg7.view.loc (c : Thread nD τ) ↦[arg7.view.set]{fullShare} arg7.view.writes (Elt F) f LA)) -∗ K ⟨⟩))
          ⊢ wp frame (wpE (defs₀ (F := F)) Variants.none c none) E (cc0__gemm1_kernel i arg3 harg3 arg4 harg4 arg5 harg5 arg6 harg6 arg7 harg7) K } := by
  refine ⟨?_, fun d3 E K => ?run⟩
  case run =>
    simp only [cc0__gemm1_kernel_eq_skeleton]; unfold cc0__gemm1_kernel_skel
    unfold owns
    iintro ⟨⟨%f0, %hf0, H0⟩, ⟨%f1, %hf1, H1⟩, ⟨%f2, %hf2, H2⟩, ⟨%f3, %hf3, H3⟩, ⟨%da, %fa, -, HA⟩, Hk⟩
    obtain rfl := harg3.eq_unread hf0; obtain rfl := harg4.eq_unread hf1; obtain rfl := harg5.eq_unread hf2
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HA

end Cert.Kernel.Gemm1

end
-- ==== Proof.BitsGemm1RunMid.lean ====
/-
  The first matrix product's body at a MIDDLE reduction step of a block (neither the first nor the last): the accumulator,
  found at what the step before left, gains this step's partial product; nothing is stored into the output buffer,
  which comes back as it was found, as do the three input blocks. The accumulator's store is recorded as a list
  of pieces.
-/
import proofs.«169177_j50285477101612_2_alg».proof.Proof.BitsGemm1Points

set_option maxRecDepth 16384

noncomputable section

namespace Cert.Kernel.Gemm1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runMid (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬atFirstStep i) (hc1 : ¬atLastStep i)
    (x0 : Vec F S1024x1024 .bf16) (x1 : Vec F S1024x2048 .bf16) (x2 : Vec F S1x2048 .f32) (acc : Vec F S1024x2048 .f32) :
    { LA : List (View.Piece (Elt F) S1024x2048 .f32) //
      ∀ (d3 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare d3 ∗ owns (c : Thread nD τ) arg7 fullShare acc
            ∗ (iprop(owns (c : Thread nD τ) arg3 fullShare x0 ∗ owns (c : Thread nD τ) arg4 fullShare x1 ∗ owns (c : Thread nD τ) arg5 fullShare x2 ∗ owns (c : Thread nD τ) arg6 fullShare d3 ∗ (∃ f, arg7.view.loc (c : Thread nD τ) ↦[arg7.view.set]{fullShare} arg7.view.writes (Elt F) f LA)) -∗ K ⟨⟩))
          ⊢ wp frame (wpE (defs₀ (F := F)) Variants.none c none) E (cc0__gemm1_kernel i arg3 harg3 arg4 harg4 arg5 harg5 arg6 harg6 arg7 harg7) K } := by
  refine ⟨?_, fun d3 E K => ?run⟩
  case run =>
    simp only [cc0__gemm1_kernel_eq_skeleton]; unfold cc0__gemm1_kernel_skel
    unfold owns
    iintro ⟨⟨%f0, %hf0, H0⟩, ⟨%f1, %hf1, H1⟩, ⟨%f2, %hf2, H2⟩, ⟨%f3, %hf3, H3⟩, ⟨%fa, %hfa, HA⟩, Hk⟩
    obtain rfl := harg3.eq_unread hf0; obtain rfl := harg4.eq_unread hf1; obtain rfl := harg5.eq_unread hf2
    obtain rfl := harg6.eq_unread hf3; obtain rfl := harg7.eq_unread hfa
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HA

end Cert.Kernel.Gemm1

end
-- ==== Proof.BitsGemm1RunLast.lean ====
/-
  The first matrix product's body at the LAST reduction step of a block (not the first step): from the three input blocks
  at their contents, the output buffer at anything and the accumulator at what the step before left, the body adds
  this step's partial product to the accumulator and stores the finished block into the output buffer. The stores
  each buffer ends with are recorded as lists of pieces (last store first); the inputs come back as they were.
-/
import proofs.«169177_j50285477101612_2_alg».proof.Proof.BitsGemm1Points

set_option maxRecDepth 16384

noncomputable section

namespace Cert.Kernel.Gemm1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runLast (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬atFirstStep i) (hc1 : atLastStep i)
    (x0 : Vec F S1024x1024 .bf16) (x1 : Vec F S1024x2048 .bf16) (x2 : Vec F S1x2048 .f32) (acc : Vec F S1024x2048 .f32) :
    Σ' (LO : List (View.Piece (Elt F) S1024x2048 .bf16)), { LA : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare acc
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LA)) -∗ K ⟨⟩))
          ⊢ wp frame (wpE (defs₀ (F := F)) Variants.none c none) E (cc0__gemm1_kernel i arg3 harg3 arg4 harg4 arg5 harg5 arg6 harg6 arg7 harg7) K } := by
  refine ⟨?_, ?_, fun E K => ?run⟩
  case run =>
    simp only [cc0__gemm1_kernel_eq_skeleton]; unfold cc0__gemm1_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fa, %hfa, HA⟩, Hk⟩
    obtain rfl := harg3.eq_unread hf0; obtain rfl := harg4.eq_unread hf1; obtain rfl := harg5.eq_unread hf2
    obtain rfl := harg7.eq_unread hfa
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HA

end Cert.Kernel.Gemm1

end
-- ==== Proof.BitsGemm1Frame.lean ====
/-
  The first matrix product as one region of the program, at the buffer contents V the region is entered from: what the
  accumulator and the output block hold after each grid point (by recursion on the point: the first step of a
  block starts the accumulator afresh, every later step adds to what the step before left, the last step also
  fills the output block), the region's invariant with the accumulator tracked at those contents, the proof data
  (each input buffer holds its block of the array, the output buffer what the recursion says), and the body
  obligation at every point: the three runs, chosen by the point's step.
-/
import proofs.«169177_j50285477101612_2_alg».proof.Proof.BitsGemm1RunFirst
import proofs.«169177_j50285477101612_2_alg».proof.Proof.BitsGemm1RunMid
import proofs.«169177_j50285477101612_2_alg».proof.Proof.BitsGemm1RunLast

set_option maxRecDepth 16384

noncomputable section

namespace Cert.Kernel.Gemm1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Contents read back from the recorded stores -/

/-- What the accumulator holds after the stores `L` (over anything: the stores cover it). -/
def accOf (L : List (View.Piece (Elt F) S1024x2048 .f32)) : Vec F S1024x2048 .f32 :=
  accV.read (Elt F) (accV.writes (Elt F) accV.junk L)
/-- What the output block holds after the stores `L`. -/
def outOf (L : List (View.Piece (Elt F) S1024x2048 .bf16)) : Vec F S1024x2048 .bf16 :=
  outV.read (Elt F) (outV.writes (Elt F) outV.junk L)

theorem coverFirst (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : atFirstStep i) (hc1 : ¬atLastStep i)
    (x0 : Vec F S1024x1024 .bf16) (x1 : Vec F S1024x2048 .bf16) (x2 : Vec F S1x2048 .f32) (y : S1024x2048.Idx) :
    ∃ pc ∈ (runFirst c i arg3 harg3 arg4 harg4 arg5 harg5 arg6 harg6 arg7 harg7 hc0 hc1 x0 x1 x2).1, y ∈ pc.1.set :=
  View.cover_of_tiledL (runFirst c i arg3 harg3 arg4 harg4 arg5 harg5 arg6 harg6 arg7 harg7 hc0 hc1 x0 x1 x2).1 S1024x2048.size (by sl_kernel_rfl) y
theorem coverMid (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬atFirstStep i) (hc1 : ¬atLastStep i)
    (x0 : Vec F S1024x1024 .bf16) (x1 : Vec F S1024x2048 .bf16) (x2 : Vec F S1x2048 .f32) (acc : Vec F S1024x2048 .f32) (y : S1024x2048.Idx) :
    ∃ pc ∈ (runMid c i arg3 harg3 arg4 harg4 arg5 harg5 arg6 harg6 arg7 harg7 hc0 hc1 x0 x1 x2 acc).1, y ∈ pc.1.set :=
  View.cover_of_tiledL (runMid c i arg3 harg3 arg4 harg4 arg5 harg5 arg6 harg6 arg7 harg7 hc0 hc1 x0 x1 x2 acc).1 S1024x2048.size (by sl_kernel_rfl) y
theorem coverLastAcc (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬atFirstStep i) (hc1 : atLastStep i)
    (x0 : Vec F S1024x1024 .bf16) (x1 : Vec F S1024x2048 .bf16) (x2 : Vec F S1x2048 .f32) (acc : Vec F S1024x2048 .f32) (y : S1024x2048.Idx) :
    ∃ pc ∈ (runLast c i arg3 harg3 arg4 harg4 arg5 harg5 arg6 harg6 arg7 harg7 hc0 hc1 x0 x1 x2 acc).2.1, y ∈ pc.1.set :=
  View.cover_of_tiledL (runLast c i arg3 harg3 arg4 harg4 arg5 harg5 arg6 harg6 arg7 harg7 hc0 hc1 x0 x1 x2 acc).2.1 S1024x2048.size (by sl_kernel_rfl) y
theorem coverLastOut (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬atFirstStep i) (hc1 : atLastStep i)
    (x0 : Vec F S1024x1024 .bf16) (x1 : Vec F S1024x2048 .bf16) (x2 : Vec F S1x2048 .f32) (acc : Vec F S1024x2048 .f32) (y : S1024x2048.Idx) :
    ∃ pc ∈ (runLast c i arg3 harg3 arg4 harg4 arg5 harg5 arg6 harg6 arg7 harg7 hc0 hc1 x0 x1 x2 acc).1, y ∈ pc.1.set :=
  View.cover_of_tiledL (runLast c i arg3 harg3 arg4 harg4 arg5 harg5 arg6 harg6 arg7 harg7 hc0 hc1 x0 x1 x2 acc).1 S256x2048.size (by sl_kernel_rfl) y

section Region
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (where it is not
    fetched its block index has not moved). -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The accumulation -/

/-- What the output buffer and the accumulator hold after the body at position `n`: the run the step selects,
    at the point's buffers and input blocks, over what position `n - 1` left in the accumulator. Where nothing
    is stored into the output buffer its component is a placeholder nothing consults. -/
def stepAt (c : Dev nD) : (n : ℕ) → n < cfg0.N → Vec F S1024x2048 .bf16 × Vec F S1024x2048 .f32
  | 0, hn => (outOf (F := F) [], accOf (runFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((atFirstStep_iff ⟨0, hn⟩).mpr (Nat.zero_mod _)) (fun h => (fun h => by (try dsimp only at h); omega) ((atLastStep_iff ⟨0, hn⟩).mp h)) (iblk V c 0 ⟨0, hn⟩) (iblk V c 1 ⟨0, hn⟩) (iblk V c 2 ⟨0, hn⟩)).1)
  | n + 1, hn =>
    if h0 : (n + 1) % 4 = 0 then
      if h1 : (n + 1) % 4 = 3 then
        False.elim (by omega)
      else
        (outOf (F := F) [], accOf (runFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((atFirstStep_iff ⟨n + 1, hn⟩).mpr h0) (fun h => h1 ((atLastStep_iff ⟨n + 1, hn⟩).mp h)) (iblk V c 0 ⟨n + 1, hn⟩) (iblk V c 1 ⟨n + 1, hn⟩) (iblk V c 2 ⟨n + 1, hn⟩)).1)
    else
      if h1 : (n + 1) % 4 = 3 then
        (outOf (runLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((atFirstStep_iff ⟨n + 1, hn⟩).mp h)) ((atLastStep_iff ⟨n + 1, hn⟩).mpr h1) (iblk V c 0 ⟨n + 1, hn⟩) (iblk V c 1 ⟨n + 1, hn⟩) (iblk V c 2 ⟨n + 1, hn⟩) (stepAt c n (Nat.lt_of_succ_lt hn)).2).1, accOf (runLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((atFirstStep_iff ⟨n + 1, hn⟩).mp h)) ((atLastStep_iff ⟨n + 1, hn⟩).mpr h1) (iblk V c 0 ⟨n + 1, hn⟩) (iblk V c 1 ⟨n + 1, hn⟩) (iblk V c 2 ⟨n + 1, hn⟩) (stepAt c n (Nat.lt_of_succ_lt hn)).2).2.1)
      else
        (outOf (F := F) [], accOf (runMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((atFirstStep_iff ⟨n + 1, hn⟩).mp h)) (fun h => h1 ((atLastStep_iff ⟨n + 1, hn⟩).mp h)) (iblk V c 0 ⟨n + 1, hn⟩) (iblk V c 1 ⟨n + 1, hn⟩) (iblk V c 2 ⟨n + 1, hn⟩) (stepAt c n (Nat.lt_of_succ_lt hn)).2).1)

theorem stepAt_first (c : Dev nD) (t : Fin cfg0.N) (h0 : t.val % 4 = 0) (h1 : ¬t.val % 4 = 3) :
    stepAt V c t.val t.isLt = (outOf (F := F) [], accOf (runFirst c (grid0.coords t) (ms0 t) (hs0 t) (ms1 t) (hs1 t) (ms2 t) (hs2 t) (ms3 t) (hs3 t) accM (Memref.isWhole_whole _) ((atFirstStep_iff t).mpr h0) (fun h => h1 ((atLastStep_iff t).mp h)) (iblk V c 0 t) (iblk V c 1 t) (iblk V c 2 t)).1) := by
  obtain ⟨n, hn⟩ := t
  cases n with
  | zero => exact rfl
  | succ n => exact (dif_pos h0).trans ((dif_neg h1).trans rfl)

theorem stepAt_mid (c : Dev nD) (t : Fin cfg0.N) (h0 : ¬t.val % 4 = 0) (h1 : ¬t.val % 4 = 3) :
    stepAt V c t.val t.isLt = (outOf (F := F) [], accOf (runMid c (grid0.coords t) (ms0 t) (hs0 t) (ms1 t) (hs1 t) (ms2 t) (hs2 t) (ms3 t) (hs3 t) accM (Memref.isWhole_whole _) (fun h => h0 ((atFirstStep_iff t).mp h)) (fun h => h1 ((atLastStep_iff t).mp h)) (iblk V c 0 t) (iblk V c 1 t) (iblk V c 2 t) (stepAt V c (t.val - 1) (Nat.lt_of_le_of_lt (Nat.sub_le _ _) t.isLt)).2).1) := by
  obtain ⟨n, hn⟩ := t
  cases n with
  | zero => exact (by exfalso; (try dsimp only at h0); exact absurd (Nat.zero_mod _) h0)
  | succ n => exact (dif_neg h0).trans ((dif_neg h1).trans rfl)

theorem stepAt_last (c : Dev nD) (t : Fin cfg0.N) (h0 : ¬t.val % 4 = 0) (h1 : t.val % 4 = 3) :
    stepAt V c t.val t.isLt = (outOf (runLast c (grid0.coords t) (ms0 t) (hs0 t) (ms1 t) (hs1 t) (ms2 t) (hs2 t) (ms3 t) (hs3 t) accM (Memref.isWhole_whole _) (fun h => h0 ((atFirstStep_iff t).mp h)) ((atLastStep_iff t).mpr h1) (iblk V c 0 t) (iblk V c 1 t) (iblk V c 2 t) (stepAt V c (t.val - 1) (Nat.lt_of_le_of_lt (Nat.sub_le _ _) t.isLt)).2).1, accOf (runLast c (grid0.coords t) (ms0 t) (hs0 t) (ms1 t) (hs1 t) (ms2 t) (hs2 t) (ms3 t) (hs3 t) accM (Memref.isWhole_whole _) (fun h => h0 ((atFirstStep_iff t).mp h)) ((atLastStep_iff t).mpr h1) (iblk V c 0 t) (iblk V c 1 t) (iblk V c 2 t) (stepAt V c (t.val - 1) (Nat.lt_of_le_of_lt (Nat.sub_le _ _) t.isLt)).2).2.1) := by
  obtain ⟨n, hn⟩ := t
  cases n with
  | zero => exact (by exfalso; (try dsimp only at h0); exact absurd (Nat.zero_mod _) h0)
  | succ n => exact (dif_neg h0).trans ((dif_pos h1).trans rfl)

/-! ## The invariant, with the accumulator tracked -/

/-- Before position `n`: before the first point the class invariant (the accumulator at anything); afterwards the
    accumulator at what position `n - 1` left, beside the rest. -/
def trackedInv (c : Dev nD) : (n : ℕ) → n ≤ cfg0.N → sProp 𝕄
  | 0, _ => Pipeline.ΦA spec0 c
  | n + 1, hn => iprop(owns (c : Thread nD τ) accM fullShare ((stepAt V c n hn).2) ∗ restInv (F := F) c)

theorem trackedInv_zero (c : Dev nD) (n : ℕ) (h : n ≤ cfg0.N) (hz : n = 0) : trackedInv V c n h = Pipeline.ΦA spec0 c := by
  subst hz; rfl
theorem trackedInv_succ (c : Dev nD) (n : ℕ) (hn : n < cfg0.N) :
    trackedInv V c (n + 1) hn = iprop(owns (c : Thread nD τ) accM fullShare ((stepAt V c n hn).2) ∗ restInv (F := F) c) := rfl
theorem trackedInv_pos (c : Dev nD) (n : ℕ) (h : n ≤ cfg0.N) (hz : n ≠ 0) :
    trackedInv V c n h = iprop(owns (c : Thread nD τ) accM fullShare ((stepAt V c (n - 1) (by omega)).2) ∗ restInv (F := F) c) := by
  cases n with
  | zero => exact absurd rfl hz
  | succ n => rfl

/-! ## The proof data -/

/-- The arrays as the region finds them; after the body each input buffer at its block and the output buffer at
    `stepAt`'s first component; the tracked invariant; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (stepAt V c t.val t.isLt).1
  Φ t := trackedInv V c t.val (Nat.le_of_lt_succ t.isLt)
  q _ := fullShare
  owed _ := 0

theorem A_eq (c : Dev nD) (w : Fin cfg0.W) : (dat V c).A w = V c (Pipeline.arrRef spec0 w) := by
  dsimp only [dat]
theorem inv_castSucc (c : Dev nD) (t : Fin cfg0.N) :
    (dat V c).Φ t.castSucc = trackedInv V c t.val (Nat.le_of_lt t.isLt) := by
  dsimp only [dat]; simp only [Fin.coe_castSucc]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = (stepAt V c t.val t.isLt).1 := by dsimp only [dat]
theorem before0 (c : Dev nD) (t : Fin cfg0.N) (d) : (dat V c).before 0 t d = iblk V c 0 t :=
  before_in0_of V (dat V c) (A_eq V c 0) (after0 V c) t d
theorem before1 (c : Dev nD) (t : Fin cfg0.N) (d) : (dat V c).before 1 t d = iblk V c 1 t :=
  before_in1_of V (dat V c) (A_eq V c 1) (after1 V c) t d
theorem before2 (c : Dev nD) (t : Fin cfg0.N) (d) : (dat V c).before 2 t d = iblk V c 2 t :=
  before_in2_of V (dat V c) (A_eq V c 2) (after2 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' buffers hold their blocks; the closed forms say which step the point is;
    the invariant hands the body the accumulator at what the point before left (at anything at the first point)
    and takes it back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).owesAt () t.succ = (dat V c).owesAt () t.castSucc from rfl]
  rw [show (dat V c).Φ t.succ = trackedInv V c (t.val + 1) t.isLt from rfl, trackedInv_succ]
  have hN : t.val < 128 := lt_of_lt_of_eq t.isLt (show cfg0.N = 128 from N_0)
  by_cases h0 : t.val % 4 = 0
  · by_cases h1 : t.val % 4 = 3
    · exfalso; omega
    · -- the first step of a block
      rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [Dat.leavesExact_idle (dat V c) 3 t (idle3 t (fun h => h1 ((atLastStep_iff t).mp h))) (noFlush3 t (fun h => h1 ((atLastStep_iff t).mp h)))]
      rw [stepAt_first V c t h0 h1]
      unfold accOf; (try dsimp only)
      by_cases hz : t.val = 0
      · rw [inv_castSucc V c t, trackedInv_zero V c _ _ hz]
        iintro ⟨HΦ, Ho, ⟨%d0, H0⟩, ⟨%d1, H1⟩, ⟨%d2, H2⟩, ⟨%d3, H3⟩⟩
        ihave HΦ' := (classInv_split (F := F) c).1 $$ HΦ
        icases HΦ' with ⟨HA, HR⟩
        iapply ((runFirst c (grid0.coords t) (ms0 t) (hs0 t) (ms1 t) (hs1 t) (ms2 t) (hs2 t) (ms3 t) (hs3 t) accM (Memref.isWhole_whole _) ((atFirstStep_iff t).mpr h0) (fun h => h1 ((atLastStep_iff t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HA]; · iexact HA
        iintro ⟨H0, H1, H2, H3, ⟨%ea, HA⟩⟩
        isplitl [HA HR]
        · isplitl [HA]
          · unfold owns; iexists _; isplitr
            swap; · iexact HA
            ipureintro; exact View.read_writes_of_cover _ _ _ _ _ (coverFirst c _ _ _ _ _ _ _ _ _ _ _ _ _ _ _ _)
          iexact HR
        isplitl [Ho]; · iexact Ho
        isplitl [H0]; · iexact H0
        isplitl [H1]; · iexact H1
        isplitl [H2]; · iexact H2
        iexists _; iexact H3
      · rw [inv_castSucc V c t, trackedInv_pos V c _ _ hz]
        iintro ⟨⟨HA, HR⟩, Ho, ⟨%d0, H0⟩, ⟨%d1, H1⟩, ⟨%d2, H2⟩, ⟨%d3, H3⟩⟩
        iapply ((runFirst c (grid0.coords t) (ms0 t) (hs0 t) (ms1 t) (hs1 t) (ms2 t) (hs2 t) (ms3 t) (hs3 t) accM (Memref.isWhole_whole _) ((atFirstStep_iff t).mpr h0) (fun h => h1 ((atLastStep_iff t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HA]; · iexists _; iexact HA
        iintro ⟨H0, H1, H2, H3, ⟨%ea, HA⟩⟩
        isplitl [HA HR]
        · isplitl [HA]
          · unfold owns; iexists _; isplitr
            swap; · iexact HA
            ipureintro; exact View.read_writes_of_cover _ _ _ _ _ (coverFirst c _ _ _ _ _ _ _ _ _ _ _ _ _ _ _ _)
          iexact HR
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 4 = 3
    · -- the last step of a block
      rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t ((atLastStep_iff t).mpr h1)], after3]
      rw [stepAt_last V c t h0 h1]
      unfold accOf outOf; (try dsimp only)
      rw [inv_castSucc V c t, trackedInv_pos V c _ _ hz]
      iintro ⟨⟨HA, HR⟩, Ho, ⟨%d0, H0⟩, ⟨%d1, H1⟩, ⟨%d2, H2⟩, ⟨%d3, H3⟩⟩
      iapply ((runLast c (grid0.coords t) (ms0 t) (hs0 t) (ms1 t) (hs1 t) (ms2 t) (hs2 t) (ms3 t) (hs3 t) accM (Memref.isWhole_whole _) (fun h => h0 ((atFirstStep_iff t).mp h)) ((atLastStep_iff t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HA]; · iexact HA
      iintro ⟨H0, H1, H2, ⟨%e3, H3⟩, ⟨%ea, HA⟩⟩
      isplitl [HA HR]
      · isplitl [HA]
        · unfold owns; iexists _; isplitr
          swap; · iexact HA
          ipureintro; exact View.read_writes_of_cover _ _ _ _ _ (coverLastAcc c _ _ _ _ _ _ _ _ _ _ _ _ _ _ _ _ _)
        iexact HR
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastOut c _ _ _ _ _ _ _ _ _ _ _ _ _ _ _ _ _)
    · -- a middle step
      rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [Dat.leavesExact_idle (dat V c) 3 t (idle3 t (fun h => h1 ((atLastStep_iff t).mp h))) (noFlush3 t (fun h => h1 ((atLastStep_iff t).mp h)))]
      rw [stepAt_mid V c t h0 h1]
      unfold accOf; (try dsimp only)
      rw [inv_castSucc V c t, trackedInv_pos V c _ _ hz]
      iintro ⟨⟨HA, HR⟩, Ho, ⟨%d0, H0⟩, ⟨%d1, H1⟩, ⟨%d2, H2⟩, ⟨%d3, H3⟩⟩
      iapply ((runMid c (grid0.coords t) (ms0 t) (hs0 t) (ms1 t) (hs1 t) (ms2 t) (hs2 t) (ms3 t) (hs3 t) accM (Memref.isWhole_whole _) (fun h => h0 ((atFirstStep_iff t).mp h)) (fun h => h1 ((atLastStep_iff t).mp h)) (iblk V c 0 t) (iblk V c 1 t) (iblk V c 2 t) _).2 _ Set.univ _)
      isplitl [H0]; · iexact H0
      isplitl [H1]; · iexact H1
      isplitl [H2]; · iexact H2
      isplitl [H3]; · iexact H3
      isplitl [HA]; · iexact HA
      iintro ⟨H0, H1, H2, H3, ⟨%ea, HA⟩⟩
      isplitl [HA HR]
      · isplitl [HA]
        · unfold owns; iexists _; isplitr
          swap; · iexact HA
          ipureintro; exact View.read_writes_of_cover _ _ _ _ _ (coverMid c _ _ _ _ _ _ _ _ _ _ _ _ _ _ _ _ _)
        iexact HR
      isplitl [Ho]; · iexact Ho
      isplitl [H0]; · iexact H0
      isplitl [H1]; · iexact H1
      isplitl [H2]; · iexact H2
      iexists _; iexact H3

/-- The body obligation at every point. -/
theorem body_obligation (c : Dev nD) : BodyObligation (dat (F := F) V c) (defs₀ (F := F)) Variants.none () Set.univ := fun t => by
  rw [bigSep_W0, bigSep_W0]
  exact sound_body V c t

/-- Before the first point the invariant is the class's. -/
theorem inv_first (c : Dev nD) : (dat V c).Φ 0 = Pipeline.ΦA spec0 c := rfl

/-- After the last point the invariant gives the class's back: the accumulator's contents are forgotten. -/
theorem inv_last (c : Dev nD) : (dat V c).Φ (Fin.last cfg0.N) ⊢ Pipeline.ΦA spec0 c := by
  rw [show (dat V c).Φ (Fin.last cfg0.N) = trackedInv V c (Fin.last cfg0.N).val (Nat.le_of_lt_succ (Fin.last cfg0.N).isLt) from rfl,
    trackedInv_pos V c _ _ (by rw [Fin.val_last]; have : cfg0.N = 128 := N_0; omega)]
  iintro ⟨HA, HR⟩
  iapply (classInv_split (F := F) c).2
  isplitl [HA]; · iexists _; iexact HA
  iexact HR

end Region

end Cert.Kernel.Gemm1

end
-- ==== Proof.BitsGemm2Points.lean ====
/-
  The second matrix product's grid, point by point. The grid is (row block i, column block j, reduction step k) with k the
  fastest axis, 32 steps per (i, j). The body zeroes its accumulator when k = 0, adds one partial product at
  every step, and at the last step the bias is added and the block written out. This module states the two branch conditions over a
  point number t (first step iff t % 32 = 0, last step iff t % 32 = 31), where the output window is idle (every
  step but the last, and there its block is not written back), the staging buffers the body is called with, and
  the class invariant with the accumulator split off.
-/
import proofs.«169177_j50285477101612_2_alg».proof.Proof.Gen.Kernel.Launch
import proofs.«169177_j50285477101612_2_alg».proof.Proof.Gen.Kernel.Skeleton
import proofs.«169177_j50285477101612_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gemm2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions -/

/-- The reduction step is the first one (k = 0): the accumulator is zeroed. -/
abbrev atFirstStep (i : grid1.Coords) : Prop :=
  (Scalar.cmpi .ne (Scalar.extui (Scalar.cmpi .eq (BitVec.ofNat 32 (i 2).val) 0#32)) 0#32) = 1#1
theorem atFirstStep_iff : ∀ t : Fin cfg1.N, atFirstStep (grid1.coords t) ↔ t.val % 32 = 0 :=
  (by decide +kernel : ∀ t : Fin grid1.N, atFirstStep (grid1.coords t) ↔ t.val % 32 = 0)

/-- The reduction step is the last one: the bias is added and the block written out. -/
abbrev atLastStep (i : grid1.Coords) : Prop := k1_cond2 i = 1#1
theorem atLastStep_iff : ∀ t : Fin cfg1.N, atLastStep (grid1.coords t) ↔ t.val % 32 = 31 :=
  (by decide +kernel : ∀ t : Fin grid1.N, atLastStep (grid1.coords t) ↔ t.val % 32 = 31)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
/-- Before the last step nothing is stored into the output window, -/
theorem idle3 : ∀ t : Fin cfg1.N, ¬atLastStep (grid1.coords t) → cfg1.idle 3 (grid1.coords t) = true := by decide +kernel
/-- and its block is not written back there. -/
theorem noFlush3 : ∀ t : Fin cfg1.N, ¬atLastStep (grid1.coords t) → (cfg1.win 3).flush t = false := by decide +kernel
/-- At the last step the output window is stored into. -/
theorem live3 : ∀ t : Fin cfg1.N, atLastStep (grid1.coords t) → cfg1.idle 3 (grid1.coords t) = false := by decide +kernel

/-! ## The memrefs the body is called with -/

abbrev ms0 (t : Fin cfg1.N) : Memref sig .tc .vmem S1024x512 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x2048 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x2048 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x2048 .f32 := win1_3.stage (cfg1.slots t 3)
abbrev hs3 (t : Fin cfg1.N) : (ms3 t).IsWhole := hstage1_3 ((cfg1.slots t 3).cast nbuf1_3)
/-- The accumulator: a whole scoped buffer of the kernel's own. -/
abbrev accM : Memref sig .tc .vmem S1024x2048 .f32 := Memref.whole cc1_scratch0
/-- The accumulator and the output block as views, through which their contents are stated. -/
abbrev accV : View sig .tc .vmem S1024x2048 .f32 := accM.view
abbrev outV : View sig .tc .vmem S1024x2048 .f32 := (Memref.whole cc1_stg3_0 : Memref sig .tc .vmem S1024x2048 .f32).view

/-- The scoped buffers that are neither this call's staging buffers nor its accumulator, each whole at some contents. -/
def restOfScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- What the invariant holds beside the accumulator: the other scoped buffers at some contents and the generator
    register at some state. -/
def restInv (c : Dev nD) : sProp 𝕄 := iprop(restOfScoped (F := F) c ∗ (∃ r, prngReg c r))

/-- The class invariant is the accumulator owned at some contents beside the rest. -/
theorem classInv_split (c : Dev nD) :
    (Pipeline.ΦA spec1 c : sProp 𝕄) ⊣⊢ iprop((∃ d, owns (c : Thread nD τ) accM fullShare d) ∗ restInv (F := F) c) := by
  unfold Pipeline.ΦA restInv restOfScoped; rw [scopedRest1_eq]; simp only [accM, owns_whole]
  constructor
  · iintro ⟨⟨R1, R2, R3, R4, R5, R6, R7, R8, R9, HA⟩, Hg⟩
    isplitl [HA]; · iexact HA
    isplitr [Hg]
    swap; · iexact Hg
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  · iintro ⟨HA, ⟨R1, R2, R3, R4, R5, R6, R7, R8, R9⟩, Hg⟩
    isplitr [Hg]
    swap; · iexact Hg
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact HA

end Cert.Kernel.Gemm2

end
-- ==== Proof.BitsGemm2RunFirst.lean ====
/-
  The second matrix product's body at the FIRST reduction step of a block (k = 0, not the last step): the accumulator,
  found at anything, is zeroed and then holds this step's partial product; nothing is stored into the output
  buffer, which comes back as it was found, as do the three input blocks. The accumulator's stores are recorded
  as a list of pieces (last store first).
-/
import proofs.«169177_j50285477101612_2_alg».proof.Proof.BitsGemm2Points

set_option maxRecDepth 16384

noncomputable section

namespace Cert.Kernel.Gemm2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runFirst (c : Dev nD) (i : grid1.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : atFirstStep i) (hc1 : ¬atLastStep i)
    (x0 : Vec F S1024x512 .bf16) (x1 : Vec F S512x2048 .bf16) (x2 : Vec F S1x2048 .f32) :
    { LA : List (View.Piece (Elt F) S1024x2048 .f32) //
      ∀ (d3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare d3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare d3 ∗ (∃ f, arg7.view.loc (c : Thread nD τ) ↦[arg7.view.set]{fullShare} arg7.view.writes (Elt F) f LA)) -∗ K ⟨⟩))
          ⊢ wp frame (wpE (defs₀ (F := F)) Variants.none c none) E (cc1__gemm2_kernel i arg3 harg3 arg4 harg4 arg5 harg5 arg6 harg6 arg7 harg7) K } := by
  refine ⟨?_, fun d3 E K => ?run⟩
  case run =>
    simp only [cc1__gemm2_kernel_eq_skeleton]; unfold cc1__gemm2_kernel_skel
    unfold owns
    iintro ⟨⟨%f0, %hf0, H0⟩, ⟨%f1, %hf1, H1⟩, ⟨%f2, %hf2, H2⟩, ⟨%f3, %hf3, H3⟩, ⟨%da, %fa, -, HA⟩, Hk⟩
    obtain rfl := harg3.eq_unread hf0; obtain rfl := harg4.eq_unread hf1; obtain rfl := harg5.eq_unread hf2
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HA

end Cert.Kernel.Gemm2

end
-- ==== Proof.BitsGemm2RunMid.lean ====
/-
  The second matrix product's body at a MIDDLE reduction step of a block (neither the first nor the last): the accumulator,
  found at what the step before left, gains this step's partial product; nothing is stored into the output buffer,
  which comes back as it was found, as do the three input blocks. The accumulator's store is recorded as a list
  of pieces.
-/
import proofs.«169177_j50285477101612_2_alg».proof.Proof.BitsGemm2Points

set_option maxRecDepth 16384

noncomputable section

namespace Cert.Kernel.Gemm2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runMid (c : Dev nD) (i : grid1.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬atFirstStep i) (hc1 : ¬atLastStep i)
    (x0 : Vec F S1024x512 .bf16) (x1 : Vec F S512x2048 .bf16) (x2 : Vec F S1x2048 .f32) (acc : Vec F S1024x2048 .f32) :
    { LA : List (View.Piece (Elt F) S1024x2048 .f32) //
      ∀ (d3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare d3 ∗ owns (c : Thread nD τ) arg7 fullShare acc
            ∗ (iprop(owns (c : Thread nD τ) arg3 fullShare x0 ∗ owns (c : Thread nD τ) arg4 fullShare x1 ∗ owns (c : Thread nD τ) arg5 fullShare x2 ∗ owns (c : Thread nD τ) arg6 fullShare d3 ∗ (∃ f, arg7.view.loc (c : Thread nD τ) ↦[arg7.view.set]{fullShare} arg7.view.writes (Elt F) f LA)) -∗ K ⟨⟩))
          ⊢ wp frame (wpE (defs₀ (F := F)) Variants.none c none) E (cc1__gemm2_kernel i arg3 harg3 arg4 harg4 arg5 harg5 arg6 harg6 arg7 harg7) K } := by
  refine ⟨?_, fun d3 E K => ?run⟩
  case run =>
    simp only [cc1__gemm2_kernel_eq_skeleton]; unfold cc1__gemm2_kernel_skel
    unfold owns
    iintro ⟨⟨%f0, %hf0, H0⟩, ⟨%f1, %hf1, H1⟩, ⟨%f2, %hf2, H2⟩, ⟨%f3, %hf3, H3⟩, ⟨%fa, %hfa, HA⟩, Hk⟩
    obtain rfl := harg3.eq_unread hf0; obtain rfl := harg4.eq_unread hf1; obtain rfl := harg5.eq_unread hf2
    obtain rfl := harg6.eq_unread hf3; obtain rfl := harg7.eq_unread hfa
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HA

end Cert.Kernel.Gemm2

end
-- ==== Proof.BitsGemm2RunLast.lean ====
/-
  The second matrix product's body at the LAST reduction step of a block (not the first step): from the three input blocks
  at their contents, the output buffer at anything and the accumulator at what the step before left, the body adds
  this step's partial product to the accumulator and stores the finished block into the output buffer. The stores
  each buffer ends with are recorded as lists of pieces (last store first); the inputs come back as they were.
-/
import proofs.«169177_j50285477101612_2_alg».proof.Proof.BitsGemm2Points

set_option maxRecDepth 16384

noncomputable section

namespace Cert.Kernel.Gemm2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runLast (c : Dev nD) (i : grid1.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬atFirstStep i) (hc1 : atLastStep i)
    (x0 : Vec F S1024x512 .bf16) (x1 : Vec F S512x2048 .bf16) (x2 : Vec F S1x2048 .f32) (acc : Vec F S1024x2048 .f32) :
    Σ' (LO : List (View.Piece (Elt F) S1024x2048 .f32)), { LA : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare acc
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LA)) -∗ K ⟨⟩))
          ⊢ wp frame (wpE (defs₀ (F := F)) Variants.none c none) E (cc1__gemm2_kernel i arg3 harg3 arg4 harg4 arg5 harg5 arg6 harg6 arg7 harg7) K } := by
  refine ⟨?_, ?_, fun E K => ?run⟩
  case run =>
    simp only [cc1__gemm2_kernel_eq_skeleton]; unfold cc1__gemm2_kernel_skel
    unfold owns
    iintro ⟨⟨%f0, %hf0, H0⟩, ⟨%f1, %hf1, H1⟩, ⟨%f2, %hf2, H2⟩, ⟨%d3, %f3, -, H3⟩, ⟨%fa, %hfa, HA⟩, Hk⟩
    obtain rfl := harg3.eq_unread hf0; obtain rfl := harg4.eq_unread hf1; obtain rfl := harg5.eq_unread hf2
    obtain rfl := harg7.eq_unread hfa
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HA

end Cert.Kernel.Gemm2

end
-- ==== Proof.BitsGemm2Frame.lean ====
/-
  The second matrix product as one region of the program, at the buffer contents V the region is entered from: what the
  accumulator and the output block hold after each grid point (by recursion on the point: the first step of a
  block starts the accumulator afresh, every later step adds to what the step before left, the last step also
  fills the output block), the region's invariant with the accumulator tracked at those contents, the proof data
  (each input buffer holds its block of the array, the output buffer what the recursion says), and the body
  obligation at every point: the three runs, chosen by the point's step.
-/
import proofs.«169177_j50285477101612_2_alg».proof.Proof.BitsGemm2RunFirst
import proofs.«169177_j50285477101612_2_alg».proof.Proof.BitsGemm2RunMid
import proofs.«169177_j50285477101612_2_alg».proof.Proof.BitsGemm2RunLast

set_option maxRecDepth 16384

noncomputable section

namespace Cert.Kernel.Gemm2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Contents read back from the recorded stores -/

/-- What the accumulator holds after the stores `L` (over anything: the stores cover it). -/
def accOf (L : List (View.Piece (Elt F) S1024x2048 .f32)) : Vec F S1024x2048 .f32 :=
  accV.read (Elt F) (accV.writes (Elt F) accV.junk L)
/-- What the output block holds after the stores `L`. -/
def outOf (L : List (View.Piece (Elt F) S1024x2048 .f32)) : Vec F S1024x2048 .f32 :=
  outV.read (Elt F) (outV.writes (Elt F) outV.junk L)

theorem coverFirst (c : Dev nD) (i : grid1.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : atFirstStep i) (hc1 : ¬atLastStep i)
    (x0 : Vec F S1024x512 .bf16) (x1 : Vec F S512x2048 .bf16) (x2 : Vec F S1x2048 .f32) (y : S1024x2048.Idx) :
    ∃ pc ∈ (runFirst c i arg3 harg3 arg4 harg4 arg5 harg5 arg6 harg6 arg7 harg7 hc0 hc1 x0 x1 x2).1, y ∈ pc.1.set :=
  View.cover_of_tiledL (runFirst c i arg3 harg3 arg4 harg4 arg5 harg5 arg6 harg6 arg7 harg7 hc0 hc1 x0 x1 x2).1 S1024x2048.size (by sl_kernel_rfl) y
theorem coverMid (c : Dev nD) (i : grid1.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬atFirstStep i) (hc1 : ¬atLastStep i)
    (x0 : Vec F S1024x512 .bf16) (x1 : Vec F S512x2048 .bf16) (x2 : Vec F S1x2048 .f32) (acc : Vec F S1024x2048 .f32) (y : S1024x2048.Idx) :
    ∃ pc ∈ (runMid c i arg3 harg3 arg4 harg4 arg5 harg5 arg6 harg6 arg7 harg7 hc0 hc1 x0 x1 x2 acc).1, y ∈ pc.1.set :=
  View.cover_of_tiledL (runMid c i arg3 harg3 arg4 harg4 arg5 harg5 arg6 harg6 arg7 harg7 hc0 hc1 x0 x1 x2 acc).1 S1024x2048.size (by sl_kernel_rfl) y
theorem coverLastAcc (c : Dev nD) (i : grid1.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬atFirstStep i) (hc1 : atLastStep i)
    (x0 : Vec F S1024x512 .bf16) (x1 : Vec F S512x2048 .bf16) (x2 : Vec F S1x2048 .f32) (acc : Vec F S1024x2048 .f32) (y : S1024x2048.Idx) :
    ∃ pc ∈ (runLast c i arg3 harg3 arg4 harg4 arg5 harg5 arg6 harg6 arg7 harg7 hc0 hc1 x0 x1 x2 acc).2.1, y ∈ pc.1.set :=
  View.cover_of_tiledL (runLast c i arg3 harg3 arg4 harg4 arg5 harg5 arg6 harg6 arg7 harg7 hc0 hc1 x0 x1 x2 acc).2.1 S1024x2048.size (by sl_kernel_rfl) y
theorem coverLastOut (c : Dev nD) (i : grid1.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬atFirstStep i) (hc1 : atLastStep i)
    (x0 : Vec F S1024x512 .bf16) (x1 : Vec F S512x2048 .bf16) (x2 : Vec F S1x2048 .f32) (acc : Vec F S1024x2048 .f32) (y : S1024x2048.Idx) :
    ∃ pc ∈ (runLast c i arg3 harg3 arg4 harg4 arg5 harg5 arg6 harg6 arg7 harg7 hc0 hc1 x0 x1 x2 acc).1, y ∈ pc.1.set :=
  View.cover_of_tiledL (runLast c i arg3 harg3 arg4 harg4 arg5 harg5 arg6 harg6 arg7 harg7 hc0 hc1 x0 x1 x2 acc).1 S1024x2048.size (by sl_kernel_rfl) y

section Region
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not (where it is not
    fetched its block index has not moved). -/
theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The accumulation -/

/-- What the output buffer and the accumulator hold after the body at position `n`: the run the step selects,
    at the point's buffers and input blocks, over what position `n - 1` left in the accumulator. Where nothing
    is stored into the output buffer its component is a placeholder nothing consults. -/
def stepAt (c : Dev nD) : (n : ℕ) → n < cfg1.N → Vec F S1024x2048 .f32 × Vec F S1024x2048 .f32
  | 0, hn => (outOf (F := F) [], accOf (runFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((atFirstStep_iff ⟨0, hn⟩).mpr (Nat.zero_mod _)) (fun h => (fun h => by (try dsimp only at h); omega) ((atLastStep_iff ⟨0, hn⟩).mp h)) (iblk V c 0 ⟨0, hn⟩) (iblk V c 1 ⟨0, hn⟩) (iblk V c 2 ⟨0, hn⟩)).1)
  | n + 1, hn =>
    if h0 : (n + 1) % 32 = 0 then
      if h1 : (n + 1) % 32 = 31 then
        False.elim (by omega)
      else
        (outOf (F := F) [], accOf (runFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((atFirstStep_iff ⟨n + 1, hn⟩).mpr h0) (fun h => h1 ((atLastStep_iff ⟨n + 1, hn⟩).mp h)) (iblk V c 0 ⟨n + 1, hn⟩) (iblk V c 1 ⟨n + 1, hn⟩) (iblk V c 2 ⟨n + 1, hn⟩)).1)
    else
      if h1 : (n + 1) % 32 = 31 then
        (outOf (runLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((atFirstStep_iff ⟨n + 1, hn⟩).mp h)) ((atLastStep_iff ⟨n + 1, hn⟩).mpr h1) (iblk V c 0 ⟨n + 1, hn⟩) (iblk V c 1 ⟨n + 1, hn⟩) (iblk V c 2 ⟨n + 1, hn⟩) (stepAt c n (Nat.lt_of_succ_lt hn)).2).1, accOf (runLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((atFirstStep_iff ⟨n + 1, hn⟩).mp h)) ((atLastStep_iff ⟨n + 1, hn⟩).mpr h1) (iblk V c 0 ⟨n + 1, hn⟩) (iblk V c 1 ⟨n + 1, hn⟩) (iblk V c 2 ⟨n + 1, hn⟩) (stepAt c n (Nat.lt_of_succ_lt hn)).2).2.1)
      else
        (outOf (F := F) [], accOf (runMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((atFirstStep_iff ⟨n + 1, hn⟩).mp h)) (fun h => h1 ((atLastStep_iff ⟨n + 1, hn⟩).mp h)) (iblk V c 0 ⟨n + 1, hn⟩) (iblk V c 1 ⟨n + 1, hn⟩) (iblk V c 2 ⟨n + 1, hn⟩) (stepAt c n (Nat.lt_of_succ_lt hn)).2).1)

theorem stepAt_first (c : Dev nD) (t : Fin cfg1.N) (h0 : t.val % 32 = 0) (h1 : ¬t.val % 32 = 31) :
    stepAt V c t.val t.isLt = (outOf (F := F) [], accOf (runFirst c (grid1.coords t) (ms0 t) (hs0 t) (ms1 t) (hs1 t) (ms2 t) (hs2 t) (ms3 t) (hs3 t) accM (Memref.isWhole_whole _) ((atFirstStep_iff t).mpr h0) (fun h => h1 ((atLastStep_iff t).mp h)) (iblk V c 0 t) (iblk V c 1 t) (iblk V c 2 t)).1) := by
  obtain ⟨n, hn⟩ := t
  cases n with
  | zero => exact rfl
  | succ n => exact (dif_pos h0).trans ((dif_neg h1).trans rfl)

theorem stepAt_mid (c : Dev nD) (t : Fin cfg1.N) (h0 : ¬t.val % 32 = 0) (h1 : ¬t.val % 32 = 31) :
    stepAt V c t.val t.isLt = (outOf (F := F) [], accOf (runMid c (grid1.coords t) (ms0 t) (hs0 t) (ms1 t) (hs1 t) (ms2 t) (hs2 t) (ms3 t) (hs3 t) accM (Memref.isWhole_whole _) (fun h => h0 ((atFirstStep_iff t).mp h)) (fun h => h1 ((atLastStep_iff t).mp h)) (iblk V c 0 t) (iblk V c 1 t) (iblk V c 2 t) (stepAt V c (t.val - 1) (Nat.lt_of_le_of_lt (Nat.sub_le _ _) t.isLt)).2).1) := by
  obtain ⟨n, hn⟩ := t
  cases n with
  | zero => exact (by exfalso; (try dsimp only at h0); exact absurd (Nat.zero_mod _) h0)
  | succ n => exact (dif_neg h0).trans ((dif_neg h1).trans rfl)

theorem stepAt_last (c : Dev nD) (t : Fin cfg1.N) (h0 : ¬t.val % 32 = 0) (h1 : t.val % 32 = 31) :
    stepAt V c t.val t.isLt = (outOf (runLast c (grid1.coords t) (ms0 t) (hs0 t) (ms1 t) (hs1 t) (ms2 t) (hs2 t) (ms3 t) (hs3 t) accM (Memref.isWhole_whole _) (fun h => h0 ((atFirstStep_iff t).mp h)) ((atLastStep_iff t).mpr h1) (iblk V c 0 t) (iblk V c 1 t) (iblk V c 2 t) (stepAt V c (t.val - 1) (Nat.lt_of_le_of_lt (Nat.sub_le _ _) t.isLt)).2).1, accOf (runLast c (grid1.coords t) (ms0 t) (hs0 t) (ms1 t) (hs1 t) (ms2 t) (hs2 t) (ms3 t) (hs3 t) accM (Memref.isWhole_whole _) (fun h => h0 ((atFirstStep_iff t).mp h)) ((atLastStep_iff t).mpr h1) (iblk V c 0 t) (iblk V c 1 t) (iblk V c 2 t) (stepAt V c (t.val - 1) (Nat.lt_of_le_of_lt (Nat.sub_le _ _) t.isLt)).2).2.1) := by
  obtain ⟨n, hn⟩ := t
  cases n with
  | zero => exact (by exfalso; (try dsimp only at h0); exact absurd (Nat.zero_mod _) h0)
  | succ n => exact (dif_neg h0).trans ((dif_pos h1).trans rfl)

/-! ## The invariant, with the accumulator tracked -/

/-- Before position `n`: before the first point the class invariant (the accumulator at anything); afterwards the
    accumulator at what position `n - 1` left, beside the rest. -/
def trackedInv (c : Dev nD) : (n : ℕ) → n ≤ cfg1.N → sProp 𝕄
  | 0, _ => Pipeline.ΦA spec1 c
  | n + 1, hn => iprop(owns (c : Thread nD τ) accM fullShare ((stepAt V c n hn).2) ∗ restInv (F := F) c)

theorem trackedInv_zero (c : Dev nD) (n : ℕ) (h : n ≤ cfg1.N) (hz : n = 0) : trackedInv V c n h = Pipeline.ΦA spec1 c := by
  subst hz; rfl
theorem trackedInv_succ (c : Dev nD) (n : ℕ) (hn : n < cfg1.N) :
    trackedInv V c (n + 1) hn = iprop(owns (c : Thread nD τ) accM fullShare ((stepAt V c n hn).2) ∗ restInv (F := F) c) := rfl
theorem trackedInv_pos (c : Dev nD) (n : ℕ) (h : n ≤ cfg1.N) (hz : n ≠ 0) :
    trackedInv V c n h = iprop(owns (c : Thread nD τ) accM fullShare ((stepAt V c (n - 1) (by omega)).2) ∗ restInv (F := F) c) := by
  cases n with
  | zero => exact absurd rfl hz
  | succ n => rfl

/-! ## The proof data -/

/-- The arrays as the region finds them; after the body each input buffer at its block and the output buffer at
    `stepAt`'s first component; the tracked invariant; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (stepAt V c t.val t.isLt).1
  Φ t := trackedInv V c t.val (Nat.le_of_lt_succ t.isLt)
  q _ := fullShare
  owed _ := 0

theorem A_eq (c : Dev nD) (w : Fin cfg1.W) : (dat V c).A w = V c (Pipeline.arrRef spec1 w) := by
  dsimp only [dat]
theorem inv_castSucc (c : Dev nD) (t : Fin cfg1.N) :
    (dat V c).Φ t.castSucc = trackedInv V c t.val (Nat.le_of_lt t.isLt) := by
  dsimp only [dat]; simp only [Fin.coe_castSucc]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = (stepAt V c t.val t.isLt).1 := by dsimp only [dat]
theorem before0 (c : Dev nD) (t : Fin cfg1.N) (d) : (dat V c).before 0 t d = iblk V c 0 t :=
  before_in0_of V (dat V c) (A_eq V c 0) (after0 V c) t d
theorem before1 (c : Dev nD) (t : Fin cfg1.N) (d) : (dat V c).before 1 t d = iblk V c 1 t :=
  before_in1_of V (dat V c) (A_eq V c 1) (after1 V c) t d
theorem before2 (c : Dev nD) (t : Fin cfg1.N) (d) : (dat V c).before 2 t d = iblk V c 2 t :=
  before_in2_of V (dat V c) (A_eq V c 2) (after2 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' buffers hold their blocks; the closed forms say which step the point is;
    the invariant hands the body the accumulator at what the point before left (at anything at the first point)
    and takes it back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).owesAt () t.succ = (dat V c).owesAt () t.castSucc from rfl]
  rw [show (dat V c).Φ t.succ = trackedInv V c (t.val + 1) t.isLt from rfl, trackedInv_succ]
  have hN : t.val < 256 := lt_of_lt_of_eq t.isLt (show cfg1.N = 256 from N_1)
  by_cases h0 : t.val % 32 = 0
  · by_cases h1 : t.val % 32 = 31
    · exfalso; omega
    · -- the first step of a block
      rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [Dat.leavesExact_idle (dat V c) 3 t (idle3 t (fun h => h1 ((atLastStep_iff t).mp h))) (noFlush3 t (fun h => h1 ((atLastStep_iff t).mp h)))]
      rw [stepAt_first V c t h0 h1]
      unfold accOf; (try dsimp only)
      by_cases hz : t.val = 0
      · rw [inv_castSucc V c t, trackedInv_zero V c _ _ hz]
        iintro ⟨HΦ, Ho, ⟨%d0, H0⟩, ⟨%d1, H1⟩, ⟨%d2, H2⟩, ⟨%d3, H3⟩⟩
        ihave HΦ' := (classInv_split (F := F) c).1 $$ HΦ
        icases HΦ' with ⟨HA, HR⟩
        iapply ((runFirst c (grid1.coords t) (ms0 t) (hs0 t) (ms1 t) (hs1 t) (ms2 t) (hs2 t) (ms3 t) (hs3 t) accM (Memref.isWhole_whole _) ((atFirstStep_iff t).mpr h0) (fun h => h1 ((atLastStep_iff t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HA]; · iexact HA
        iintro ⟨H0, H1, H2, H3, ⟨%ea, HA⟩⟩
        isplitl [HA HR]
        · isplitl [HA]
          · unfold owns; iexists _; isplitr
            swap; · iexact HA
            ipureintro; exact View.read_writes_of_cover _ _ _ _ _ (coverFirst c _ _ _ _ _ _ _ _ _ _ _ _ _ _ _ _)
          iexact HR
        isplitl [Ho]; · iexact Ho
        isplitl [H0]; · iexact H0
        isplitl [H1]; · iexact H1
        isplitl [H2]; · iexact H2
        iexists _; iexact H3
      · rw [inv_castSucc V c t, trackedInv_pos V c _ _ hz]
        iintro ⟨⟨HA, HR⟩, Ho, ⟨%d0, H0⟩, ⟨%d1, H1⟩, ⟨%d2, H2⟩, ⟨%d3, H3⟩⟩
        iapply ((runFirst c (grid1.coords t) (ms0 t) (hs0 t) (ms1 t) (hs1 t) (ms2 t) (hs2 t) (ms3 t) (hs3 t) accM (Memref.isWhole_whole _) ((atFirstStep_iff t).mpr h0) (fun h => h1 ((atLastStep_iff t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HA]; · iexists _; iexact HA
        iintro ⟨H0, H1, H2, H3, ⟨%ea, HA⟩⟩
        isplitl [HA HR]
        · isplitl [HA]
          · unfold owns; iexists _; isplitr
            swap; · iexact HA
            ipureintro; exact View.read_writes_of_cover _ _ _ _ _ (coverFirst c _ _ _ _ _ _ _ _ _ _ _ _ _ _ _ _)
          iexact HR
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 32 = 31
    · -- the last step of a block
      rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t ((atLastStep_iff t).mpr h1)], after3]
      rw [stepAt_last V c t h0 h1]
      unfold accOf outOf; (try dsimp only)
      rw [inv_castSucc V c t, trackedInv_pos V c _ _ hz]
      iintro ⟨⟨HA, HR⟩, Ho, ⟨%d0, H0⟩, ⟨%d1, H1⟩, ⟨%d2, H2⟩, ⟨%d3, H3⟩⟩
      iapply ((runLast c (grid1.coords t) (ms0 t) (hs0 t) (ms1 t) (hs1 t) (ms2 t) (hs2 t) (ms3 t) (hs3 t) accM (Memref.isWhole_whole _) (fun h => h0 ((atFirstStep_iff t).mp h)) ((atLastStep_iff t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HA]; · iexact HA
      iintro ⟨H0, H1, H2, ⟨%e3, H3⟩, ⟨%ea, HA⟩⟩
      isplitl [HA HR]
      · isplitl [HA]
        · unfold owns; iexists _; isplitr
          swap; · iexact HA
          ipureintro; exact View.read_writes_of_cover _ _ _ _ _ (coverLastAcc c _ _ _ _ _ _ _ _ _ _ _ _ _ _ _ _ _)
        iexact HR
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastOut c _ _ _ _ _ _ _ _ _ _ _ _ _ _ _ _ _)
    · -- a middle step
      rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [Dat.leavesExact_idle (dat V c) 3 t (idle3 t (fun h => h1 ((atLastStep_iff t).mp h))) (noFlush3 t (fun h => h1 ((atLastStep_iff t).mp h)))]
      rw [stepAt_mid V c t h0 h1]
      unfold accOf; (try dsimp only)
      rw [inv_castSucc V c t, trackedInv_pos V c _ _ hz]
      iintro ⟨⟨HA, HR⟩, Ho, ⟨%d0, H0⟩, ⟨%d1, H1⟩, ⟨%d2, H2⟩, ⟨%d3, H3⟩⟩
      iapply ((runMid c (grid1.coords t) (ms0 t) (hs0 t) (ms1 t) (hs1 t) (ms2 t) (hs2 t) (ms3 t) (hs3 t) accM (Memref.isWhole_whole _) (fun h => h0 ((atFirstStep_iff t).mp h)) (fun h => h1 ((atLastStep_iff t).mp h)) (iblk V c 0 t) (iblk V c 1 t) (iblk V c 2 t) _).2 _ Set.univ _)
      isplitl [H0]; · iexact H0
      isplitl [H1]; · iexact H1
      isplitl [H2]; · iexact H2
      isplitl [H3]; · iexact H3
      isplitl [HA]; · iexact HA
      iintro ⟨H0, H1, H2, H3, ⟨%ea, HA⟩⟩
      isplitl [HA HR]
      · isplitl [HA]
        · unfold owns; iexists _; isplitr
          swap; · iexact HA
          ipureintro; exact View.read_writes_of_cover _ _ _ _ _ (coverMid c _ _ _ _ _ _ _ _ _ _ _ _ _ _ _ _ _)
        iexact HR
      isplitl [Ho]; · iexact Ho
      isplitl [H0]; · iexact H0
      isplitl [H1]; · iexact H1
      isplitl [H2]; · iexact H2
      iexists _; iexact H3

/-- The body obligation at every point. -/
theorem body_obligation (c : Dev nD) : BodyObligation (dat (F := F) V c) (defs₀ (F := F)) Variants.none () Set.univ := fun t => by
  rw [bigSep_W1, bigSep_W1]
  exact sound_body V c t

/-- Before the first point the invariant is the class's. -/
theorem inv_first (c : Dev nD) : (dat V c).Φ 0 = Pipeline.ΦA spec1 c := rfl

/-- After the last point the invariant gives the class's back: the accumulator's contents are forgotten. -/
theorem inv_last (c : Dev nD) : (dat V c).Φ (Fin.last cfg1.N) ⊢ Pipeline.ΦA spec1 c := by
  rw [show (dat V c).Φ (Fin.last cfg1.N) = trackedInv V c (Fin.last cfg1.N).val (Nat.le_of_lt_succ (Fin.last cfg1.N).isLt) from rfl,
    trackedInv_pos V c _ _ (by rw [Fin.val_last]; have : cfg1.N = 256 := N_1; omega)]
  iintro ⟨HA, HR⟩
  iapply (classInv_split (F := F) c).2
  isplitl [HA]; · iexists _; iexact HA
  iexact HR

end Region

end Cert.Kernel.Gemm2

end
-- ==== Proof.BitsMainRun.lean ====
/-
  The whole program: the host operations before the two calls (a reshape, three roundings, two reshapes), the
  first matrix product, the second, and the closing reshape. The contents of every unscoped buffer at each
  boundary are a fold from the launch memory: after a host stretch what its operations compute, after a call its
  arrays at what the call's write-backs leave and every other buffer as the call found it. Each call is a segment
  over the thread state "every unscoped buffer at the boundary's contents, the generator register at some state,
  nothing owed". The run ends with every unscoped buffer at the last boundary's contents; no host operation and
  no call writes an argument, so each argument ends as launched.
-/
import proofs.«169177_j50285477101612_2_alg».proof.Proof.BitsGemm1Frame
import proofs.«169177_j50285477101612_2_alg».proof.Proof.BitsGemm2Frame
import proofs.«169177_j50285477101612_2_alg».proof.Proof.Gen.Kernel.Regions

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After the host operations before the calls (the first call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first call's exit: its arrays at what its write-backs leave, every other buffer as entered. -/
def W2 (c : Dev nD) : Valuation τ sig (Elt F) :=
  Pipeline.withArrays spec0 c (W1 m c) fun w => (Gemm1.dat (V1 m) c).arrAt w cfg0.N
theorem W2_arr (c : Dev nD) (w : Fin cfg0.W) :
    W2 m c (Proc.devRef .tc (Pipeline.arrRef spec0 w)) = (Gemm1.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Gemm1.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At the second call's exit, likewise (it is entered where the first one ended). -/
def W3 (c : Dev nD) : Valuation τ sig (Elt F) :=
  Pipeline.withArrays spec1 c (W2 m c) fun w => (Gemm2.dat (V2 m) c).arrAt w cfg1.N
theorem W3_arr (c : Dev nD) (w : Fin cfg1.W) :
    W3 m c (Proc.devRef .tc (Pipeline.arrRef spec1 w)) = (Gemm2.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (Gemm2.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the closing reshape. -/
abbrev W4 : Dev nD → Valuation τ sig (Elt F) := fun c => StableHlo.after hostOps2 (W3 m c)

/-! ## The arguments end as launched -/

theorem W4_arg (c : Dev nD) (r : Ref sig .tc) (h0 : r ∉ hostOps0_W) (h2 : r ∉ hostOps2_W)
    (hw0 : ∀ w, Pipeline.arrRef spec0 w ≠ r) (hw1 : ∀ w, Pipeline.arrRef spec1 w ≠ r) :
    W4 m c (Proc.devRef .tc r) = m ((c : Thread nD τ).loc r) :=
  calc W4 m c (Proc.devRef .tc r)
    _ = W3 m c (Proc.devRef .tc r) := StableHlo.after_of_writes_sub hostOps2 _ hostOps2_writes h2
    _ = W2 m c (Proc.devRef .tc r) := W3_of_ne m c r hw1
    _ = W1 m c (Proc.devRef .tc r) := W2_of_ne m c r hw0
    _ = W0 m c (Proc.devRef .tc r) := StableHlo.after_of_writes_sub hostOps0 _ hostOps0_writes h0
    _ = m ((c : Thread nD τ).loc r) := rfl
theorem W4_main_arg0 (c : Dev nD) : W4 m c (Proc.devRef .tc main_arg0) = m ((c : Thread nD τ).loc main_arg0) := W4_arg m c _ (by decide) (by decide) (by decide) (by decide)
theorem W4_main_arg1 (c : Dev nD) : W4 m c (Proc.devRef .tc main_arg1) = m ((c : Thread nD τ).loc main_arg1) := W4_arg m c _ (by decide) (by decide) (by decide) (by decide)
theorem W4_main_arg2 (c : Dev nD) : W4 m c (Proc.devRef .tc main_arg2) = m ((c : Thread nD τ).loc main_arg2) := W4_arg m c _ (by decide) (by decide) (by decide) (by decide)
theorem W4_main_arg3 (c : Dev nD) : W4 m c (Proc.devRef .tc main_arg3) = m ((c : Thread nD τ).loc main_arg3) := W4_arg m c _ (by decide) (by decide) (by decide) (by decide)
theorem W4_main_arg4 (c : Dev nD) : W4 m c (Proc.devRef .tc main_arg4) = m ((c : Thread nD τ).loc main_arg4) := W4_arg m c _ (by decide) (by decide) (by decide) (by decide)

/-! ## The proof data family and the thread state -/

abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => Gemm1.dat (V1 m) c
  | ⟨1, _⟩ => fun c => Gemm2.dat (V2 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The calls as segments -/

set_option backward.isDefEq.respectTransparency.types false in
/-- The first matrix product as a segment: entered from every unscoped buffer at `W1`, left at `W2`. Its arrays are
    split out of the unscoped buffers and put back at the exit contents; the generator register and the scoped
    buffers go into the invariant (the accumulator at anything before the first point) and come out of it after the
    last (the accumulator's contents forgotten); nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Gemm1.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Gemm1.inv_last (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second matrix product as a segment: entered from every unscoped buffer at `W2`, left at `W3`. Its arrays are
    split out of the unscoped buffers and put back at the exit contents; the generator register and the scoped
    buffers go into the invariant (the accumulator at anything before the first point) and come out of it after the
    last (the accumulator's contents forgotten); nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Gemm2.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Gemm2.inv_last (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final state holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => by
      show iprop(StableHlo.held (c : Thread nD τ) (Pipeline.ucRefs τ sig) (W4 m c) ∗ R c)
        ⊢ iprop(iprop(StableHlo.held (c : Thread nD τ) (Pipeline.ucRefs τ sig) (W4 m c) ∗ ∃ r, prngReg c r) ∗ ∃ W, owes (c : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

end Cert.Kernel.Whole

end
-- ==== Proof.Gemm1Points.lean ====
/-
  The first matrix product's grid, point by point. The grid is (row block i, column block j, reduction step k) with k the
  fastest axis, 4 steps per (i, j). The body zeroes its accumulator when k = 0, adds one partial product at
  every step, and at the last step the block is activated and written out. This module states the two branch conditions over a
  point number t (first step iff t % 4 = 0, last step iff t % 4 = 3), where the output window is idle (every
  step but the last, and there its block is not written back), the staging buffers the body is called with, and
  the class invariant with the accumulator split off.
-/
import proofs.«169177_j50285477101612_2_alg».proof.Proof.Gen.KernelIdeal.Launch
import proofs.«169177_j50285477101612_2_alg».proof.Proof.Gen.KernelIdeal.Skeleton
import proofs.«169177_j50285477101612_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gemm1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions -/

/-- The reduction step is the first one (k = 0): the accumulator is zeroed. -/
abbrev atFirstStep (i : grid0.Coords) : Prop :=
  (Scalar.cmpi .ne (Scalar.extui (Scalar.cmpi .eq (BitVec.ofNat 32 (i 2).val) 0#32)) 0#32) = 1#1
theorem atFirstStep_iff : ∀ t : Fin cfg0.N, atFirstStep (grid0.coords t) ↔ t.val % 4 = 0 :=
  (by decide +kernel : ∀ t : Fin grid0.N, atFirstStep (grid0.coords t) ↔ t.val % 4 = 0)

/-- The reduction step is the last one: the block is activated and written out. -/
abbrev atLastStep (i : grid0.Coords) : Prop := k0_cond2 i = 1#1
theorem atLastStep_iff : ∀ t : Fin cfg0.N, atLastStep (grid0.coords t) ↔ t.val % 4 = 3 :=
  (by decide +kernel : ∀ t : Fin grid0.N, atLastStep (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Before the last step nothing is stored into the output window, -/
theorem idle3 : ∀ t : Fin cfg0.N, ¬atLastStep (grid0.coords t) → cfg0.idle 3 (grid0.coords t) = true := by decide +kernel
/-- and its block is not written back there. -/
theorem noFlush3 : ∀ t : Fin cfg0.N, ¬atLastStep (grid0.coords t) → (cfg0.win 3).flush t = false := by decide +kernel
/-- At the last step the output window is stored into. -/
theorem live3 : ∀ t : Fin cfg0.N, atLastStep (grid0.coords t) → cfg0.idle 3 (grid0.coords t) = false := by decide +kernel

/-! ## The memrefs the body is called with -/

abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x2048 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x2048 .bf16 := win0_3.stage (cfg0.slots t 3)
abbrev hs3 (t : Fin cfg0.N) : (ms3 t).IsWhole := hstage0_3 ((cfg0.slots t 3).cast nbuf0_3)
/-- The accumulator: a whole scoped buffer of the kernel's own. -/
abbrev accM : Memref sig .tc .vmem S1024x2048 .f32 := Memref.whole cc0_scratch0
/-- The accumulator and the output block as views, through which their contents are stated. -/
abbrev accV : View sig .tc .vmem S1024x2048 .f32 := accM.view
abbrev outV : View sig .tc .vmem S1024x2048 .bf16 := (Memref.whole cc0_stg3_0 : Memref sig .tc .vmem S1024x2048 .bf16).view

/-- The scoped buffers that are neither this call's staging buffers nor its accumulator, each whole at some contents. -/
def restOfScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the invariant holds beside the accumulator: the other scoped buffers at some contents and the generator
    register at some state. -/
def restInv (c : Dev nD) : sProp 𝕄 := iprop(restOfScoped (F := F) c ∗ (∃ r, prngReg c r))

/-- The class invariant is the accumulator owned at some contents beside the rest. -/
theorem classInv_split (c : Dev nD) :
    (Pipeline.ΦA spec0 c : sProp 𝕄) ⊣⊢ iprop((∃ d, owns (c : Thread nD τ) accM fullShare d) ∗ restInv (F := F) c) := by
  unfold Pipeline.ΦA restInv restOfScoped; rw [scopedRest0_eq]; simp only [accM, owns_whole]
  constructor
  · iintro ⟨⟨HA, R1, R2, R3, R4, R5, R6, R7, R8, R9⟩, Hg⟩
    isplitl [HA]; · iexact HA
    isplitr [Hg]
    swap; · iexact Hg
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  · iintro ⟨HA, ⟨R1, R2, R3, R4, R5, R6, R7, R8, R9⟩, Hg⟩
    isplitr [Hg]
    swap; · iexact Hg
    isplitl [HA]; · iexact HA
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9

end Cert.KernelIdeal.Gemm1

end
-- ==== Proof.Gemm1RunFirst.lean ====
/-
  The first matrix product's body at the FIRST reduction step of a block (k = 0, not the last step): the accumulator,
  found at anything, is zeroed and then holds this step's partial product; nothing is stored into the output
  buffer, which comes back as it was found, as do the three input blocks. The accumulator's stores are recorded
  as a list of pieces (last store first).
-/
import proofs.«169177_j50285477101612_2_alg».proof.Proof.Gemm1Points

set_option maxRecDepth 16384

noncomputable section

namespace Cert.KernelIdeal.Gemm1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runFirst (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : atFirstStep i) (hc1 : ¬atLastStep i)
    (x0 : Vec F S1024x1024 .bf16) (x1 : Vec F S1024x2048 .bf16) (x2 : Vec F S1x2048 .f32) :
    { LA : List (View.Piece (Elt F) S1024x2048 .f32) //
      ∀ (d3 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare d3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare d3 ∗ (∃ f, arg7.view.loc (c : Thread nD τ) ↦[arg7.view.set]{fullShare} arg7.view.writes (Elt F) f LA)) -∗ K ⟨⟩))
          ⊢ wp frame (wpE (defs₀ (F := F)) Variants.none c none) E (cc0__gemm1_kernel i arg3 harg3 arg4 harg4 arg5 harg5 arg6 harg6 arg7 harg7) K } := by
  refine ⟨?_, fun d3 E K => ?run⟩
  case run =>
    simp only [cc0__gemm1_kernel_eq_skeleton]; unfold cc0__gemm1_kernel_skel
    unfold owns
    iintro ⟨⟨%f0, %hf0, H0⟩, ⟨%f1, %hf1, H1⟩, ⟨%f2, %hf2, H2⟩, ⟨%f3, %hf3, H3⟩, ⟨%da, %fa, -, HA⟩, Hk⟩
    obtain rfl := harg3.eq_unread hf0; obtain rfl := harg4.eq_unread hf1; obtain rfl := harg5.eq_unread hf2
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HA

end Cert.KernelIdeal.Gemm1

end
-- ==== Proof.Gemm1RunMid.lean ====
/-
  The first matrix product's body at a MIDDLE reduction step of a block (neither the first nor the last): the accumulator,
  found at what the step before left, gains this step's partial product; nothing is stored into the output buffer,
  which comes back as it was found, as do the three input blocks. The accumulator's store is recorded as a list
  of pieces.
-/
import proofs.«169177_j50285477101612_2_alg».proof.Proof.Gemm1Points

set_option maxRecDepth 16384

noncomputable section

namespace Cert.KernelIdeal.Gemm1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runMid (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬atFirstStep i) (hc1 : ¬atLastStep i)
    (x0 : Vec F S1024x1024 .bf16) (x1 : Vec F S1024x2048 .bf16) (x2 : Vec F S1x2048 .f32) (acc : Vec F S1024x2048 .f32) :
    { LA : List (View.Piece (Elt F) S1024x2048 .f32) //
      ∀ (d3 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare d3 ∗ owns (c : Thread nD τ) arg7 fullShare acc
            ∗ (iprop(owns (c : Thread nD τ) arg3 fullShare x0 ∗ owns (c : Thread nD τ) arg4 fullShare x1 ∗ owns (c : Thread nD τ) arg5 fullShare x2 ∗ owns (c : Thread nD τ) arg6 fullShare d3 ∗ (∃ f, arg7.view.loc (c : Thread nD τ) ↦[arg7.view.set]{fullShare} arg7.view.writes (Elt F) f LA)) -∗ K ⟨⟩))
          ⊢ wp frame (wpE (defs₀ (F := F)) Variants.none c none) E (cc0__gemm1_kernel i arg3 harg3 arg4 harg4 arg5 harg5 arg6 harg6 arg7 harg7) K } := by
  refine ⟨?_, fun d3 E K => ?run⟩
  case run =>
    simp only [cc0__gemm1_kernel_eq_skeleton]; unfold cc0__gemm1_kernel_skel
    unfold owns
    iintro ⟨⟨%f0, %hf0, H0⟩, ⟨%f1, %hf1, H1⟩, ⟨%f2, %hf2, H2⟩, ⟨%f3, %hf3, H3⟩, ⟨%fa, %hfa, HA⟩, Hk⟩
    obtain rfl := harg3.eq_unread hf0; obtain rfl := harg4.eq_unread hf1; obtain rfl := harg5.eq_unread hf2
    obtain rfl := harg6.eq_unread hf3; obtain rfl := harg7.eq_unread hfa
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HA

end Cert.KernelIdeal.Gemm1

end
-- ==== Proof.Gemm1RunLast.lean ====
/-
  The first matrix product's body at the LAST reduction step of a block (not the first step): from the three input blocks
  at their contents, the output buffer at anything and the accumulator at what the step before left, the body adds
  this step's partial product to the accumulator and stores the finished block into the output buffer. The stores
  each buffer ends with are recorded as lists of pieces (last store first); the inputs come back as they were.
-/
import proofs.«169177_j50285477101612_2_alg».proof.Proof.Gemm1Points

set_option maxRecDepth 16384

noncomputable section

namespace Cert.KernelIdeal.Gemm1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runLast (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬atFirstStep i) (hc1 : atLastStep i)
    (x0 : Vec F S1024x1024 .bf16) (x1 : Vec F S1024x2048 .bf16) (x2 : Vec F S1x2048 .f32) (acc : Vec F S1024x2048 .f32) :
    Σ' (LO : List (View.Piece (Elt F) S1024x2048 .bf16)), { LA : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare acc
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LA)) -∗ K ⟨⟩))
          ⊢ wp frame (wpE (defs₀ (F := F)) Variants.none c none) E (cc0__gemm1_kernel i arg3 harg3 arg4 harg4 arg5 harg5 arg6 harg6 arg7 harg7) K } := by
  refine ⟨?_, ?_, fun E K => ?run⟩
  case run =>
    simp only [cc0__gemm1_kernel_eq_skeleton]; unfold cc0__gemm1_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fa, %hfa, HA⟩, Hk⟩
    obtain rfl := harg3.eq_unread hf0; obtain rfl := harg4.eq_unread hf1; obtain rfl := harg5.eq_unread hf2
    obtain rfl := harg7.eq_unread hfa
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HA

end Cert.KernelIdeal.Gemm1

end
-- ==== Proof.Gemm1Frame.lean ====
/-
  The first matrix product as one region of the program, at the buffer contents V the region is entered from: what the
  accumulator and the output block hold after each grid point (by recursion on the point: the first step of a
  block starts the accumulator afresh, every later step adds to what the step before left, the last step also
  fills the output block), the region's invariant with the accumulator tracked at those contents, the proof data
  (each input buffer holds its block of the array, the output buffer what the recursion says), and the body
  obligation at every point: the three runs, chosen by the point's step.
-/
import proofs.«169177_j50285477101612_2_alg».proof.Proof.Gemm1RunFirst
import proofs.«169177_j50285477101612_2_alg».proof.Proof.Gemm1RunMid
import proofs.«169177_j50285477101612_2_alg».proof.Proof.Gemm1RunLast

set_option maxRecDepth 16384

noncomputable section

namespace Cert.KernelIdeal.Gemm1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Contents read back from the recorded stores -/

/-- What the accumulator holds after the stores `L` (over anything: the stores cover it). -/
def accOf (L : List (View.Piece (Elt F) S1024x2048 .f32)) : Vec F S1024x2048 .f32 :=
  accV.read (Elt F) (accV.writes (Elt F) accV.junk L)
/-- What the output block holds after the stores `L`. -/
def outOf (L : List (View.Piece (Elt F) S1024x2048 .bf16)) : Vec F S1024x2048 .bf16 :=
  outV.read (Elt F) (outV.writes (Elt F) outV.junk L)

theorem coverFirst (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : atFirstStep i) (hc1 : ¬atLastStep i)
    (x0 : Vec F S1024x1024 .bf16) (x1 : Vec F S1024x2048 .bf16) (x2 : Vec F S1x2048 .f32) (y : S1024x2048.Idx) :
    ∃ pc ∈ (runFirst c i arg3 harg3 arg4 harg4 arg5 harg5 arg6 harg6 arg7 harg7 hc0 hc1 x0 x1 x2).1, y ∈ pc.1.set :=
  View.cover_of_tiledL (runFirst c i arg3 harg3 arg4 harg4 arg5 harg5 arg6 harg6 arg7 harg7 hc0 hc1 x0 x1 x2).1 S1024x2048.size (by sl_kernel_rfl) y
theorem coverMid (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬atFirstStep i) (hc1 : ¬atLastStep i)
    (x0 : Vec F S1024x1024 .bf16) (x1 : Vec F S1024x2048 .bf16) (x2 : Vec F S1x2048 .f32) (acc : Vec F S1024x2048 .f32) (y : S1024x2048.Idx) :
    ∃ pc ∈ (runMid c i arg3 harg3 arg4 harg4 arg5 harg5 arg6 harg6 arg7 harg7 hc0 hc1 x0 x1 x2 acc).1, y ∈ pc.1.set :=
  View.cover_of_tiledL (runMid c i arg3 harg3 arg4 harg4 arg5 harg5 arg6 harg6 arg7 harg7 hc0 hc1 x0 x1 x2 acc).1 S1024x2048.size (by sl_kernel_rfl) y
theorem coverLastAcc (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬atFirstStep i) (hc1 : atLastStep i)
    (x0 : Vec F S1024x1024 .bf16) (x1 : Vec F S1024x2048 .bf16) (x2 : Vec F S1x2048 .f32) (acc : Vec F S1024x2048 .f32) (y : S1024x2048.Idx) :
    ∃ pc ∈ (runLast c i arg3 harg3 arg4 harg4 arg5 harg5 arg6 harg6 arg7 harg7 hc0 hc1 x0 x1 x2 acc).2.1, y ∈ pc.1.set :=
  View.cover_of_tiledL (runLast c i arg3 harg3 arg4 harg4 arg5 harg5 arg6 harg6 arg7 harg7 hc0 hc1 x0 x1 x2 acc).2.1 S1024x2048.size (by sl_kernel_rfl) y
theorem coverLastOut (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬atFirstStep i) (hc1 : atLastStep i)
    (x0 : Vec F S1024x1024 .bf16) (x1 : Vec F S1024x2048 .bf16) (x2 : Vec F S1x2048 .f32) (acc : Vec F S1024x2048 .f32) (y : S1024x2048.Idx) :
    ∃ pc ∈ (runLast c i arg3 harg3 arg4 harg4 arg5 harg5 arg6 harg6 arg7 harg7 hc0 hc1 x0 x1 x2 acc).1, y ∈ pc.1.set :=
  View.cover_of_tiledL (runLast c i arg3 harg3 arg4 harg4 arg5 harg5 arg6 harg6 arg7 harg7 hc0 hc1 x0 x1 x2 acc).1 S256x2048.size (by sl_kernel_rfl) y

section Region
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (where it is not
    fetched its block index has not moved). -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The accumulation -/

/-- What the output buffer and the accumulator hold after the body at position `n`: the run the step selects,
    at the point's buffers and input blocks, over what position `n - 1` left in the accumulator. Where nothing
    is stored into the output buffer its component is a placeholder nothing consults. -/
def stepAt (c : Dev nD) : (n : ℕ) → n < cfg0.N → Vec F S1024x2048 .bf16 × Vec F S1024x2048 .f32
  | 0, hn => (outOf (F := F) [], accOf (runFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((atFirstStep_iff ⟨0, hn⟩).mpr (Nat.zero_mod _)) (fun h => (fun h => by (try dsimp only at h); omega) ((atLastStep_iff ⟨0, hn⟩).mp h)) (iblk V c 0 ⟨0, hn⟩) (iblk V c 1 ⟨0, hn⟩) (iblk V c 2 ⟨0, hn⟩)).1)
  | n + 1, hn =>
    if h0 : (n + 1) % 4 = 0 then
      if h1 : (n + 1) % 4 = 3 then
        False.elim (by omega)
      else
        (outOf (F := F) [], accOf (runFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((atFirstStep_iff ⟨n + 1, hn⟩).mpr h0) (fun h => h1 ((atLastStep_iff ⟨n + 1, hn⟩).mp h)) (iblk V c 0 ⟨n + 1, hn⟩) (iblk V c 1 ⟨n + 1, hn⟩) (iblk V c 2 ⟨n + 1, hn⟩)).1)
    else
      if h1 : (n + 1) % 4 = 3 then
        (outOf (runLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((atFirstStep_iff ⟨n + 1, hn⟩).mp h)) ((atLastStep_iff ⟨n + 1, hn⟩).mpr h1) (iblk V c 0 ⟨n + 1, hn⟩) (iblk V c 1 ⟨n + 1, hn⟩) (iblk V c 2 ⟨n + 1, hn⟩) (stepAt c n (Nat.lt_of_succ_lt hn)).2).1, accOf (runLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((atFirstStep_iff ⟨n + 1, hn⟩).mp h)) ((atLastStep_iff ⟨n + 1, hn⟩).mpr h1) (iblk V c 0 ⟨n + 1, hn⟩) (iblk V c 1 ⟨n + 1, hn⟩) (iblk V c 2 ⟨n + 1, hn⟩) (stepAt c n (Nat.lt_of_succ_lt hn)).2).2.1)
      else
        (outOf (F := F) [], accOf (runMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((atFirstStep_iff ⟨n + 1, hn⟩).mp h)) (fun h => h1 ((atLastStep_iff ⟨n + 1, hn⟩).mp h)) (iblk V c 0 ⟨n + 1, hn⟩) (iblk V c 1 ⟨n + 1, hn⟩) (iblk V c 2 ⟨n + 1, hn⟩) (stepAt c n (Nat.lt_of_succ_lt hn)).2).1)

theorem stepAt_first (c : Dev nD) (t : Fin cfg0.N) (h0 : t.val % 4 = 0) (h1 : ¬t.val % 4 = 3) :
    stepAt V c t.val t.isLt = (outOf (F := F) [], accOf (runFirst c (grid0.coords t) (ms0 t) (hs0 t) (ms1 t) (hs1 t) (ms2 t) (hs2 t) (ms3 t) (hs3 t) accM (Memref.isWhole_whole _) ((atFirstStep_iff t).mpr h0) (fun h => h1 ((atLastStep_iff t).mp h)) (iblk V c 0 t) (iblk V c 1 t) (iblk V c 2 t)).1) := by
  obtain ⟨n, hn⟩ := t
  cases n with
  | zero => exact rfl
  | succ n => exact (dif_pos h0).trans ((dif_neg h1).trans rfl)

theorem stepAt_mid (c : Dev nD) (t : Fin cfg0.N) (h0 : ¬t.val % 4 = 0) (h1 : ¬t.val % 4 = 3) :
    stepAt V c t.val t.isLt = (outOf (F := F) [], accOf (runMid c (grid0.coords t) (ms0 t) (hs0 t) (ms1 t) (hs1 t) (ms2 t) (hs2 t) (ms3 t) (hs3 t) accM (Memref.isWhole_whole _) (fun h => h0 ((atFirstStep_iff t).mp h)) (fun h => h1 ((atLastStep_iff t).mp h)) (iblk V c 0 t) (iblk V c 1 t) (iblk V c 2 t) (stepAt V c (t.val - 1) (Nat.lt_of_le_of_lt (Nat.sub_le _ _) t.isLt)).2).1) := by
  obtain ⟨n, hn⟩ := t
  cases n with
  | zero => exact (by exfalso; (try dsimp only at h0); exact absurd (Nat.zero_mod _) h0)
  | succ n => exact (dif_neg h0).trans ((dif_neg h1).trans rfl)

theorem stepAt_last (c : Dev nD) (t : Fin cfg0.N) (h0 : ¬t.val % 4 = 0) (h1 : t.val % 4 = 3) :
    stepAt V c t.val t.isLt = (outOf (runLast c (grid0.coords t) (ms0 t) (hs0 t) (ms1 t) (hs1 t) (ms2 t) (hs2 t) (ms3 t) (hs3 t) accM (Memref.isWhole_whole _) (fun h => h0 ((atFirstStep_iff t).mp h)) ((atLastStep_iff t).mpr h1) (iblk V c 0 t) (iblk V c 1 t) (iblk V c 2 t) (stepAt V c (t.val - 1) (Nat.lt_of_le_of_lt (Nat.sub_le _ _) t.isLt)).2).1, accOf (runLast c (grid0.coords t) (ms0 t) (hs0 t) (ms1 t) (hs1 t) (ms2 t) (hs2 t) (ms3 t) (hs3 t) accM (Memref.isWhole_whole _) (fun h => h0 ((atFirstStep_iff t).mp h)) ((atLastStep_iff t).mpr h1) (iblk V c 0 t) (iblk V c 1 t) (iblk V c 2 t) (stepAt V c (t.val - 1) (Nat.lt_of_le_of_lt (Nat.sub_le _ _) t.isLt)).2).2.1) := by
  obtain ⟨n, hn⟩ := t
  cases n with
  | zero => exact (by exfalso; (try dsimp only at h0); exact absurd (Nat.zero_mod _) h0)
  | succ n => exact (dif_neg h0).trans ((dif_pos h1).trans rfl)

/-! ## The invariant, with the accumulator tracked -/

/-- Before position `n`: before the first point the class invariant (the accumulator at anything); afterwards the
    accumulator at what position `n - 1` left, beside the rest. -/
def trackedInv (c : Dev nD) : (n : ℕ) → n ≤ cfg0.N → sProp 𝕄
  | 0, _ => Pipeline.ΦA spec0 c
  | n + 1, hn => iprop(owns (c : Thread nD τ) accM fullShare ((stepAt V c n hn).2) ∗ restInv (F := F) c)

theorem trackedInv_zero (c : Dev nD) (n : ℕ) (h : n ≤ cfg0.N) (hz : n = 0) : trackedInv V c n h = Pipeline.ΦA spec0 c := by
  subst hz; rfl
theorem trackedInv_succ (c : Dev nD) (n : ℕ) (hn : n < cfg0.N) :
    trackedInv V c (n + 1) hn = iprop(owns (c : Thread nD τ) accM fullShare ((stepAt V c n hn).2) ∗ restInv (F := F) c) := rfl
theorem trackedInv_pos (c : Dev nD) (n : ℕ) (h : n ≤ cfg0.N) (hz : n ≠ 0) :
    trackedInv V c n h = iprop(owns (c : Thread nD τ) accM fullShare ((stepAt V c (n - 1) (by omega)).2) ∗ restInv (F := F) c) := by
  cases n with
  | zero => exact absurd rfl hz
  | succ n => rfl

/-! ## The proof data -/

/-- The arrays as the region finds them; after the body each input buffer at its block and the output buffer at
    `stepAt`'s first component; the tracked invariant; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (stepAt V c t.val t.isLt).1
  Φ t := trackedInv V c t.val (Nat.le_of_lt_succ t.isLt)
  q _ := fullShare
  owed _ := 0

theorem A_eq (c : Dev nD) (w : Fin cfg0.W) : (dat V c).A w = V c (Pipeline.arrRef spec0 w) := by
  dsimp only [dat]
theorem inv_castSucc (c : Dev nD) (t : Fin cfg0.N) :
    (dat V c).Φ t.castSucc = trackedInv V c t.val (Nat.le_of_lt t.isLt) := by
  dsimp only [dat]; simp only [Fin.coe_castSucc]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = (stepAt V c t.val t.isLt).1 := by dsimp only [dat]
theorem before0 (c : Dev nD) (t : Fin cfg0.N) (d) : (dat V c).before 0 t d = iblk V c 0 t :=
  before_in0_of V (dat V c) (A_eq V c 0) (after0 V c) t d
theorem before1 (c : Dev nD) (t : Fin cfg0.N) (d) : (dat V c).before 1 t d = iblk V c 1 t :=
  before_in1_of V (dat V c) (A_eq V c 1) (after1 V c) t d
theorem before2 (c : Dev nD) (t : Fin cfg0.N) (d) : (dat V c).before 2 t d = iblk V c 2 t :=
  before_in2_of V (dat V c) (A_eq V c 2) (after2 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' buffers hold their blocks; the closed forms say which step the point is;
    the invariant hands the body the accumulator at what the point before left (at anything at the first point)
    and takes it back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).owesAt () t.succ = (dat V c).owesAt () t.castSucc from rfl]
  rw [show (dat V c).Φ t.succ = trackedInv V c (t.val + 1) t.isLt from rfl, trackedInv_succ]
  have hN : t.val < 128 := lt_of_lt_of_eq t.isLt (show cfg0.N = 128 from N_0)
  by_cases h0 : t.val % 4 = 0
  · by_cases h1 : t.val % 4 = 3
    · exfalso; omega
    · -- the first step of a block
      rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [Dat.leavesExact_idle (dat V c) 3 t (idle3 t (fun h => h1 ((atLastStep_iff t).mp h))) (noFlush3 t (fun h => h1 ((atLastStep_iff t).mp h)))]
      rw [stepAt_first V c t h0 h1]
      unfold accOf; (try dsimp only)
      by_cases hz : t.val = 0
      · rw [inv_castSucc V c t, trackedInv_zero V c _ _ hz]
        iintro ⟨HΦ, Ho, ⟨%d0, H0⟩, ⟨%d1, H1⟩, ⟨%d2, H2⟩, ⟨%d3, H3⟩⟩
        ihave HΦ' := (classInv_split (F := F) c).1 $$ HΦ
        icases HΦ' with ⟨HA, HR⟩
        iapply ((runFirst c (grid0.coords t) (ms0 t) (hs0 t) (ms1 t) (hs1 t) (ms2 t) (hs2 t) (ms3 t) (hs3 t) accM (Memref.isWhole_whole _) ((atFirstStep_iff t).mpr h0) (fun h => h1 ((atLastStep_iff t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HA]; · iexact HA
        iintro ⟨H0, H1, H2, H3, ⟨%ea, HA⟩⟩
        isplitl [HA HR]
        · isplitl [HA]
          · unfold owns; iexists _; isplitr
            swap; · iexact HA
            ipureintro; exact View.read_writes_of_cover _ _ _ _ _ (coverFirst c _ _ _ _ _ _ _ _ _ _ _ _ _ _ _ _)
          iexact HR
        isplitl [Ho]; · iexact Ho
        isplitl [H0]; · iexact H0
        isplitl [H1]; · iexact H1
        isplitl [H2]; · iexact H2
        iexists _; iexact H3
      · rw [inv_castSucc V c t, trackedInv_pos V c _ _ hz]
        iintro ⟨⟨HA, HR⟩, Ho, ⟨%d0, H0⟩, ⟨%d1, H1⟩, ⟨%d2, H2⟩, ⟨%d3, H3⟩⟩
        iapply ((runFirst c (grid0.coords t) (ms0 t) (hs0 t) (ms1 t) (hs1 t) (ms2 t) (hs2 t) (ms3 t) (hs3 t) accM (Memref.isWhole_whole _) ((atFirstStep_iff t).mpr h0) (fun h => h1 ((atLastStep_iff t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HA]; · iexists _; iexact HA
        iintro ⟨H0, H1, H2, H3, ⟨%ea, HA⟩⟩
        isplitl [HA HR]
        · isplitl [HA]
          · unfold owns; iexists _; isplitr
            swap; · iexact HA
            ipureintro; exact View.read_writes_of_cover _ _ _ _ _ (coverFirst c _ _ _ _ _ _ _ _ _ _ _ _ _ _ _ _)
          iexact HR
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 4 = 3
    · -- the last step of a block
      rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t ((atLastStep_iff t).mpr h1)], after3]
      rw [stepAt_last V c t h0 h1]
      unfold accOf outOf; (try dsimp only)
      rw [inv_castSucc V c t, trackedInv_pos V c _ _ hz]
      iintro ⟨⟨HA, HR⟩, Ho, ⟨%d0, H0⟩, ⟨%d1, H1⟩, ⟨%d2, H2⟩, ⟨%d3, H3⟩⟩
      iapply ((runLast c (grid0.coords t) (ms0 t) (hs0 t) (ms1 t) (hs1 t) (ms2 t) (hs2 t) (ms3 t) (hs3 t) accM (Memref.isWhole_whole _) (fun h => h0 ((atFirstStep_iff t).mp h)) ((atLastStep_iff t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HA]; · iexact HA
      iintro ⟨H0, H1, H2, ⟨%e3, H3⟩, ⟨%ea, HA⟩⟩
      isplitl [HA HR]
      · isplitl [HA]
        · unfold owns; iexists _; isplitr
          swap; · iexact HA
          ipureintro; exact View.read_writes_of_cover _ _ _ _ _ (coverLastAcc c _ _ _ _ _ _ _ _ _ _ _ _ _ _ _ _ _)
        iexact HR
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastOut c _ _ _ _ _ _ _ _ _ _ _ _ _ _ _ _ _)
    · -- a middle step
      rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [Dat.leavesExact_idle (dat V c) 3 t (idle3 t (fun h => h1 ((atLastStep_iff t).mp h))) (noFlush3 t (fun h => h1 ((atLastStep_iff t).mp h)))]
      rw [stepAt_mid V c t h0 h1]
      unfold accOf; (try dsimp only)
      rw [inv_castSucc V c t, trackedInv_pos V c _ _ hz]
      iintro ⟨⟨HA, HR⟩, Ho, ⟨%d0, H0⟩, ⟨%d1, H1⟩, ⟨%d2, H2⟩, ⟨%d3, H3⟩⟩
      iapply ((runMid c (grid0.coords t) (ms0 t) (hs0 t) (ms1 t) (hs1 t) (ms2 t) (hs2 t) (ms3 t) (hs3 t) accM (Memref.isWhole_whole _) (fun h => h0 ((atFirstStep_iff t).mp h)) (fun h => h1 ((atLastStep_iff t).mp h)) (iblk V c 0 t) (iblk V c 1 t) (iblk V c 2 t) _).2 _ Set.univ _)
      isplitl [H0]; · iexact H0
      isplitl [H1]; · iexact H1
      isplitl [H2]; · iexact H2
      isplitl [H3]; · iexact H3
      isplitl [HA]; · iexact HA
      iintro ⟨H0, H1, H2, H3, ⟨%ea, HA⟩⟩
      isplitl [HA HR]
      · isplitl [HA]
        · unfold owns; iexists _; isplitr
          swap; · iexact HA
          ipureintro; exact View.read_writes_of_cover _ _ _ _ _ (coverMid c _ _ _ _ _ _ _ _ _ _ _ _ _ _ _ _ _)
        iexact HR
      isplitl [Ho]; · iexact Ho
      isplitl [H0]; · iexact H0
      isplitl [H1]; · iexact H1
      isplitl [H2]; · iexact H2
      iexists _; iexact H3

/-- The body obligation at every point. -/
theorem body_obligation (c : Dev nD) : BodyObligation (dat (F := F) V c) (defs₀ (F := F)) Variants.none () Set.univ := fun t => by
  rw [bigSep_W0, bigSep_W0]
  exact sound_body V c t

/-- Before the first point the invariant is the class's. -/
theorem inv_first (c : Dev nD) : (dat V c).Φ 0 = Pipeline.ΦA spec0 c := rfl

/-- After the last point the invariant gives the class's back: the accumulator's contents are forgotten. -/
theorem inv_last (c : Dev nD) : (dat V c).Φ (Fin.last cfg0.N) ⊢ Pipeline.ΦA spec0 c := by
  rw [show (dat V c).Φ (Fin.last cfg0.N) = trackedInv V c (Fin.last cfg0.N).val (Nat.le_of_lt_succ (Fin.last cfg0.N).isLt) from rfl,
    trackedInv_pos V c _ _ (by rw [Fin.val_last]; have : cfg0.N = 128 := N_0; omega)]
  iintro ⟨HA, HR⟩
  iapply (classInv_split (F := F) c).2
  isplitl [HA]; · iexists _; iexact HA
  iexact HR

end Region

end Cert.KernelIdeal.Gemm1

end
-- ==== Proof.Gemm2Points.lean ====
/-
  The second matrix product's grid, point by point. The grid is (row block i, column block j, reduction step k) with k the
  fastest axis, 32 steps per (i, j). The body zeroes its accumulator when k = 0, adds one partial product at
  every step, and at the last step the bias is added and the block written out. This module states the two branch conditions over a
  point number t (first step iff t % 32 = 0, last step iff t % 32 = 31), where the output window is idle (every
  step but the last, and there its block is not written back), the staging buffers the body is called with, and
  the class invariant with the accumulator split off.
-/
import proofs.«169177_j50285477101612_2_alg».proof.Proof.Gen.KernelIdeal.Launch
import proofs.«169177_j50285477101612_2_alg».proof.Proof.Gen.KernelIdeal.Skeleton
import proofs.«169177_j50285477101612_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gemm2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions -/

/-- The reduction step is the first one (k = 0): the accumulator is zeroed. -/
abbrev atFirstStep (i : grid1.Coords) : Prop :=
  (Scalar.cmpi .ne (Scalar.extui (Scalar.cmpi .eq (BitVec.ofNat 32 (i 2).val) 0#32)) 0#32) = 1#1
theorem atFirstStep_iff : ∀ t : Fin cfg1.N, atFirstStep (grid1.coords t) ↔ t.val % 32 = 0 :=
  (by decide +kernel : ∀ t : Fin grid1.N, atFirstStep (grid1.coords t) ↔ t.val % 32 = 0)

/-- The reduction step is the last one: the bias is added and the block written out. -/
abbrev atLastStep (i : grid1.Coords) : Prop := k1_cond2 i = 1#1
theorem atLastStep_iff : ∀ t : Fin cfg1.N, atLastStep (grid1.coords t) ↔ t.val % 32 = 31 :=
  (by decide +kernel : ∀ t : Fin grid1.N, atLastStep (grid1.coords t) ↔ t.val % 32 = 31)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
/-- Before the last step nothing is stored into the output window, -/
theorem idle3 : ∀ t : Fin cfg1.N, ¬atLastStep (grid1.coords t) → cfg1.idle 3 (grid1.coords t) = true := by decide +kernel
/-- and its block is not written back there. -/
theorem noFlush3 : ∀ t : Fin cfg1.N, ¬atLastStep (grid1.coords t) → (cfg1.win 3).flush t = false := by decide +kernel
/-- At the last step the output window is stored into. -/
theorem live3 : ∀ t : Fin cfg1.N, atLastStep (grid1.coords t) → cfg1.idle 3 (grid1.coords t) = false := by decide +kernel

/-! ## The memrefs the body is called with -/

abbrev ms0 (t : Fin cfg1.N) : Memref sig .tc .vmem S1024x512 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x2048 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x2048 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x2048 .f32 := win1_3.stage (cfg1.slots t 3)
abbrev hs3 (t : Fin cfg1.N) : (ms3 t).IsWhole := hstage1_3 ((cfg1.slots t 3).cast nbuf1_3)
/-- The accumulator: a whole scoped buffer of the kernel's own. -/
abbrev accM : Memref sig .tc .vmem S1024x2048 .f32 := Memref.whole cc1_scratch0
/-- The accumulator and the output block as views, through which their contents are stated. -/
abbrev accV : View sig .tc .vmem S1024x2048 .f32 := accM.view
abbrev outV : View sig .tc .vmem S1024x2048 .f32 := (Memref.whole cc1_stg3_0 : Memref sig .tc .vmem S1024x2048 .f32).view

/-- The scoped buffers that are neither this call's staging buffers nor its accumulator, each whole at some contents. -/
def restOfScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- What the invariant holds beside the accumulator: the other scoped buffers at some contents and the generator
    register at some state. -/
def restInv (c : Dev nD) : sProp 𝕄 := iprop(restOfScoped (F := F) c ∗ (∃ r, prngReg c r))

/-- The class invariant is the accumulator owned at some contents beside the rest. -/
theorem classInv_split (c : Dev nD) :
    (Pipeline.ΦA spec1 c : sProp 𝕄) ⊣⊢ iprop((∃ d, owns (c : Thread nD τ) accM fullShare d) ∗ restInv (F := F) c) := by
  unfold Pipeline.ΦA restInv restOfScoped; rw [scopedRest1_eq]; simp only [accM, owns_whole]
  constructor
  · iintro ⟨⟨R1, R2, R3, R4, R5, R6, R7, R8, R9, HA⟩, Hg⟩
    isplitl [HA]; · iexact HA
    isplitr [Hg]
    swap; · iexact Hg
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  · iintro ⟨HA, ⟨R1, R2, R3, R4, R5, R6, R7, R8, R9⟩, Hg⟩
    isplitr [Hg]
    swap; · iexact Hg
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact HA

end Cert.KernelIdeal.Gemm2

end
-- ==== Proof.Gemm2RunFirst.lean ====
/-
  The second matrix product's body at the FIRST reduction step of a block (k = 0, not the last step): the accumulator,
  found at anything, is zeroed and then holds this step's partial product; nothing is stored into the output
  buffer, which comes back as it was found, as do the three input blocks. The accumulator's stores are recorded
  as a list of pieces (last store first).
-/
import proofs.«169177_j50285477101612_2_alg».proof.Proof.Gemm2Points

set_option maxRecDepth 16384

noncomputable section

namespace Cert.KernelIdeal.Gemm2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runFirst (c : Dev nD) (i : grid1.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : atFirstStep i) (hc1 : ¬atLastStep i)
    (x0 : Vec F S1024x512 .bf16) (x1 : Vec F S512x2048 .bf16) (x2 : Vec F S1x2048 .f32) :
    { LA : List (View.Piece (Elt F) S1024x2048 .f32) //
      ∀ (d3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare d3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare d3 ∗ (∃ f, arg7.view.loc (c : Thread nD τ) ↦[arg7.view.set]{fullShare} arg7.view.writes (Elt F) f LA)) -∗ K ⟨⟩))
          ⊢ wp frame (wpE (defs₀ (F := F)) Variants.none c none) E (cc1__gemm2_kernel i arg3 harg3 arg4 harg4 arg5 harg5 arg6 harg6 arg7 harg7) K } := by
  refine ⟨?_, fun d3 E K => ?run⟩
  case run =>
    simp only [cc1__gemm2_kernel_eq_skeleton]; unfold cc1__gemm2_kernel_skel
    unfold owns
    iintro ⟨⟨%f0, %hf0, H0⟩, ⟨%f1, %hf1, H1⟩, ⟨%f2, %hf2, H2⟩, ⟨%f3, %hf3, H3⟩, ⟨%da, %fa, -, HA⟩, Hk⟩
    obtain rfl := harg3.eq_unread hf0; obtain rfl := harg4.eq_unread hf1; obtain rfl := harg5.eq_unread hf2
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HA

end Cert.KernelIdeal.Gemm2

end
-- ==== Proof.Gemm2RunMid.lean ====
/-
  The second matrix product's body at a MIDDLE reduction step of a block (neither the first nor the last): the accumulator,
  found at what the step before left, gains this step's partial product; nothing is stored into the output buffer,
  which comes back as it was found, as do the three input blocks. The accumulator's store is recorded as a list
  of pieces.
-/
import proofs.«169177_j50285477101612_2_alg».proof.Proof.Gemm2Points

set_option maxRecDepth 16384

noncomputable section

namespace Cert.KernelIdeal.Gemm2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runMid (c : Dev nD) (i : grid1.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬atFirstStep i) (hc1 : ¬atLastStep i)
    (x0 : Vec F S1024x512 .bf16) (x1 : Vec F S512x2048 .bf16) (x2 : Vec F S1x2048 .f32) (acc : Vec F S1024x2048 .f32) :
    { LA : List (View.Piece (Elt F) S1024x2048 .f32) //
      ∀ (d3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare d3 ∗ owns (c : Thread nD τ) arg7 fullShare acc
            ∗ (iprop(owns (c : Thread nD τ) arg3 fullShare x0 ∗ owns (c : Thread nD τ) arg4 fullShare x1 ∗ owns (c : Thread nD τ) arg5 fullShare x2 ∗ owns (c : Thread nD τ) arg6 fullShare d3 ∗ (∃ f, arg7.view.loc (c : Thread nD τ) ↦[arg7.view.set]{fullShare} arg7.view.writes (Elt F) f LA)) -∗ K ⟨⟩))
          ⊢ wp frame (wpE (defs₀ (F := F)) Variants.none c none) E (cc1__gemm2_kernel i arg3 harg3 arg4 harg4 arg5 harg5 arg6 harg6 arg7 harg7) K } := by
  refine ⟨?_, fun d3 E K => ?run⟩
  case run =>
    simp only [cc1__gemm2_kernel_eq_skeleton]; unfold cc1__gemm2_kernel_skel
    unfold owns
    iintro ⟨⟨%f0, %hf0, H0⟩, ⟨%f1, %hf1, H1⟩, ⟨%f2, %hf2, H2⟩, ⟨%f3, %hf3, H3⟩, ⟨%fa, %hfa, HA⟩, Hk⟩
    obtain rfl := harg3.eq_unread hf0; obtain rfl := harg4.eq_unread hf1; obtain rfl := harg5.eq_unread hf2
    obtain rfl := harg6.eq_unread hf3; obtain rfl := harg7.eq_unread hfa
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HA

end Cert.KernelIdeal.Gemm2

end
-- ==== Proof.Gemm2RunLast.lean ====
/-
  The second matrix product's body at the LAST reduction step of a block (not the first step): from the three input blocks
  at their contents, the output buffer at anything and the accumulator at what the step before left, the body adds
  this step's partial product to the accumulator and stores the finished block into the output buffer. The stores
  each buffer ends with are recorded as lists of pieces (last store first); the inputs come back as they were.
-/
import proofs.«169177_j50285477101612_2_alg».proof.Proof.Gemm2Points

set_option maxRecDepth 16384

noncomputable section

namespace Cert.KernelIdeal.Gemm2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runLast (c : Dev nD) (i : grid1.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬atFirstStep i) (hc1 : atLastStep i)
    (x0 : Vec F S1024x512 .bf16) (x1 : Vec F S512x2048 .bf16) (x2 : Vec F S1x2048 .f32) (acc : Vec F S1024x2048 .f32) :
    Σ' (LO : List (View.Piece (Elt F) S1024x2048 .f32)), { LA : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare acc
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LA)) -∗ K ⟨⟩))
          ⊢ wp frame (wpE (defs₀ (F := F)) Variants.none c none) E (cc1__gemm2_kernel i arg3 harg3 arg4 harg4 arg5 harg5 arg6 harg6 arg7 harg7) K } := by
  refine ⟨?_, ?_, fun E K => ?run⟩
  case run =>
    simp only [cc1__gemm2_kernel_eq_skeleton]; unfold cc1__gemm2_kernel_skel
    unfold owns
    iintro ⟨⟨%f0, %hf0, H0⟩, ⟨%f1, %hf1, H1⟩, ⟨%f2, %hf2, H2⟩, ⟨%d3, %f3, -, H3⟩, ⟨%fa, %hfa, HA⟩, Hk⟩
    obtain rfl := harg3.eq_unread hf0; obtain rfl := harg4.eq_unread hf1; obtain rfl := harg5.eq_unread hf2
    obtain rfl := harg7.eq_unread hfa
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HA

end Cert.KernelIdeal.Gemm2

end
-- ==== Proof.Gemm2Frame.lean ====
/-
  The second matrix product as one region of the program, at the buffer contents V the region is entered from: what the
  accumulator and the output block hold after each grid point (by recursion on the point: the first step of a
  block starts the accumulator afresh, every later step adds to what the step before left, the last step also
  fills the output block), the region's invariant with the accumulator tracked at those contents, the proof data
  (each input buffer holds its block of the array, the output buffer what the recursion says), and the body
  obligation at every point: the three runs, chosen by the point's step.
-/
import proofs.«169177_j50285477101612_2_alg».proof.Proof.Gemm2RunFirst
import proofs.«169177_j50285477101612_2_alg».proof.Proof.Gemm2RunMid
import proofs.«169177_j50285477101612_2_alg».proof.Proof.Gemm2RunLast

set_option maxRecDepth 16384

noncomputable section

namespace Cert.KernelIdeal.Gemm2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Contents read back from the recorded stores -/

/-- What the accumulator holds after the stores `L` (over anything: the stores cover it). -/
def accOf (L : List (View.Piece (Elt F) S1024x2048 .f32)) : Vec F S1024x2048 .f32 :=
  accV.read (Elt F) (accV.writes (Elt F) accV.junk L)
/-- What the output block holds after the stores `L`. -/
def outOf (L : List (View.Piece (Elt F) S1024x2048 .f32)) : Vec F S1024x2048 .f32 :=
  outV.read (Elt F) (outV.writes (Elt F) outV.junk L)

theorem coverFirst (c : Dev nD) (i : grid1.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : atFirstStep i) (hc1 : ¬atLastStep i)
    (x0 : Vec F S1024x512 .bf16) (x1 : Vec F S512x2048 .bf16) (x2 : Vec F S1x2048 .f32) (y : S1024x2048.Idx) :
    ∃ pc ∈ (runFirst c i arg3 harg3 arg4 harg4 arg5 harg5 arg6 harg6 arg7 harg7 hc0 hc1 x0 x1 x2).1, y ∈ pc.1.set :=
  View.cover_of_tiledL (runFirst c i arg3 harg3 arg4 harg4 arg5 harg5 arg6 harg6 arg7 harg7 hc0 hc1 x0 x1 x2).1 S1024x2048.size (by sl_kernel_rfl) y
theorem coverMid (c : Dev nD) (i : grid1.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬atFirstStep i) (hc1 : ¬atLastStep i)
    (x0 : Vec F S1024x512 .bf16) (x1 : Vec F S512x2048 .bf16) (x2 : Vec F S1x2048 .f32) (acc : Vec F S1024x2048 .f32) (y : S1024x2048.Idx) :
    ∃ pc ∈ (runMid c i arg3 harg3 arg4 harg4 arg5 harg5 arg6 harg6 arg7 harg7 hc0 hc1 x0 x1 x2 acc).1, y ∈ pc.1.set :=
  View.cover_of_tiledL (runMid c i arg3 harg3 arg4 harg4 arg5 harg5 arg6 harg6 arg7 harg7 hc0 hc1 x0 x1 x2 acc).1 S1024x2048.size (by sl_kernel_rfl) y
theorem coverLastAcc (c : Dev nD) (i : grid1.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬atFirstStep i) (hc1 : atLastStep i)
    (x0 : Vec F S1024x512 .bf16) (x1 : Vec F S512x2048 .bf16) (x2 : Vec F S1x2048 .f32) (acc : Vec F S1024x2048 .f32) (y : S1024x2048.Idx) :
    ∃ pc ∈ (runLast c i arg3 harg3 arg4 harg4 arg5 harg5 arg6 harg6 arg7 harg7 hc0 hc1 x0 x1 x2 acc).2.1, y ∈ pc.1.set :=
  View.cover_of_tiledL (runLast c i arg3 harg3 arg4 harg4 arg5 harg5 arg6 harg6 arg7 harg7 hc0 hc1 x0 x1 x2 acc).2.1 S1024x2048.size (by sl_kernel_rfl) y
theorem coverLastOut (c : Dev nD) (i : grid1.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬atFirstStep i) (hc1 : atLastStep i)
    (x0 : Vec F S1024x512 .bf16) (x1 : Vec F S512x2048 .bf16) (x2 : Vec F S1x2048 .f32) (acc : Vec F S1024x2048 .f32) (y : S1024x2048.Idx) :
    ∃ pc ∈ (runLast c i arg3 harg3 arg4 harg4 arg5 harg5 arg6 harg6 arg7 harg7 hc0 hc1 x0 x1 x2 acc).1, y ∈ pc.1.set :=
  View.cover_of_tiledL (runLast c i arg3 harg3 arg4 harg4 arg5 harg5 arg6 harg6 arg7 harg7 hc0 hc1 x0 x1 x2 acc).1 S1024x2048.size (by sl_kernel_rfl) y

section Region
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not (where it is not
    fetched its block index has not moved). -/
theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The accumulation -/

/-- What the output buffer and the accumulator hold after the body at position `n`: the run the step selects,
    at the point's buffers and input blocks, over what position `n - 1` left in the accumulator. Where nothing
    is stored into the output buffer its component is a placeholder nothing consults. -/
def stepAt (c : Dev nD) : (n : ℕ) → n < cfg1.N → Vec F S1024x2048 .f32 × Vec F S1024x2048 .f32
  | 0, hn => (outOf (F := F) [], accOf (runFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((atFirstStep_iff ⟨0, hn⟩).mpr (Nat.zero_mod _)) (fun h => (fun h => by (try dsimp only at h); omega) ((atLastStep_iff ⟨0, hn⟩).mp h)) (iblk V c 0 ⟨0, hn⟩) (iblk V c 1 ⟨0, hn⟩) (iblk V c 2 ⟨0, hn⟩)).1)
  | n + 1, hn =>
    if h0 : (n + 1) % 32 = 0 then
      if h1 : (n + 1) % 32 = 31 then
        False.elim (by omega)
      else
        (outOf (F := F) [], accOf (runFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((atFirstStep_iff ⟨n + 1, hn⟩).mpr h0) (fun h => h1 ((atLastStep_iff ⟨n + 1, hn⟩).mp h)) (iblk V c 0 ⟨n + 1, hn⟩) (iblk V c 1 ⟨n + 1, hn⟩) (iblk V c 2 ⟨n + 1, hn⟩)).1)
    else
      if h1 : (n + 1) % 32 = 31 then
        (outOf (runLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((atFirstStep_iff ⟨n + 1, hn⟩).mp h)) ((atLastStep_iff ⟨n + 1, hn⟩).mpr h1) (iblk V c 0 ⟨n + 1, hn⟩) (iblk V c 1 ⟨n + 1, hn⟩) (iblk V c 2 ⟨n + 1, hn⟩) (stepAt c n (Nat.lt_of_succ_lt hn)).2).1, accOf (runLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((atFirstStep_iff ⟨n + 1, hn⟩).mp h)) ((atLastStep_iff ⟨n + 1, hn⟩).mpr h1) (iblk V c 0 ⟨n + 1, hn⟩) (iblk V c 1 ⟨n + 1, hn⟩) (iblk V c 2 ⟨n + 1, hn⟩) (stepAt c n (Nat.lt_of_succ_lt hn)).2).2.1)
      else
        (outOf (F := F) [], accOf (runMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((atFirstStep_iff ⟨n + 1, hn⟩).mp h)) (fun h => h1 ((atLastStep_iff ⟨n + 1, hn⟩).mp h)) (iblk V c 0 ⟨n + 1, hn⟩) (iblk V c 1 ⟨n + 1, hn⟩) (iblk V c 2 ⟨n + 1, hn⟩) (stepAt c n (Nat.lt_of_succ_lt hn)).2).1)

theorem stepAt_first (c : Dev nD) (t : Fin cfg1.N) (h0 : t.val % 32 = 0) (h1 : ¬t.val % 32 = 31) :
    stepAt V c t.val t.isLt = (outOf (F := F) [], accOf (runFirst c (grid1.coords t) (ms0 t) (hs0 t) (ms1 t) (hs1 t) (ms2 t) (hs2 t) (ms3 t) (hs3 t) accM (Memref.isWhole_whole _) ((atFirstStep_iff t).mpr h0) (fun h => h1 ((atLastStep_iff t).mp h)) (iblk V c 0 t) (iblk V c 1 t) (iblk V c 2 t)).1) := by
  obtain ⟨n, hn⟩ := t
  cases n with
  | zero => exact rfl
  | succ n => exact (dif_pos h0).trans ((dif_neg h1).trans rfl)

theorem stepAt_mid (c : Dev nD) (t : Fin cfg1.N) (h0 : ¬t.val % 32 = 0) (h1 : ¬t.val % 32 = 31) :
    stepAt V c t.val t.isLt = (outOf (F := F) [], accOf (runMid c (grid1.coords t) (ms0 t) (hs0 t) (ms1 t) (hs1 t) (ms2 t) (hs2 t) (ms3 t) (hs3 t) accM (Memref.isWhole_whole _) (fun h => h0 ((atFirstStep_iff t).mp h)) (fun h => h1 ((atLastStep_iff t).mp h)) (iblk V c 0 t) (iblk V c 1 t) (iblk V c 2 t) (stepAt V c (t.val - 1) (Nat.lt_of_le_of_lt (Nat.sub_le _ _) t.isLt)).2).1) := by
  obtain ⟨n, hn⟩ := t
  cases n with
  | zero => exact (by exfalso; (try dsimp only at h0); exact absurd (Nat.zero_mod _) h0)
  | succ n => exact (dif_neg h0).trans ((dif_neg h1).trans rfl)

theorem stepAt_last (c : Dev nD) (t : Fin cfg1.N) (h0 : ¬t.val % 32 = 0) (h1 : t.val % 32 = 31) :
    stepAt V c t.val t.isLt = (outOf (runLast c (grid1.coords t) (ms0 t) (hs0 t) (ms1 t) (hs1 t) (ms2 t) (hs2 t) (ms3 t) (hs3 t) accM (Memref.isWhole_whole _) (fun h => h0 ((atFirstStep_iff t).mp h)) ((atLastStep_iff t).mpr h1) (iblk V c 0 t) (iblk V c 1 t) (iblk V c 2 t) (stepAt V c (t.val - 1) (Nat.lt_of_le_of_lt (Nat.sub_le _ _) t.isLt)).2).1, accOf (runLast c (grid1.coords t) (ms0 t) (hs0 t) (ms1 t) (hs1 t) (ms2 t) (hs2 t) (ms3 t) (hs3 t) accM (Memref.isWhole_whole _) (fun h => h0 ((atFirstStep_iff t).mp h)) ((atLastStep_iff t).mpr h1) (iblk V c 0 t) (iblk V c 1 t) (iblk V c 2 t) (stepAt V c (t.val - 1) (Nat.lt_of_le_of_lt (Nat.sub_le _ _) t.isLt)).2).2.1) := by
  obtain ⟨n, hn⟩ := t
  cases n with
  | zero => exact (by exfalso; (try dsimp only at h0); exact absurd (Nat.zero_mod _) h0)
  | succ n => exact (dif_neg h0).trans ((dif_pos h1).trans rfl)

/-! ## The invariant, with the accumulator tracked -/

/-- Before position `n`: before the first point the class invariant (the accumulator at anything); afterwards the
    accumulator at what position `n - 1` left, beside the rest. -/
def trackedInv (c : Dev nD) : (n : ℕ) → n ≤ cfg1.N → sProp 𝕄
  | 0, _ => Pipeline.ΦA spec1 c
  | n + 1, hn => iprop(owns (c : Thread nD τ) accM fullShare ((stepAt V c n hn).2) ∗ restInv (F := F) c)

theorem trackedInv_zero (c : Dev nD) (n : ℕ) (h : n ≤ cfg1.N) (hz : n = 0) : trackedInv V c n h = Pipeline.ΦA spec1 c := by
  subst hz; rfl
theorem trackedInv_succ (c : Dev nD) (n : ℕ) (hn : n < cfg1.N) :
    trackedInv V c (n + 1) hn = iprop(owns (c : Thread nD τ) accM fullShare ((stepAt V c n hn).2) ∗ restInv (F := F) c) := rfl
theorem trackedInv_pos (c : Dev nD) (n : ℕ) (h : n ≤ cfg1.N) (hz : n ≠ 0) :
    trackedInv V c n h = iprop(owns (c : Thread nD τ) accM fullShare ((stepAt V c (n - 1) (by omega)).2) ∗ restInv (F := F) c) := by
  cases n with
  | zero => exact absurd rfl hz
  | succ n => rfl

/-! ## The proof data -/

/-- The arrays as the region finds them; after the body each input buffer at its block and the output buffer at
    `stepAt`'s first component; the tracked invariant; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (stepAt V c t.val t.isLt).1
  Φ t := trackedInv V c t.val (Nat.le_of_lt_succ t.isLt)
  q _ := fullShare
  owed _ := 0

theorem A_eq (c : Dev nD) (w : Fin cfg1.W) : (dat V c).A w = V c (Pipeline.arrRef spec1 w) := by
  dsimp only [dat]
theorem inv_castSucc (c : Dev nD) (t : Fin cfg1.N) :
    (dat V c).Φ t.castSucc = trackedInv V c t.val (Nat.le_of_lt t.isLt) := by
  dsimp only [dat]; simp only [Fin.coe_castSucc]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = (stepAt V c t.val t.isLt).1 := by dsimp only [dat]
theorem before0 (c : Dev nD) (t : Fin cfg1.N) (d) : (dat V c).before 0 t d = iblk V c 0 t :=
  before_in0_of V (dat V c) (A_eq V c 0) (after0 V c) t d
theorem before1 (c : Dev nD) (t : Fin cfg1.N) (d) : (dat V c).before 1 t d = iblk V c 1 t :=
  before_in1_of V (dat V c) (A_eq V c 1) (after1 V c) t d
theorem before2 (c : Dev nD) (t : Fin cfg1.N) (d) : (dat V c).before 2 t d = iblk V c 2 t :=
  before_in2_of V (dat V c) (A_eq V c 2) (after2 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' buffers hold their blocks; the closed forms say which step the point is;
    the invariant hands the body the accumulator at what the point before left (at anything at the first point)
    and takes it back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).owesAt () t.succ = (dat V c).owesAt () t.castSucc from rfl]
  rw [show (dat V c).Φ t.succ = trackedInv V c (t.val + 1) t.isLt from rfl, trackedInv_succ]
  have hN : t.val < 256 := lt_of_lt_of_eq t.isLt (show cfg1.N = 256 from N_1)
  by_cases h0 : t.val % 32 = 0
  · by_cases h1 : t.val % 32 = 31
    · exfalso; omega
    · -- the first step of a block
      rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [Dat.leavesExact_idle (dat V c) 3 t (idle3 t (fun h => h1 ((atLastStep_iff t).mp h))) (noFlush3 t (fun h => h1 ((atLastStep_iff t).mp h)))]
      rw [stepAt_first V c t h0 h1]
      unfold accOf; (try dsimp only)
      by_cases hz : t.val = 0
      · rw [inv_castSucc V c t, trackedInv_zero V c _ _ hz]
        iintro ⟨HΦ, Ho, ⟨%d0, H0⟩, ⟨%d1, H1⟩, ⟨%d2, H2⟩, ⟨%d3, H3⟩⟩
        ihave HΦ' := (classInv_split (F := F) c).1 $$ HΦ
        icases HΦ' with ⟨HA, HR⟩
        iapply ((runFirst c (grid1.coords t) (ms0 t) (hs0 t) (ms1 t) (hs1 t) (ms2 t) (hs2 t) (ms3 t) (hs3 t) accM (Memref.isWhole_whole _) ((atFirstStep_iff t).mpr h0) (fun h => h1 ((atLastStep_iff t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HA]; · iexact HA
        iintro ⟨H0, H1, H2, H3, ⟨%ea, HA⟩⟩
        isplitl [HA HR]
        · isplitl [HA]
          · unfold owns; iexists _; isplitr
            swap; · iexact HA
            ipureintro; exact View.read_writes_of_cover _ _ _ _ _ (coverFirst c _ _ _ _ _ _ _ _ _ _ _ _ _ _ _ _)
          iexact HR
        isplitl [Ho]; · iexact Ho
        isplitl [H0]; · iexact H0
        isplitl [H1]; · iexact H1
        isplitl [H2]; · iexact H2
        iexists _; iexact H3
      · rw [inv_castSucc V c t, trackedInv_pos V c _ _ hz]
        iintro ⟨⟨HA, HR⟩, Ho, ⟨%d0, H0⟩, ⟨%d1, H1⟩, ⟨%d2, H2⟩, ⟨%d3, H3⟩⟩
        iapply ((runFirst c (grid1.coords t) (ms0 t) (hs0 t) (ms1 t) (hs1 t) (ms2 t) (hs2 t) (ms3 t) (hs3 t) accM (Memref.isWhole_whole _) ((atFirstStep_iff t).mpr h0) (fun h => h1 ((atLastStep_iff t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HA]; · iexists _; iexact HA
        iintro ⟨H0, H1, H2, H3, ⟨%ea, HA⟩⟩
        isplitl [HA HR]
        · isplitl [HA]
          · unfold owns; iexists _; isplitr
            swap; · iexact HA
            ipureintro; exact View.read_writes_of_cover _ _ _ _ _ (coverFirst c _ _ _ _ _ _ _ _ _ _ _ _ _ _ _ _)
          iexact HR
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 32 = 31
    · -- the last step of a block
      rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t ((atLastStep_iff t).mpr h1)], after3]
      rw [stepAt_last V c t h0 h1]
      unfold accOf outOf; (try dsimp only)
      rw [inv_castSucc V c t, trackedInv_pos V c _ _ hz]
      iintro ⟨⟨HA, HR⟩, Ho, ⟨%d0, H0⟩, ⟨%d1, H1⟩, ⟨%d2, H2⟩, ⟨%d3, H3⟩⟩
      iapply ((runLast c (grid1.coords t) (ms0 t) (hs0 t) (ms1 t) (hs1 t) (ms2 t) (hs2 t) (ms3 t) (hs3 t) accM (Memref.isWhole_whole _) (fun h => h0 ((atFirstStep_iff t).mp h)) ((atLastStep_iff t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HA]; · iexact HA
      iintro ⟨H0, H1, H2, ⟨%e3, H3⟩, ⟨%ea, HA⟩⟩
      isplitl [HA HR]
      · isplitl [HA]
        · unfold owns; iexists _; isplitr
          swap; · iexact HA
          ipureintro; exact View.read_writes_of_cover _ _ _ _ _ (coverLastAcc c _ _ _ _ _ _ _ _ _ _ _ _ _ _ _ _ _)
        iexact HR
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastOut c _ _ _ _ _ _ _ _ _ _ _ _ _ _ _ _ _)
    · -- a middle step
      rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [Dat.leavesExact_idle (dat V c) 3 t (idle3 t (fun h => h1 ((atLastStep_iff t).mp h))) (noFlush3 t (fun h => h1 ((atLastStep_iff t).mp h)))]
      rw [stepAt_mid V c t h0 h1]
      unfold accOf; (try dsimp only)
      rw [inv_castSucc V c t, trackedInv_pos V c _ _ hz]
      iintro ⟨⟨HA, HR⟩, Ho, ⟨%d0, H0⟩, ⟨%d1, H1⟩, ⟨%d2, H2⟩, ⟨%d3, H3⟩⟩
      iapply ((runMid c (grid1.coords t) (ms0 t) (hs0 t) (ms1 t) (hs1 t) (ms2 t) (hs2 t) (ms3 t) (hs3 t) accM (Memref.isWhole_whole _) (fun h => h0 ((atFirstStep_iff t).mp h)) (fun h => h1 ((atLastStep_iff t).mp h)) (iblk V c 0 t) (iblk V c 1 t) (iblk V c 2 t) _).2 _ Set.univ _)
      isplitl [H0]; · iexact H0
      isplitl [H1]; · iexact H1
      isplitl [H2]; · iexact H2
      isplitl [H3]; · iexact H3
      isplitl [HA]; · iexact HA
      iintro ⟨H0, H1, H2, H3, ⟨%ea, HA⟩⟩
      isplitl [HA HR]
      · isplitl [HA]
        · unfold owns; iexists _; isplitr
          swap; · iexact HA
          ipureintro; exact View.read_writes_of_cover _ _ _ _ _ (coverMid c _ _ _ _ _ _ _ _ _ _ _ _ _ _ _ _ _)
        iexact HR
      isplitl [Ho]; · iexact Ho
      isplitl [H0]; · iexact H0
      isplitl [H1]; · iexact H1
      isplitl [H2]; · iexact H2
      iexists _; iexact H3

/-- The body obligation at every point. -/
theorem body_obligation (c : Dev nD) : BodyObligation (dat (F := F) V c) (defs₀ (F := F)) Variants.none () Set.univ := fun t => by
  rw [bigSep_W1, bigSep_W1]
  exact sound_body V c t

/-- Before the first point the invariant is the class's. -/
theorem inv_first (c : Dev nD) : (dat V c).Φ 0 = Pipeline.ΦA spec1 c := rfl

/-- After the last point the invariant gives the class's back: the accumulator's contents are forgotten. -/
theorem inv_last (c : Dev nD) : (dat V c).Φ (Fin.last cfg1.N) ⊢ Pipeline.ΦA spec1 c := by
  rw [show (dat V c).Φ (Fin.last cfg1.N) = trackedInv V c (Fin.last cfg1.N).val (Nat.le_of_lt_succ (Fin.last cfg1.N).isLt) from rfl,
    trackedInv_pos V c _ _ (by rw [Fin.val_last]; have : cfg1.N = 256 := N_1; omega)]
  iintro ⟨HA, HR⟩
  iapply (classInv_split (F := F) c).2
  isplitl [HA]; · iexists _; iexact HA
  iexact HR

end Region

end Cert.KernelIdeal.Gemm2

end
-- ==== Proof.MainRun.lean ====
/-
  The whole program: the host operations before the two calls (a reshape, three roundings, two reshapes), the
  first matrix product, the second, and the closing reshape. The contents of every unscoped buffer at each
  boundary are a fold from the launch memory: after a host stretch what its operations compute, after a call its
  arrays at what the call's write-backs leave and every other buffer as the call found it. Each call is a segment
  over the thread state "every unscoped buffer at the boundary's contents, the generator register at some state,
  nothing owed". The run ends with every unscoped buffer at the last boundary's contents; no host operation and
  no call writes an argument, so each argument ends as launched.
-/
import proofs.«169177_j50285477101612_2_alg».proof.Proof.Gemm1Frame
import proofs.«169177_j50285477101612_2_alg».proof.Proof.Gemm2Frame
import proofs.«169177_j50285477101612_2_alg».proof.Proof.Gen.KernelIdeal.Regions

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After the host operations before the calls (the first call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first call's exit: its arrays at what its write-backs leave, every other buffer as entered. -/
def W2 (c : Dev nD) : Valuation τ sig (Elt F) :=
  Pipeline.withArrays spec0 c (W1 m c) fun w => (Gemm1.dat (V1 m) c).arrAt w cfg0.N
theorem W2_arr (c : Dev nD) (w : Fin cfg0.W) :
    W2 m c (Proc.devRef .tc (Pipeline.arrRef spec0 w)) = (Gemm1.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Gemm1.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At the second call's exit, likewise (it is entered where the first one ended). -/
def W3 (c : Dev nD) : Valuation τ sig (Elt F) :=
  Pipeline.withArrays spec1 c (W2 m c) fun w => (Gemm2.dat (V2 m) c).arrAt w cfg1.N
theorem W3_arr (c : Dev nD) (w : Fin cfg1.W) :
    W3 m c (Proc.devRef .tc (Pipeline.arrRef spec1 w)) = (Gemm2.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (Gemm2.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the closing reshape. -/
abbrev W4 : Dev nD → Valuation τ sig (Elt F) := fun c => StableHlo.after hostOps2 (W3 m c)

/-! ## The arguments end as launched -/

theorem W4_arg (c : Dev nD) (r : Ref sig .tc) (h0 : r ∉ hostOps0_W) (h2 : r ∉ hostOps2_W)
    (hw0 : ∀ w, Pipeline.arrRef spec0 w ≠ r) (hw1 : ∀ w, Pipeline.arrRef spec1 w ≠ r) :
    W4 m c (Proc.devRef .tc r) = m ((c : Thread nD τ).loc r) :=
  calc W4 m c (Proc.devRef .tc r)
    _ = W3 m c (Proc.devRef .tc r) := StableHlo.after_of_writes_sub hostOps2 _ hostOps2_writes h2
    _ = W2 m c (Proc.devRef .tc r) := W3_of_ne m c r hw1
    _ = W1 m c (Proc.devRef .tc r) := W2_of_ne m c r hw0
    _ = W0 m c (Proc.devRef .tc r) := StableHlo.after_of_writes_sub hostOps0 _ hostOps0_writes h0
    _ = m ((c : Thread nD τ).loc r) := rfl
theorem W4_main_arg0 (c : Dev nD) : W4 m c (Proc.devRef .tc main_arg0) = m ((c : Thread nD τ).loc main_arg0) := W4_arg m c _ (by decide) (by decide) (by decide) (by decide)
theorem W4_main_arg1 (c : Dev nD) : W4 m c (Proc.devRef .tc main_arg1) = m ((c : Thread nD τ).loc main_arg1) := W4_arg m c _ (by decide) (by decide) (by decide) (by decide)
theorem W4_main_arg2 (c : Dev nD) : W4 m c (Proc.devRef .tc main_arg2) = m ((c : Thread nD τ).loc main_arg2) := W4_arg m c _ (by decide) (by decide) (by decide) (by decide)
theorem W4_main_arg3 (c : Dev nD) : W4 m c (Proc.devRef .tc main_arg3) = m ((c : Thread nD τ).loc main_arg3) := W4_arg m c _ (by decide) (by decide) (by decide) (by decide)
theorem W4_main_arg4 (c : Dev nD) : W4 m c (Proc.devRef .tc main_arg4) = m ((c : Thread nD τ).loc main_arg4) := W4_arg m c _ (by decide) (by decide) (by decide) (by decide)

/-! ## The proof data family and the thread state -/

abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => Gemm1.dat (V1 m) c
  | ⟨1, _⟩ => fun c => Gemm2.dat (V2 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The calls as segments -/

set_option backward.isDefEq.respectTransparency.types false in
/-- The first matrix product as a segment: entered from every unscoped buffer at `W1`, left at `W2`. Its arrays are
    split out of the unscoped buffers and put back at the exit contents; the generator register and the scoped
    buffers go into the invariant (the accumulator at anything before the first point) and come out of it after the
    last (the accumulator's contents forgotten); nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Gemm1.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Gemm1.inv_last (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second matrix product as a segment: entered from every unscoped buffer at `W2`, left at `W3`. Its arrays are
    split out of the unscoped buffers and put back at the exit contents; the generator register and the scoped
    buffers go into the invariant (the accumulator at anything before the first point) and come out of it after the
    last (the accumulator's contents forgotten); nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Gemm2.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Gemm2.inv_last (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final state holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => by
      show iprop(StableHlo.held (c : Thread nD τ) (Pipeline.ucRefs τ sig) (W4 m c) ∗ R c)
        ⊢ iprop(iprop(StableHlo.held (c : Thread nD τ) (Pipeline.ucRefs τ sig) (W4 m c) ∗ ∃ r, prngReg c r) ∗ ∃ W, owes (c : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

end Cert.KernelIdeal.Whole

end
-- ==== Proof.LibGridAcc.lean ====
/-
  Two facts about finite sums in an additive commutative monoid (used over the extended reals; nothing here asks the
  summands to be finite).

  A sum over `B · J` consecutive positions is the sum, over the `B` blocks, of each block's `J` entries: position
  `J · j + k` is entry `k` of block `j`. Stated for any `B` and `J`, and once more for 8192 = 8 · 1024 positions over
  `Fin 8192` itself, so that no change of index type is left to the user.

  An accumulator that starts from zero plus the first summand and then adds one summand per step holds, after step
  `n`, the sum of the summands `0, …, n`. Stated for sequences indexed by the natural numbers (with the step law for
  every `j`, or only below a bound), for sequences indexed by `Fin (n + 1)`, and in the variant where every summand
  arrives as zero plus itself.
-/
import Mathlib.Algebra.BigOperators.Fin
import Mathlib.Algebra.BigOperators.Intervals
import Mathlib.Logic.Equiv.Fin.Basic
import Idealize.ShloMosaic.PureOps.Ideal

open scoped BigOperators

namespace Cert.Lib.GridAcc

variable {M : Type*} [AddCommMonoid M]

/-! ## A sum cut into equal blocks -/

/-- Entry `k` of block `j` lies inside the `B · J` positions. -/
theorem blk_lt {B J : ℕ} (j : Fin B) (k : Fin J) : J * j.val + k.val < B * J := by
  have hj := j.isLt
  have hk := k.isLt
  calc J * j.val + k.val < J * j.val + J := by omega
    _ = J * (j.val + 1) := by ring
    _ ≤ J * B := Nat.mul_le_mul_left _ hj
    _ = B * J := Nat.mul_comm _ _

/-- The same position written block index first. -/
theorem blk_lt' {B J : ℕ} (j : Fin B) (k : Fin J) : j.val * J + k.val < B * J := by
  rw [Nat.mul_comm j.val J]; exact blk_lt j k

/-- A sum over `B · J` positions is the sum over the blocks of each block's entries. -/
theorem sum_blocks {B J : ℕ} (g : Fin (B * J) → M) :
    ∑ x : Fin (B * J), g x = ∑ j : Fin B, ∑ k : Fin J, g ⟨J * j.val + k.val, blk_lt j k⟩ := by
  rw [← (finProdFinEquiv (m := B) (n := J)).sum_comp g, Fintype.sum_prod_type]
  refine Finset.sum_congr rfl fun j _ => Finset.sum_congr rfl fun k _ => congrArg g (Fin.ext ?_)
  show k.val + J * j.val = J * j.val + k.val
  exact Nat.add_comm _ _

/-- The same with the position written block index first. -/
theorem sum_blocks' {B J : ℕ} (g : Fin (B * J) → M) :
    ∑ x : Fin (B * J), g x = ∑ j : Fin B, ∑ k : Fin J, g ⟨j.val * J + k.val, blk_lt' j k⟩ := by
  rw [sum_blocks]
  exact Finset.sum_congr rfl fun j _ => Finset.sum_congr rfl fun k _ => congrArg g (Fin.ext (by
    show J * j.val + k.val = j.val * J + k.val
    rw [Nat.mul_comm]))

/-- 8192 positions as 8 blocks of 1024. -/
theorem sum_8192 (g : Fin 8192 → M) :
    ∑ n : Fin 8192, g n = ∑ j : Fin 8, ∑ k : Fin 1024, g ⟨1024 * j.val + k.val, by omega⟩ :=
  sum_blocks (B := 8) (J := 1024) g

/-- The same with the position written block index first. -/
theorem sum_8192' (g : Fin 8192 → M) :
    ∑ n : Fin 8192, g n = ∑ j : Fin 8, ∑ k : Fin 1024, g ⟨j.val * 1024 + k.val, by omega⟩ :=
  sum_blocks' (B := 8) (J := 1024) g

/-! ## An accumulator run step by step -/

/-- With the step law below a bound `N`: after step `n ≤ N` the accumulator holds the sum of the summands `0, …, n`. -/
theorem acc_eq_sum_of_lt (a b : ℕ → M) (N : ℕ) (h0 : a 0 = 0 + b 0) (hs : ∀ j, j < N → a (j + 1) = a j + b (j + 1)) :
    ∀ n, n ≤ N → a n = ∑ j ∈ Finset.range (n + 1), b j := by
  intro n
  induction n with
  | zero => intro _; rw [h0, zero_add, Finset.sum_range_one]
  | succ n ih =>
    intro hn
    rw [hs n (by omega), ih (by omega), Finset.sum_range_succ _ (n + 1)]

/-- With the step law at every `j`: after step `n` the accumulator holds the sum of the summands `0, …, n`. -/
theorem acc_eq_sum (a b : ℕ → M) (h0 : a 0 = 0 + b 0) (hs : ∀ j, a (j + 1) = a j + b (j + 1)) (n : ℕ) :
    a n = ∑ j ∈ Finset.range (n + 1), b j :=
  acc_eq_sum_of_lt a b n h0 (fun j _ => hs j) n (le_refl n)

/-- After the eighth step (step 7), as a sum over `Fin 8`; the step law is needed only below 7. -/
theorem acc7_eq_sum (a b : ℕ → M) (h0 : a 0 = 0 + b 0) (hs : ∀ j, j < 7 → a (j + 1) = a j + b (j + 1)) :
    a 7 = ∑ j : Fin 8, b j.val := by
  rw [acc_eq_sum_of_lt a b 7 h0 hs 7 (le_refl 7), Finset.sum_range]

/-- The variant where every summand arrives as zero plus itself (a product added into a zero accumulator before it is
    added to the running one). -/
theorem acc_eq_sum_zero_add_of_lt (a b : ℕ → M) (N : ℕ) (h0 : a 0 = 0 + (0 + b 0))
    (hs : ∀ j, j < N → a (j + 1) = a j + (0 + b (j + 1))) : ∀ n, n ≤ N → a n = ∑ j ∈ Finset.range (n + 1), b j :=
  acc_eq_sum_of_lt a b N (by rw [h0, zero_add]) (fun j hj => by rw [hs j hj, zero_add])

theorem acc_eq_sum_zero_add (a b : ℕ → M) (h0 : a 0 = 0 + (0 + b 0)) (hs : ∀ j, a (j + 1) = a j + (0 + b (j + 1))) (n : ℕ) :
    a n = ∑ j ∈ Finset.range (n + 1), b j :=
  acc_eq_sum_zero_add_of_lt a b n h0 (fun j _ => hs j) n (le_refl n)

theorem acc7_eq_sum_zero_add (a b : ℕ → M) (h0 : a 0 = 0 + (0 + b 0))
    (hs : ∀ j, j < 7 → a (j + 1) = a j + (0 + b (j + 1))) : a 7 = ∑ j : Fin 8, b j.val := by
  rw [acc_eq_sum_zero_add_of_lt a b 7 h0 hs 7 (le_refl 7), Finset.sum_range]

/-- The accumulator and the summands indexed by `Fin (n + 1)`: the last value is the sum of all the summands. -/
theorem acc_fin_eq_sum {n : ℕ} (a b : Fin (n + 1) → M) (h0 : a 0 = 0 + b 0)
    (hs : ∀ j : Fin n, a j.succ = a j.castSucc + b j.succ) : a (Fin.last n) = ∑ j, b j := by
  have key : ∀ (k : ℕ) (hk : k < n + 1),
      a ⟨k, hk⟩ = ∑ j ∈ Finset.range (k + 1), (if h : j < n + 1 then b ⟨j, h⟩ else 0) := by
    intro k
    induction k with
    | zero =>
      intro hk
      rw [Finset.sum_range_one, dif_pos hk]
      exact h0.trans (zero_add _)
    | succ k ih =>
      intro hk
      have hk' : k < n := by omega
      rw [Finset.sum_range_succ, ← ih (by omega), dif_pos hk]
      exact hs ⟨k, hk'⟩
  rw [show Fin.last n = ⟨n, Nat.lt_succ_self n⟩ from rfl, key n _, Finset.sum_range]
  exact Finset.sum_congr rfl fun j _ => by rw [dif_pos j.isLt]

/-- The same in the variant where every summand arrives as zero plus itself. -/
theorem acc_fin_eq_sum_zero_add {n : ℕ} (a b : Fin (n + 1) → M) (h0 : a 0 = 0 + (0 + b 0))
    (hs : ∀ j : Fin n, a j.succ = a j.castSucc + (0 + b j.succ)) : a (Fin.last n) = ∑ j, b j :=
  acc_fin_eq_sum a b (by rw [h0, zero_add]) (fun j => by rw [hs j, zero_add])

/-- Eight steps over blocks of 1024: an accumulator that adds, at step `j`, the sum of block `j` of a family over
    8192 positions ends at the sum over all 8192 positions. -/
theorem acc8_blocks_eq_sum_8192 (a : Fin 8 → M) (g : Fin 8192 → M)
    (h0 : a 0 = 0 + ∑ k : Fin 1024, g ⟨1024 * (0 : Fin 8).val + k.val, by omega⟩)
    (hs : ∀ j : Fin 7, a j.succ = a j.castSucc + ∑ k : Fin 1024, g ⟨1024 * j.succ.val + k.val, by omega⟩) :
    a 7 = ∑ n : Fin 8192, g n := by
  rw [sum_8192 g]
  exact acc_fin_eq_sum (n := 7) a (fun j => ∑ k : Fin 1024, g ⟨1024 * j.val + k.val, by omega⟩) h0 hs

end Cert.Lib.GridAcc
-- ==== Proof.MlpSpec.lean ====
/-
  The specification: a two-layer perceptron with the tanh form of the GELU activation, over the extended reals.

  For a row x of 4096 inputs, first-layer weights W1 (4096 × 16384) and bias B1, second-layer weights W2 (16384 × 4096) and
  bias B2:

      hidden f = (∑ k, x k · W1 k f) + B1 f
      out h    = (∑ f, gelu (hidden f) · W2 f h) + B2 h
      gelu t   = t · (½ · (1 + tanh (c₁ · (t + c₀ · t³))))

  The four constants ½, 1, c₁, c₀ are kept as the 32-bit words that denote them; nothing below depends on their values.
  The cube t³ can be associated as (t·t)·t or as t·(t·t): multiplication of extended reals is commutative, so the two
  activations are one function (gelu_cube_comm).

  The result is stated three ways: for one row (mlpRow); for the input as an array of 2 × 2048 rows (mlp3); for the same
  rows numbered 0 … 4095 in one matrix, row 2048·b + s being row (b, s) (mlp2, and mlp2_eq_mlp3 between them).

  Last, the two regroupings of sums that a product accumulated block by block along the contracted axis needs, in the
  sizes met here: 4096 terms as 4 blocks of 1024, and 16384 terms as 32 blocks of 512; and the accumulator law that a
  value started at zero plus the first partial sum and increased by one partial sum per step ends at the whole sum.
  Only associativity and commutativity of the extended reals' addition are used: no summand needs to be finite.
-/
import Mathlib.Data.EReal.Basic
import Mathlib.Algebra.BigOperators.Fin
import Idealize.ShloMosaic.PureOps.Ideal
import Idealize.ShloMosaic.PureOps.Ideal.Laws
import Idealize.ShloMosaic.Lib.ValueIdx
import proofs.«169177_j50285477101612_2_alg».proof.Proof.LibGridAcc

noncomputable section

open scoped BigOperators

namespace Cert.Mlp

open Idealize.ShloMosaic Idealize.ShloMosaic.ValueIdx

/-! ## The activation -/

/-- The constant 0.044715 as its 32-bit word. -/
abbrev c0 : EReal := Ideal.ofBits .f32 0x3D372713#32
/-- The constant 0.797884583 (an approximation of √(2/π)) as its 32-bit word. -/
abbrev c1 : EReal := Ideal.ofBits .f32 0x3F4C422A#32
/-- The constant 1 as its 32-bit word. -/
abbrev cOne : EReal := Ideal.ofBits .f32 0x3F800000#32
/-- The constant ½ as its 32-bit word. -/
abbrev cHalf : EReal := Ideal.ofBits .f32 0x3F000000#32

/-- The tanh form of GELU with the cube associated to the left, (t·t)·t. -/
def gelu (t : EReal) : EReal :=
  t * (cHalf * (cOne + Ideal.tanh (c1 * (t + c0 * ((t * t) * t)))))

/-- The same with the cube associated to the right, t·(t·t). -/
def geluR (t : EReal) : EReal :=
  t * (cHalf * (cOne + Ideal.tanh (c1 * (t + c0 * (t * (t * t))))))

/-- The two associations of the cube give one activation: t·(t·t) = (t·t)·t by commutativity. -/
theorem gelu_cube_comm (t : EReal) : geluR t = gelu t := by
  unfold geluR gelu
  rw [mul_comm t (t * t)]

/-! ## One row -/

/-- The first layer at hidden unit f. -/
def hiddenRow (x : Fin 4096 → EReal) (W1 : Fin 4096 → Fin 16384 → EReal) (B1 : Fin 16384 → EReal) (f : Fin 16384) : EReal :=
  (∑ k : Fin 4096, x k * W1 k f) + B1 f

/-- The perceptron's output h for one row. -/
def mlpRow (x : Fin 4096 → EReal) (W1 : Fin 4096 → Fin 16384 → EReal) (B1 : Fin 16384 → EReal)
    (W2 : Fin 16384 → Fin 4096 → EReal) (B2 : Fin 4096 → EReal) (h : Fin 4096) : EReal :=
  (∑ f : Fin 16384, gelu (hiddenRow x W1 B1 f) * W2 f h) + B2 h

/-! ## The arrays -/

/-- The perceptron applied to every row (b, s) of a 2 × 2048 × 4096 input. -/
def mlp3 (x0 : (⟨3, ![2, 2048, 4096]⟩ : Shape).Idx → EReal) (x1 : (⟨2, ![4096, 16384]⟩ : Shape).Idx → EReal)
    (x2 : (⟨1, ![16384]⟩ : Shape).Idx → EReal) (x3 : (⟨2, ![16384, 4096]⟩ : Shape).Idx → EReal)
    (x4 : (⟨1, ![4096]⟩ : Shape).Idx → EReal) : (⟨3, ![2, 2048, 4096]⟩ : Shape).Idx → EReal :=
  fun i => mlpRow (fun k => x0 (ix3 (⟨(i 0).val, (i 0).isLt⟩ : Fin 2) (⟨(i 1).val, (i 1).isLt⟩ : Fin 2048) k))
    (fun k f => x1 (ix2 k f)) (fun f => x2 (ix1 f)) (fun f h => x3 (ix2 f h)) (fun h => x4 (ix1 h))
    (⟨(i 2).val, (i 2).isLt⟩ : Fin 4096)

/-- At coordinates (b, s, h). -/
theorem mlp3_apply (x0 : (⟨3, ![2, 2048, 4096]⟩ : Shape).Idx → EReal) (x1 : (⟨2, ![4096, 16384]⟩ : Shape).Idx → EReal)
    (x2 : (⟨1, ![16384]⟩ : Shape).Idx → EReal) (x3 : (⟨2, ![16384, 4096]⟩ : Shape).Idx → EReal)
    (x4 : (⟨1, ![4096]⟩ : Shape).Idx → EReal) (b : Fin 2) (s : Fin 2048) (h : Fin 4096) :
    mlp3 x0 x1 x2 x3 x4 (ix3 b s h) = mlpRow (fun k => x0 (ix3 b s k)) (fun k f => x1 (ix2 k f)) (fun f => x2 (ix1 f))
      (fun f h => x3 (ix2 f h)) (fun h => x4 (ix1 h)) h := rfl

/-- The perceptron applied to every row r of a 4096 × 4096 input. -/
def mlp2 (X : (⟨2, ![4096, 4096]⟩ : Shape).Idx → EReal) (x1 : (⟨2, ![4096, 16384]⟩ : Shape).Idx → EReal)
    (x2 : (⟨1, ![16384]⟩ : Shape).Idx → EReal) (x3 : (⟨2, ![16384, 4096]⟩ : Shape).Idx → EReal)
    (x4 : (⟨1, ![4096]⟩ : Shape).Idx → EReal) : (⟨2, ![4096, 4096]⟩ : Shape).Idx → EReal :=
  fun i => mlpRow (fun k => X (ix2 (⟨(i 0).val, (i 0).isLt⟩ : Fin 4096) k))
    (fun k f => x1 (ix2 k f)) (fun f => x2 (ix1 f)) (fun f h => x3 (ix2 f h)) (fun h => x4 (ix1 h))
    (⟨(i 1).val, (i 1).isLt⟩ : Fin 4096)

/-- At coordinates (r, h). -/
theorem mlp2_apply (X : (⟨2, ![4096, 4096]⟩ : Shape).Idx → EReal) (x1 : (⟨2, ![4096, 16384]⟩ : Shape).Idx → EReal)
    (x2 : (⟨1, ![16384]⟩ : Shape).Idx → EReal) (x3 : (⟨2, ![16384, 4096]⟩ : Shape).Idx → EReal)
    (x4 : (⟨1, ![4096]⟩ : Shape).Idx → EReal) (r h : Fin 4096) :
    mlp2 X x1 x2 x3 x4 (ix2 r h) = mlpRow (fun k => X (ix2 r k)) (fun k f => x1 (ix2 k f)) (fun f => x2 (ix1 f))
      (fun f h => x3 (ix2 f h)) (fun h => x4 (ix1 h)) h := rfl

/-- Row (b, s) of the 2 × 2048 rows is row 2048·b + s of the 4096. -/
def rowOf (b : Fin 2) (s : Fin 2048) : Fin 4096 := ⟨2048 * b.val + s.val, by omega⟩

theorem rowOf_val (b : Fin 2) (s : Fin 2048) : (rowOf b s).val = 2048 * b.val + s.val := rfl

/-- Every row number is 2048·b + s for its quotient b and remainder s by 2048. -/
theorem rowOf_div_mod (r : Fin 4096) : rowOf ⟨r.val / 2048, by omega⟩ ⟨r.val % 2048, by omega⟩ = r :=
  Fin.ext (by show 2048 * (r.val / 2048) + r.val % 2048 = r.val; omega)

/-- When the matrix X holds the array x0's rows in that numbering, the two statements of the result agree. -/
theorem mlp2_eq_mlp3 (X : (⟨2, ![4096, 4096]⟩ : Shape).Idx → EReal) (x0 : (⟨3, ![2, 2048, 4096]⟩ : Shape).Idx → EReal)
    (hX : ∀ (b : Fin 2) (s : Fin 2048) (k : Fin 4096), X (ix2 (rowOf b s) k) = x0 (ix3 b s k))
    (x1 : (⟨2, ![4096, 16384]⟩ : Shape).Idx → EReal) (x2 : (⟨1, ![16384]⟩ : Shape).Idx → EReal)
    (x3 : (⟨2, ![16384, 4096]⟩ : Shape).Idx → EReal) (x4 : (⟨1, ![4096]⟩ : Shape).Idx → EReal)
    (b : Fin 2) (s : Fin 2048) (h : Fin 4096) :
    mlp2 X x1 x2 x3 x4 (ix2 (rowOf b s) h) = mlp3 x0 x1 x2 x3 x4 (ix3 b s h) := by
  rw [mlp2_apply, mlp3_apply]
  exact congrArg (fun x => mlpRow x _ _ _ _ h) (funext fun k => hX b s k)

/-! ## Sums taken block by block -/

variable {M : Type*} [AddCommMonoid M]

/-- 4096 terms as 4 blocks of 1024: term 1024·n + k is term k of block n. -/
theorem sum_4096_blocks (g : Fin 4096 → M) :
    ∑ n : Fin 4, ∑ k : Fin 1024, g ⟨1024 * n.val + k.val, by omega⟩ = ∑ k : Fin 4096, g k :=
  (Cert.Lib.GridAcc.sum_blocks (B := 4) (J := 1024) g).symm

/-- 16384 terms as 32 blocks of 512: term 512·n + k is term k of block n. -/
theorem sum_16384_blocks (g : Fin 16384 → M) :
    ∑ n : Fin 32, ∑ k : Fin 512, g ⟨512 * n.val + k.val, by omega⟩ = ∑ f : Fin 16384, g f :=
  (Cert.Lib.GridAcc.sum_blocks (B := 32) (J := 512) g).symm

/-- An accumulator over the 4 blocks of the first product: started at zero plus block 0's partial sum and increased by
    block n + 1's partial sum at step n + 1, it ends at the sum of all 4096 terms. -/
theorem acc4_eq_sum (a : Fin 4 → M) (g : Fin 4096 → M)
    (h0 : a 0 = 0 + ∑ k : Fin 1024, g ⟨1024 * (0 : Fin 4).val + k.val, by omega⟩)
    (hs : ∀ n : Fin 3, a n.succ = a n.castSucc + ∑ k : Fin 1024, g ⟨1024 * n.succ.val + k.val, by omega⟩) :
    a 3 = ∑ k : Fin 4096, g k := by
  rw [← sum_4096_blocks g]
  exact Cert.Lib.GridAcc.acc_fin_eq_sum (n := 3) a (fun n => ∑ k : Fin 1024, g ⟨1024 * n.val + k.val, by omega⟩) h0 hs

/-- The same over the 32 blocks of the second product. -/
theorem acc32_eq_sum (a : Fin 32 → M) (g : Fin 16384 → M)
    (h0 : a 0 = 0 + ∑ k : Fin 512, g ⟨512 * (0 : Fin 32).val + k.val, by omega⟩)
    (hs : ∀ n : Fin 31, a n.succ = a n.castSucc + ∑ k : Fin 512, g ⟨512 * n.succ.val + k.val, by omega⟩) :
    a 31 = ∑ f : Fin 16384, g f := by
  rw [← sum_16384_blocks g]
  exact Cert.Lib.GridAcc.acc_fin_eq_sum (n := 31) a (fun n => ∑ k : Fin 512, g ⟨512 * n.val + k.val, by omega⟩) h0 hs

end Cert.Mlp

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.Gemm1Payloads.lean ====
/-
  The first product's body, one value at a time, at an entry (p, q) of its 1024 × 2048 block, over the extended reals.

  * The value stored when the reduction starts is the zero array.
  * The value stored at every step is the accumulator plus the product of the step's 1024 × 1024 block of the input with
    its 1024 × 2048 block of the weights: at (p, q), acc (p, q) + ∑ k, x (p, k) · w (k, q). The casts to the same shape
    are the identity, and the product into the zero array is the plain sum of products.
  * The values stored at the last step are, for each of the four slabs of 256 rows, the activation of the accumulator
    slab plus the bias row broadcast over the rows: at (p, q), gelu (acc (p, q) + bias (0, q)). The body spells the
    activation's cube as t·(t·t); it is the specification's activation by commutativity. The change of format of the
    result is the identity on extended reals.
-/
import proofs.«169177_j50285477101612_2_alg».proof.Proof.Gen.KernelIdeal.Skeleton
import proofs.«169177_j50285477101612_2_alg».proof.Proof.MlpSpec
import proofs.«169177_j50285477101612_2_alg».proof.Proof.LibDotCols
import Idealize.ShloMosaic.Lib.ValueLayout

noncomputable section

open scoped BigOperators

namespace Cert.Mlp.Gemm1

open Cert.KernelIdeal Cert.KernelIdeal.Gen Idealize.ShloMosaic Idealize.ShloMosaic.ValueIdx

/-! ## The start of a reduction: zero -/

/-- The value stored into the accumulator when a reduction starts is zero everywhere. -/
theorem pay1_apply (j : S1024x2048.Idx) : k0_pay1 (F := Ideal) j = 0 := by
  unfold k0_pay1
  refine (congrFun (shapeCast_self (s := S1024x2048) _ shapeCasts_S1024x2048_S1024x2048) j).trans ?_
  exact Ideal.ofBits_zero_f32

/-! ## One step of the reduction -/

/-- The block product's dimension numbers are the plain ones: rows by columns, contracting the left operand's columns
    with the right operand's rows. -/
theorem dot_eq_plain : dot_S1024x1024_S1024x2048_S1024x2048_1_0_0_1_n_n = DotDims.plain 1024 1024 2048 := rfl

/-- The value stored at a step: the accumulator plus the step's block product. -/
theorem pay2_apply (v3 : Vec Ideal S1024x2048 .f32) (v4 : Vec Ideal S1024x1024 .bf16) (v6 : Vec Ideal S1024x2048 .bf16)
    (p : Fin 1024) (q : Fin 2048) :
    k0_pay2 v3 v4 v6 (ix2 p q) = v3 (ix2 p q) + ∑ k : Fin 1024, v4 (ix2 p k) * v6 (ix2 k q) := by
  unfold k0_pay2
  refine (congrFun (shapeCast_self (s := S1024x2048) _ shapeCasts_S1024x2048_S1024x2048) (ix2 p q)).trans ?_
  refine congrArg (fun z => v3 (ix2 p q) + z) ?_
  rw [shapeCast_self (s := S1024x1024) v4 shapeCasts_S1024x1024_S1024x1024,
    shapeCast_self (s := S1024x2048) v6 shapeCasts_S1024x2048_S1024x2048]
  exact Cert.Lib.DotCols.matmul_cols_apply dot_S1024x1024_S1024x2048_S1024x2048_1_0_0_1_n_n dot_eq_plain none v4 v6 p q

/-! ## The last step: bias and activation, slab by slab -/

/-- The bias row as the slabs read it: the cast to its own shape is the identity. -/
theorem pay5_eq (v16 : Vec Ideal S1x2048 .f32) : k0_pay5 v16 = v16 := by
  unfold k0_pay5
  exact shapeCast_self (s := S1x2048) v16 shapeCasts_S1x2048_S1x2048

/-- The bias row broadcast over a slab's 256 rows reads, at (p, q), the row's entry q. -/
theorem bias_apply (v : FVec Ideal S1x2048 .f32) (p : Fin 256) (q : Fin 2048) :
    broadcastTo S256x2048 v broadcasts_S1x2048_S256x2048 (ix2 p q) = v (ix2 (0 : Fin 1) q) :=
  broadcastTo_1b_ab_apply v broadcasts_S1x2048_S256x2048 p q

/-- Slab 0 (rows 0 … 255 of the block). -/
theorem pay6_apply (v16 : Vec Ideal S1x2048 .f32) (v18 : Vec Ideal S256x2048 .f32) (p : Fin 256) (q : Fin 2048) :
    k0_pay6 v16 v18 (ix2 p q) = gelu (v18 (ix2 p q) + v16 (ix2 (0 : Fin 1) q)) := by
  have h : k0_pay6 v16 v18 (ix2 p q)
      = geluR (v18 (ix2 p q) + broadcastTo S256x2048 (k0_pay5 v16) broadcasts_S1x2048_S256x2048 (ix2 p q)) := rfl
  rw [h, pay5_eq, bias_apply, gelu_cube_comm]

/-- Slab 1 (rows 256 … 511). -/
theorem pay7_apply (v16 : Vec Ideal S1x2048 .f32) (v36 : Vec Ideal S256x2048 .f32) (p : Fin 256) (q : Fin 2048) :
    k0_pay7 v16 v36 (ix2 p q) = gelu (v36 (ix2 p q) + v16 (ix2 (0 : Fin 1) q)) := by
  have h : k0_pay7 v16 v36 (ix2 p q)
      = geluR (v36 (ix2 p q) + broadcastTo S256x2048 (k0_pay5 v16) broadcasts_S1x2048_S256x2048 (ix2 p q)) := rfl
  rw [h, pay5_eq, bias_apply, gelu_cube_comm]

/-- Slab 2 (rows 512 … 767); the bias row arrives already cast. -/
theorem pay3_apply (v17 : FVec Ideal S1x2048 .f32) (v54 : Vec Ideal S256x2048 .f32) (p : Fin 256) (q : Fin 2048) :
    k0_pay3 v17 v54 (ix2 p q) = gelu (v54 (ix2 p q) + v17 (ix2 (0 : Fin 1) q)) := by
  have h : k0_pay3 v17 v54 (ix2 p q)
      = geluR (v54 (ix2 p q) + broadcastTo S256x2048 v17 broadcasts_S1x2048_S256x2048 (ix2 p q)) := rfl
  rw [h, bias_apply, gelu_cube_comm]

/-- Slab 3 (rows 768 … 1023). -/
theorem pay4_apply (v17 : FVec Ideal S1x2048 .f32) (v72 : Vec Ideal S256x2048 .f32) (p : Fin 256) (q : Fin 2048) :
    k0_pay4 v17 v72 (ix2 p q) = gelu (v72 (ix2 p q) + v17 (ix2 (0 : Fin 1) q)) := by
  have h : k0_pay4 v17 v72 (ix2 p q)
      = geluR (v72 (ix2 p q) + broadcastTo S256x2048 v17 broadcasts_S1x2048_S256x2048 (ix2 p q)) := rfl
  rw [h, bias_apply, gelu_cube_comm]

end Cert.Mlp.Gemm1

end
-- ==== Proof.Gemm1Pieces.lean ====
/-
  The first product's body, read back: what its recorded stores leave in the accumulator and in the output block.

  At every step the accumulator is left at one whole-block store: the step's partial product added to what the
  accumulator held (at the first step of a block: to the zero array just stored and read back). At the last step the
  output block is written as four slabs of 256 rows, each the activation of (the final accumulator's slab plus the bias
  row); over the extended reals the four slabs are the restrictions of one function of the block's index, so the block
  reads, entry by entry, as that function.
-/
import proofs.«169177_j50285477101612_2_alg».proof.Proof.Gemm1Frame
import proofs.«169177_j50285477101612_2_alg».proof.Proof.Gemm1Payloads
import Idealize.ShloMosaic.Lib.Pipeline.Value

set_option maxRecDepth 16384

noncomputable section

namespace Cert.Mlp.Gemm1P

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.Gemm1

variable {F : FTy → Type} [FloatOps F]

theorem hz : (![0, 0] : Fin 2 → Nat) = fun _ => 0 := funext fun a => by fin_cases a <;> rfl

/-! ## The accumulator after a step -/

/-- The first step of a block: the accumulator is zeroed, read back, and left at zero plus the partial product. -/
theorem acc_first (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : atFirstStep i) (hc1 : ¬atLastStep i)
    (x0 : Vec F S1024x1024 .bf16) (x1 : Vec F S1024x2048 .bf16) (x2 : Vec F S1x2048 .f32) :
    accOf (runFirst c i arg3 harg3 arg4 harg4 arg5 harg5 arg6 harg6 arg7 harg7 hc0 hc1 x0 x1 x2).1 = k0_pay2 (k0_pay1 (F := F)) x0 x1 := by
  unfold accOf
  rw [View.read_writes_junk_eq_canon]
  unfold runFirst
  dsimp only
  sl_unfold_words
  rw [View.canon_cons_unit_zero (S := S1024x2048) hz, View.readCov_unit_zero (S := S1024x2048) _ hz]
  simp only [View.readAt_eq_ld, harg3.read_unread, harg4.read_unread, View.ld_unit_zero (S := S1024x1024) hz,
    View.ld_unit_zero (S := S1024x2048) hz]

/-- A middle step: the accumulator found at acc is left at acc plus the partial product. -/
theorem acc_mid (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬atFirstStep i) (hc1 : ¬atLastStep i)
    (x0 : Vec F S1024x1024 .bf16) (x1 : Vec F S1024x2048 .bf16) (x2 : Vec F S1x2048 .f32) (acc : Vec F S1024x2048 .f32) :
    accOf (runMid c i arg3 harg3 arg4 harg4 arg5 harg5 arg6 harg6 arg7 harg7 hc0 hc1 x0 x1 x2 acc).1 = k0_pay2 acc x0 x1 := by
  unfold accOf
  rw [View.read_writes_junk_eq_canon]
  unfold runMid
  dsimp only
  rw [View.canon_unit_zero (S := S1024x2048) hz]
  simp only [View.readAt_eq_ld, harg3.read_unread, harg4.read_unread, harg7.read_unread, View.ld_unit_zero (S := S1024x1024) hz,
    View.ld_unit_zero (S := S1024x2048) hz]

/-- The last step: the same for the accumulator. -/
theorem acc_last (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬atFirstStep i) (hc1 : atLastStep i)
    (x0 : Vec F S1024x1024 .bf16) (x1 : Vec F S1024x2048 .bf16) (x2 : Vec F S1x2048 .f32) (acc : Vec F S1024x2048 .f32) :
    accOf (runLast c i arg3 harg3 arg4 harg4 arg5 harg5 arg6 harg6 arg7 harg7 hc0 hc1 x0 x1 x2 acc).2.1 = k0_pay2 acc x0 x1 := by
  unfold accOf
  rw [View.read_writes_junk_eq_canon]
  unfold runLast
  dsimp only
  sl_unfold_words
  rw [View.canon_unit_zero (S := S1024x2048) hz]
  simp only [View.readAt_eq_ld, harg3.read_unread, harg4.read_unread, harg7.read_unread, View.ld_unit_zero (S := S1024x1024) hz,
    View.ld_unit_zero (S := S1024x2048) hz]

/-! ## The output block after the last step -/

/-- The last step's output block, entry by entry, over the extended reals: the activation of the final accumulator
    plus the bias row. The block is written as four slabs of 256 rows, each the activation of its slab of the
    accumulator; the four agree with one function of the block's index. -/
theorem out_last_apply (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S1024x2048 .f32) (harg7 : arg7.IsWhole) (hc0 : ¬atFirstStep i) (hc1 : atLastStep i)
    (x0 : Vec Ideal S1024x1024 .bf16) (x1 : Vec Ideal S1024x2048 .bf16) (x2 : Vec Ideal S1x2048 .f32) (acc : Vec Ideal S1024x2048 .f32)
    (r : Fin 1024) (q : Fin 2048) :
    outOf (runLast (F := Ideal) c i arg3 harg3 arg4 harg4 arg5 harg5 arg6 harg6 arg7 harg7 hc0 hc1 x0 x1 x2 acc).1 (ix2 r q)
      = Cert.Mlp.gelu (k0_pay2 acc x0 x1 (ix2 r q) + x2 (ix2 (0 : Fin 1) q)) := by
  unfold outOf
  rw [View.read_writes_junk_eq_canon]
  refine View.canon_apply_of_pieces
    (fun j => Cert.Mlp.gelu (k0_pay2 acc x0 x1 j + x2 (ix2 (0 : Fin 1) (⟨(j 1).val, (j 1).isLt⟩ : Fin 2048)))) _ ?_ (ix2 r q)
    (coverLastOut c i arg3 harg3 arg4 harg4 arg5 harg5 arg6 harg6 arg7 harg7 hc0 hc1 x0 x1 x2 acc (ix2 r q))
  unfold runLast
  dsimp only
  sl_unfold_words
  intro p hp x
  simp only [List.mem_cons, List.not_mem_nil, or_false] at hp
  rcases hp with rfl | rfl | rfl | rfl
  · dsimp only at x ⊢
    obtain ⟨a, b, rfl⟩ : ∃ (a : Fin 256) (b : Fin 2048), x = ix2 a b := ⟨x 0, x 1, eq_ix2 x⟩
    refine (Cert.Mlp.Gemm1.pay4_apply _ _ a b).trans (congrArg Cert.Mlp.gelu ?_)
    simp only [Cert.Mlp.Gemm1.pay5_eq, View.readCov_eq_canon', View.canon_unit_zero (S := S1024x2048) hz, View.readAt_eq_ld,
      harg3.read_unread, harg4.read_unread, harg5.read_unread, harg7.read_unread, View.ld_unit_zero (S := S1024x1024) hz,
      View.ld_unit_zero (S := S1024x2048) hz, View.ld_unit_zero (S := S1x2048) hz]
    refine congrArg₂ (· + ·) rfl (congrArg x2 (funext fun d => ?_))
    match d with
    | ⟨0, _⟩ => rfl
    | ⟨1, _⟩ => exact Fin.ext (by first | (show b.val = 0 + 1 * b.val; omega) | (show 0 + 1 * b.val = 0 + 1 * b.val; rfl))
  · dsimp only at x ⊢
    obtain ⟨a, b, rfl⟩ : ∃ (a : Fin 256) (b : Fin 2048), x = ix2 a b := ⟨x 0, x 1, eq_ix2 x⟩
    refine (Cert.Mlp.Gemm1.pay3_apply _ _ a b).trans (congrArg Cert.Mlp.gelu ?_)
    simp only [Cert.Mlp.Gemm1.pay5_eq, View.readCov_eq_canon', View.canon_unit_zero (S := S1024x2048) hz, View.readAt_eq_ld,
      harg3.read_unread, harg4.read_unread, harg5.read_unread, harg7.read_unread, View.ld_unit_zero (S := S1024x1024) hz,
      View.ld_unit_zero (S := S1024x2048) hz, View.ld_unit_zero (S := S1x2048) hz]
    refine congrArg₂ (· + ·) rfl (congrArg x2 (funext fun d => ?_))
    match d with
    | ⟨0, _⟩ => rfl
    | ⟨1, _⟩ => exact Fin.ext (by first | (show b.val = 0 + 1 * b.val; omega) | (show 0 + 1 * b.val = 0 + 1 * b.val; rfl))
  · dsimp only at x ⊢
    obtain ⟨a, b, rfl⟩ : ∃ (a : Fin 256) (b : Fin 2048), x = ix2 a b := ⟨x 0, x 1, eq_ix2 x⟩
    refine (Cert.Mlp.Gemm1.pay7_apply _ _ a b).trans (congrArg Cert.Mlp.gelu ?_)
    simp only [View.readCov_eq_canon', View.canon_unit_zero (S := S1024x2048) hz, View.readAt_eq_ld,
      harg3.read_unread, harg4.read_unread, harg5.read_unread, harg7.read_unread, View.ld_unit_zero (S := S1024x1024) hz,
      View.ld_unit_zero (S := S1024x2048) hz, View.ld_unit_zero (S := S1x2048) hz]
    refine congrArg₂ (· + ·) rfl (congrArg x2 (funext fun d => ?_))
    match d with
    | ⟨0, _⟩ => rfl
    | ⟨1, _⟩ => exact Fin.ext (by first | (show b.val = 0 + 1 * b.val; omega) | (show 0 + 1 * b.val = 0 + 1 * b.val; rfl))
  · dsimp only at x ⊢
    obtain ⟨a, b, rfl⟩ : ∃ (a : Fin 256) (b : Fin 2048), x = ix2 a b := ⟨x 0, x 1, eq_ix2 x⟩
    refine (Cert.Mlp.Gemm1.pay6_apply _ _ a b).trans (congrArg Cert.Mlp.gelu ?_)
    simp only [View.readCov_eq_canon', View.canon_unit_zero (S := S1024x2048) hz, View.readAt_eq_ld,
      harg3.read_unread, harg4.read_unread, harg5.read_unread, harg7.read_unread, View.ld_unit_zero (S := S1024x1024) hz,
      View.ld_unit_zero (S := S1024x2048) hz, View.ld_unit_zero (S := S1x2048) hz]
    refine congrArg₂ (· + ·) rfl (congrArg x2 (funext fun d => ?_))
    match d with
    | ⟨0, _⟩ => rfl
    | ⟨1, _⟩ => exact Fin.ext (by first | (show b.val = 0 + 1 * b.val; omega) | (show 0 + 1 * b.val = 0 + 1 * b.val; rfl))

end Cert.Mlp.Gemm1P

end
-- ==== Proof.Gemm2Payloads.lean ====
/-
  The second product's body, one value at a time, at an entry (p, q) of its 1024 × 2048 block, over the extended reals.

  * The value stored when the reduction starts is the zero array.
  * The value stored at every step is the accumulator plus the product of the step's 1024 × 512 block of the activated
    hidden layer with its 512 × 2048 block of the second weights: at (p, q), acc (p, q) + ∑ k, g (p, k) · w (k, q).
  * The value stored at the last step is the accumulator plus the bias row broadcast over the 1024 rows:
    at (p, q), acc (p, q) + bias (0, q).
-/
import proofs.«169177_j50285477101612_2_alg».proof.Proof.Gen.KernelIdeal.Skeleton
import proofs.«169177_j50285477101612_2_alg».proof.Proof.LibDotCols
import Idealize.ShloMosaic.Lib.ValueLayout

noncomputable section

open scoped BigOperators

namespace Cert.Mlp.Gemm2

open Cert.KernelIdeal Cert.KernelIdeal.Gen Idealize.ShloMosaic Idealize.ShloMosaic.ValueIdx

/-! ## The start of a reduction: zero -/

/-- The value stored into the accumulator when a reduction starts is zero everywhere. -/
theorem pay1_apply (j : S1024x2048.Idx) : k1_pay1 (F := Ideal) j = 0 := by
  unfold k1_pay1
  refine (congrFun (shapeCast_self (s := S1024x2048) _ shapeCasts_S1024x2048_S1024x2048) j).trans ?_
  exact Ideal.ofBits_zero_f32

/-! ## One step of the reduction -/

/-- The block product's dimension numbers are the plain ones: rows by columns, contracting the left operand's columns
    with the right operand's rows. -/
theorem dot_eq_plain : dot_S1024x512_S512x2048_S1024x2048_1_0_0_1_n_n = DotDims.plain 1024 512 2048 := rfl

/-- The value stored at a step: the accumulator plus the step's block product. -/
theorem pay2_apply (v3 : Vec Ideal S1024x2048 .f32) (v4 : Vec Ideal S1024x512 .bf16) (v6 : Vec Ideal S512x2048 .bf16)
    (p : Fin 1024) (q : Fin 2048) :
    k1_pay2 v3 v4 v6 (ix2 p q) = v3 (ix2 p q) + ∑ k : Fin 512, v4 (ix2 p k) * v6 (ix2 k q) := by
  unfold k1_pay2
  refine (congrFun (shapeCast_self (s := S1024x2048) _ shapeCasts_S1024x2048_S1024x2048) (ix2 p q)).trans ?_
  refine congrArg (fun z => v3 (ix2 p q) + z) ?_
  rw [shapeCast_self (s := S1024x512) v4 shapeCasts_S1024x512_S1024x512,
    shapeCast_self (s := S512x2048) v6 shapeCasts_S512x2048_S512x2048]
  exact Cert.Lib.DotCols.matmul_cols_apply dot_S1024x512_S512x2048_S1024x2048_1_0_0_1_n_n dot_eq_plain none v4 v6 p q

/-! ## The last step: the bias -/

/-- The value written out at the last step: the accumulator plus the bias row's entry for the column. -/
theorem pay3_apply (v16 : Vec Ideal S1024x2048 .f32) (v17 : Vec Ideal S1x2048 .f32) (p : Fin 1024) (q : Fin 2048) :
    k1_pay3 v16 v17 (ix2 p q) = v16 (ix2 p q) + v17 (ix2 (0 : Fin 1) q) := by
  unfold k1_pay3
  refine congrArg (fun z => v16 (ix2 p q) + z) ?_
  rw [shapeCast_self (s := S1x2048) v17 shapeCasts_S1x2048_S1x2048]
  exact broadcastTo_1b_ab_apply v17 broadcasts_S1x2048_S1024x2048 p q

end Cert.Mlp.Gemm2

end
-- ==== Proof.MlpBlocks.lean ====
/-
  From blocks to arrays: the perceptron assembled from its two block-wise products.

  Both products are computed on blocks: 1024 rows by 2048 columns at a time, the contracted axis cut in blocks of 1024
  (first product) or 512 (second). This module names the positions inside the blocks, shows that every row, column and
  contracted position is one of them (quotient and remainder), and states the assembly as pure mathematics:

  * if an array H holds, at every entry of every block, the activation of (first product + first bias), then every entry
    of H is the activation of the specification's hidden unit;
  * if moreover an array O holds, at every entry of every block, (second product of H + second bias), then O is the
    perceptron of the 4096 rows;
  * if moreover the 4096 rows are the 2 × 2048 rows of the input renumbered, and the result is O with its rows numbered
    back, then the result is the perceptron of the input.
-/
import proofs.«169177_j50285477101612_2_alg».proof.Proof.MlpSpec

noncomputable section

open scoped BigOperators

namespace Cert.Mlp

open Idealize.ShloMosaic Idealize.ShloMosaic.ValueIdx

/-! ## Positions inside blocks -/

/-- Row p of row block I (of 1024 rows) among 4096 rows. -/
def row1024 (I : Fin 4) (p : Fin 1024) : Fin 4096 := ⟨1024 * I.val + p.val, by omega⟩
/-- Column q of column block J (of 2048 columns) among 16384 columns. -/
def col16384 (J : Fin 8) (q : Fin 2048) : Fin 16384 := ⟨2048 * J.val + q.val, by omega⟩
/-- Column q of column block J (of 2048 columns) among 4096 columns. -/
def col4096 (J : Fin 2) (q : Fin 2048) : Fin 4096 := ⟨2048 * J.val + q.val, by omega⟩
/-- Position k of reduction block n (of 1024) among 4096. -/
def red4096 (n : Fin 4) (k : Fin 1024) : Fin 4096 := ⟨1024 * n.val + k.val, by omega⟩
/-- Position k of reduction block n (of 512) among 16384. -/
def red16384 (n : Fin 32) (k : Fin 512) : Fin 16384 := ⟨512 * n.val + k.val, by omega⟩

theorem row1024_val (I : Fin 4) (p : Fin 1024) : (row1024 I p).val = 1024 * I.val + p.val := rfl
theorem col16384_val (J : Fin 8) (q : Fin 2048) : (col16384 J q).val = 2048 * J.val + q.val := rfl
theorem col4096_val (J : Fin 2) (q : Fin 2048) : (col4096 J q).val = 2048 * J.val + q.val := rfl
theorem red4096_val (n : Fin 4) (k : Fin 1024) : (red4096 n k).val = 1024 * n.val + k.val := rfl
theorem red16384_val (n : Fin 32) (k : Fin 512) : (red16384 n k).val = 512 * n.val + k.val := rfl

/-- Every row is row (r mod 1024) of row block (r div 1024). -/
theorem row1024_div_mod (r : Fin 4096) : row1024 ⟨r.val / 1024, by omega⟩ ⟨r.val % 1024, by omega⟩ = r :=
  Fin.ext (by show 1024 * (r.val / 1024) + r.val % 1024 = r.val; omega)
/-- Every hidden unit is column (f mod 2048) of column block (f div 2048). -/
theorem col16384_div_mod (f : Fin 16384) : col16384 ⟨f.val / 2048, by omega⟩ ⟨f.val % 2048, by omega⟩ = f :=
  Fin.ext (by show 2048 * (f.val / 2048) + f.val % 2048 = f.val; omega)
/-- Every output column is column (c mod 2048) of column block (c div 2048). -/
theorem col4096_div_mod (c : Fin 4096) : col4096 ⟨c.val / 2048, by omega⟩ ⟨c.val % 2048, by omega⟩ = c :=
  Fin.ext (by show 2048 * (c.val / 2048) + c.val % 2048 = c.val; omega)

/-! ## The assembly -/

section Assembly

variable (X : (⟨2, ![4096, 4096]⟩ : Shape).Idx → EReal) (x1 : (⟨2, ![4096, 16384]⟩ : Shape).Idx → EReal)
  (x2 : (⟨1, ![16384]⟩ : Shape).Idx → EReal) (x3 : (⟨2, ![16384, 4096]⟩ : Shape).Idx → EReal)
  (x4 : (⟨1, ![4096]⟩ : Shape).Idx → EReal)

/-- The hidden layer from its blocks. -/
theorem hidden_of_blocks (H : (⟨2, ![4096, 16384]⟩ : Shape).Idx → EReal)
    (hH : ∀ (I : Fin 4) (J : Fin 8) (p : Fin 1024) (q : Fin 2048), H (ix2 (row1024 I p) (col16384 J q))
      = gelu ((∑ k : Fin 4096, X (ix2 (row1024 I p) k) * x1 (ix2 k (col16384 J q))) + x2 (ix1 (col16384 J q))))
    (r : Fin 4096) (f : Fin 16384) :
    H (ix2 r f) = gelu (hiddenRow (fun k => X (ix2 r k)) (fun k f => x1 (ix2 k f)) (fun f => x2 (ix1 f)) f) := by
  have e := hH ⟨r.val / 1024, by omega⟩ ⟨f.val / 2048, by omega⟩ ⟨r.val % 1024, by omega⟩ ⟨f.val % 2048, by omega⟩
  rw [row1024_div_mod, col16384_div_mod] at e
  exact e

/-- The output from its blocks: it is the perceptron of the 4096 rows. -/
theorem out_of_blocks (H : (⟨2, ![4096, 16384]⟩ : Shape).Idx → EReal)
    (hH : ∀ (I : Fin 4) (J : Fin 8) (p : Fin 1024) (q : Fin 2048), H (ix2 (row1024 I p) (col16384 J q))
      = gelu ((∑ k : Fin 4096, X (ix2 (row1024 I p) k) * x1 (ix2 k (col16384 J q))) + x2 (ix1 (col16384 J q))))
    (O : (⟨2, ![4096, 4096]⟩ : Shape).Idx → EReal)
    (hO : ∀ (I : Fin 4) (J : Fin 2) (p : Fin 1024) (q : Fin 2048), O (ix2 (row1024 I p) (col4096 J q))
      = (∑ f : Fin 16384, H (ix2 (row1024 I p) f) * x3 (ix2 f (col4096 J q))) + x4 (ix1 (col4096 J q))) :
    O = mlp2 X x1 x2 x3 x4 := by
  funext i
  obtain ⟨r, c, rfl⟩ : ∃ (r c : Fin 4096), i = ix2 r c := ⟨i 0, i 1, eq_ix2 i⟩
  have e := hO ⟨r.val / 1024, by omega⟩ ⟨c.val / 2048, by omega⟩ ⟨r.val % 1024, by omega⟩ ⟨c.val % 2048, by omega⟩
  rw [row1024_div_mod, col4096_div_mod] at e
  rw [e, mlp2_apply]
  unfold mlpRow
  exact congrArg (fun z => z + x4 (ix1 c)) (Finset.sum_congr rfl fun f _ => by
    rw [hidden_of_blocks X x1 x2 H hH r f])

/-- THE ASSEMBLY: with the rows of the input renumbered on the way in and numbered back on the way out, the result is
    the perceptron of the input. -/
theorem result_of_blocks (x0 : (⟨3, ![2, 2048, 4096]⟩ : Shape).Idx → EReal)
    (hX : ∀ (b : Fin 2) (s : Fin 2048) (k : Fin 4096), X (ix2 (rowOf b s) k) = x0 (ix3 b s k))
    (H : (⟨2, ![4096, 16384]⟩ : Shape).Idx → EReal)
    (hH : ∀ (I : Fin 4) (J : Fin 8) (p : Fin 1024) (q : Fin 2048), H (ix2 (row1024 I p) (col16384 J q))
      = gelu ((∑ k : Fin 4096, X (ix2 (row1024 I p) k) * x1 (ix2 k (col16384 J q))) + x2 (ix1 (col16384 J q))))
    (O : (⟨2, ![4096, 4096]⟩ : Shape).Idx → EReal)
    (hO : ∀ (I : Fin 4) (J : Fin 2) (p : Fin 1024) (q : Fin 2048), O (ix2 (row1024 I p) (col4096 J q))
      = (∑ f : Fin 16384, H (ix2 (row1024 I p) f) * x3 (ix2 f (col4096 J q))) + x4 (ix1 (col4096 J q)))
    (R : (⟨3, ![2, 2048, 4096]⟩ : Shape).Idx → EReal)
    (hR : ∀ (b : Fin 2) (s : Fin 2048) (c : Fin 4096), R (ix3 b s c) = O (ix2 (rowOf b s) c)) :
    R = mlp3 x0 x1 x2 x3 x4 := by
  funext i
  obtain ⟨b, s, c, rfl⟩ : ∃ (b : Fin 2) (s : Fin 2048) (c : Fin 4096), i = ix3 b s c := ⟨i 0, i 1, i 2, eq_ix3 i⟩
  rw [hR, out_of_blocks X x1 x2 x3 x4 H hH O hO]
  exact mlp2_eq_mlp3 X x0 hX x1 x2 x3 x4 b s c

end Assembly

end Cert.Mlp

end
-- ==== Proof.GemmAcc.lean ====
/-
  The two products accumulated block by block along the contracted axis, as pure recursions over the extended reals.

  First product, for the block of rows 1024·I … 1024·I + 1023 and of columns 2048·J … 2048·J + 2047: the accumulator
  starts as the zero array plus the first partial product and gains one partial product per step, the partial product of
  step n being, at (p, q), ∑ k < 1024 of X (1024·I + p, 1024·n + k) · W (1024·n + k, 2048·J + q). After the fourth step it
  holds ∑ k < 4096 of X (1024·I + p, k) · W (k, 2048·J + q): the four partial sums are the four blocks of the whole sum.
  The second product is the same with 32 steps of 512.
-/
import proofs.«169177_j50285477101612_2_alg».proof.Proof.Gemm1Payloads
import proofs.«169177_j50285477101612_2_alg».proof.Proof.Gemm2Payloads
import proofs.«169177_j50285477101612_2_alg».proof.Proof.MlpBlocks

noncomputable section

open scoped BigOperators

namespace Cert.Mlp

open Cert.KernelIdeal Cert.KernelIdeal.Gen Idealize.ShloMosaic Idealize.ShloMosaic.ValueIdx

namespace Gemm1

/-- THE FIRST PRODUCT'S ACCUMULATOR after its four steps, at (p, q) of block (I, J): the whole sum over the 4096
    contracted positions. -/
theorem acc_final (X : (⟨2, ![4096, 4096]⟩ : Shape).Idx → EReal) (W : (⟨2, ![4096, 16384]⟩ : Shape).Idx → EReal)
    (I : Fin 4) (J : Fin 8)
    (xb : Fin 4 → Vec Ideal S1024x1024 .bf16) (wb : Fin 4 → Vec Ideal S1024x2048 .bf16)
    (hx : ∀ (n : Fin 4) (p : Fin 1024) (k : Fin 1024), xb n (ix2 p k) = X (ix2 (row1024 I p) (red4096 n k)))
    (hw : ∀ (n : Fin 4) (k : Fin 1024) (q : Fin 2048), wb n (ix2 k q) = W (ix2 (red4096 n k) (col16384 J q)))
    (acc : Fin 4 → Vec Ideal S1024x2048 .f32)
    (h0 : acc 0 = k0_pay2 k0_pay1 (xb 0) (wb 0))
    (hs : ∀ n : Fin 3, acc n.succ = k0_pay2 (acc n.castSucc) (xb n.succ) (wb n.succ))
    (p : Fin 1024) (q : Fin 2048) :
    acc 3 (ix2 p q) = ∑ k : Fin 4096, X (ix2 (row1024 I p) k) * W (ix2 k (col16384 J q)) := by
  refine acc4_eq_sum (fun n => acc n (ix2 p q)) (fun k => X (ix2 (row1024 I p) k) * W (ix2 k (col16384 J q))) ?_ ?_
  · show acc 0 (ix2 p q) = _
    rw [h0, pay2_apply, pay1_apply]
    exact congrArg (fun z => (0 : EReal) + z) (Finset.sum_congr rfl fun k _ => by rw [hx, hw]; rfl)
  · intro n
    show acc n.succ (ix2 p q) = acc n.castSucc (ix2 p q) + _
    rw [hs n, pay2_apply]
    exact congrArg (fun z => acc n.castSucc (ix2 p q) + z) (Finset.sum_congr rfl fun k _ => by rw [hx, hw]; rfl)

end Gemm1

namespace Gemm2

/-- THE SECOND PRODUCT'S ACCUMULATOR after its thirty-two steps, at (p, q) of block (I, J): the whole sum over the 16384
    contracted positions. -/
theorem acc_final (G : (⟨2, ![4096, 16384]⟩ : Shape).Idx → EReal) (W : (⟨2, ![16384, 4096]⟩ : Shape).Idx → EReal)
    (I : Fin 4) (J : Fin 2)
    (gb : Fin 32 → Vec Ideal S1024x512 .bf16) (wb : Fin 32 → Vec Ideal S512x2048 .bf16)
    (hg : ∀ (n : Fin 32) (p : Fin 1024) (k : Fin 512), gb n (ix2 p k) = G (ix2 (row1024 I p) (red16384 n k)))
    (hw : ∀ (n : Fin 32) (k : Fin 512) (q : Fin 2048), wb n (ix2 k q) = W (ix2 (red16384 n k) (col4096 J q)))
    (acc : Fin 32 → Vec Ideal S1024x2048 .f32)
    (h0 : acc 0 = k1_pay2 k1_pay1 (gb 0) (wb 0))
    (hs : ∀ n : Fin 31, acc n.succ = k1_pay2 (acc n.castSucc) (gb n.succ) (wb n.succ))
    (p : Fin 1024) (q : Fin 2048) :
    acc 31 (ix2 p q) = ∑ f : Fin 16384, G (ix2 (row1024 I p) f) * W (ix2 f (col4096 J q)) := by
  refine acc32_eq_sum (fun n => acc n (ix2 p q)) (fun f => G (ix2 (row1024 I p) f) * W (ix2 f (col4096 J q))) ?_ ?_
  · show acc 0 (ix2 p q) = _
    rw [h0, pay2_apply, pay1_apply]
    exact congrArg (fun z => (0 : EReal) + z) (Finset.sum_congr rfl fun k _ => by rw [hg, hw]; rfl)
  · intro n
    show acc n.succ (ix2 p q) = acc n.castSucc (ix2 p q) + _
    rw [hs n, pay2_apply]
    exact congrArg (fun z => acc n.castSucc (ix2 p q) + z) (Finset.sum_congr rfl fun k _ => by rw [hg, hw]; rfl)

end Gemm2

end Cert.Mlp

end
-- ==== Proof.Gemm1Acc.lean ====
/-
  The first matrix product's accumulator along a block's four steps, over the extended reals.

  Point number t of the grid is (row block t / 32, column block (t / 4) mod 8, step t mod 4). At every point the
  accumulator is the step's payload of the two input blocks over what the point before left (over zero at a block's
  first step); an input block's entry (p, k) is the array's entry at (block index × block size + p, …). So after the last
  step of block (I, J) the accumulator holds, at (p, q), the whole sum over the 4096 contracted positions of row
  1024·I + p of the left array against column 2048·J + q of the right one, and the output block holds the activation of
  that plus the bias entry of column 2048·J + q.
-/
import proofs.«169177_j50285477101612_2_alg».proof.Proof.Gemm1Pieces
import proofs.«169177_j50285477101612_2_alg».proof.Proof.GemmAcc

set_option maxRecDepth 16384

noncomputable section

open scoped BigOperators

namespace Cert.Mlp.Gemm1W

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Gemm1
open Cert.Mlp.Gemm1P (acc_first acc_mid acc_last out_last_apply)

/-- The specification of the first product: the activation of every row of X against every column of W plus the bias row. -/
def G1 (X : (⟨2, ![4096, 4096]⟩ : Shape).Idx → EReal) (W : (⟨2, ![4096, 16384]⟩ : Shape).Idx → EReal)
    (B : (⟨2, ![1, 16384]⟩ : Shape).Idx → EReal) : (⟨2, ![4096, 16384]⟩ : Shape).Idx → EReal :=
  fun i => Cert.Mlp.gelu ((∑ k : Fin 4096, X (ix2 (⟨(i 0).val, (i 0).isLt⟩ : Fin 4096) k) * W (ix2 k (⟨(i 1).val, (i 1).isLt⟩ : Fin 16384)))
    + B (ix2 (0 : Fin 1) (⟨(i 1).val, (i 1).isLt⟩ : Fin 16384)))

/-- At coordinates (r, f). -/
theorem G1_apply (X : (⟨2, ![4096, 4096]⟩ : Shape).Idx → EReal) (W : (⟨2, ![4096, 16384]⟩ : Shape).Idx → EReal)
    (B : (⟨2, ![1, 16384]⟩ : Shape).Idx → EReal) (r : Fin 4096) (f : Fin 16384) :
    G1 X W B (ix2 r f) = Cert.Mlp.gelu ((∑ k : Fin 4096, X (ix2 r k) * W (ix2 k f)) + B (ix2 (0 : Fin 1) f)) := rfl

section Region
variable (V : (c : Dev nD) → (b : Ref sig .tc) → Buf (Elt Ideal) ((c : Thread nD τ).loc b))

/-- The printed index maps, decided once over the grid: where each window's block sits at point t. -/
theorem idx_facts : ∀ t : Fin cfg0.N, win0_0.index t (0 : Fin 2) = t.val / 32 ∧ win0_0.index t (1 : Fin 2) = t.val % 4
    ∧ win0_1.index t (0 : Fin 2) = t.val % 4 ∧ win0_1.index t (1 : Fin 2) = t.val / 4 % 8
    ∧ win0_2.index t (0 : Fin 2) = 0 ∧ win0_2.index t (1 : Fin 2) = t.val / 4 % 8
    ∧ win0_3.index t (0 : Fin 2) = t.val / 32 ∧ win0_3.index t (1 : Fin 2) = t.val / 4 % 8 :=
  (by decide +kernel : ∀ t : Fin grid0.N, _)

/-! ## The accumulator, point by point -/

theorem snd_of_eq {α β : Type} {x : α × β} {a : α} {b : β} (h : x = (a, b)) : x.2 = b := by rw [h]
theorem fst_of_eq {α β : Type} {x : α × β} {a : α} {b : β} (h : x = (a, b)) : x.1 = a := by rw [h]

/-- The recursion does not depend on how the position is written. -/
theorem stepAt_congr (c : Dev nD) (a b : ℕ) (ha : a < cfg0.N) (hb : b < cfg0.N) (e : a = b) :
    stepAt V c a ha = stepAt V c b hb := by subst e; rfl

/-- At a block's first step the accumulator is the step's payload over zero. -/
theorem acc_at_first (c : Dev nD) (t : Fin cfg0.N) (h0 : t.val % 4 = 0) :
    (stepAt V c t.val t.isLt).2 = k0_pay2 (k0_pay1 (F := Ideal)) (iblk V c 0 t) (iblk V c 1 t) := by
  have h1 : ¬t.val % 4 = 3 := by omega
  refine (snd_of_eq (stepAt_first V c t h0 h1)).trans ?_
  exact acc_first (F := Ideal) c (grid0.coords t) (ms0 t) (hs0 t) (ms1 t) (hs1 t) (ms2 t) (hs2 t) (ms3 t) (hs3 t) accM (Memref.isWhole_whole _) ((atFirstStep_iff t).mpr h0) (fun h => h1 ((atLastStep_iff t).mp h)) (iblk V c 0 t) (iblk V c 1 t) (iblk V c 2 t)

/-- At every other step it is the step's payload over what the point before left. -/
theorem acc_at_step (c : Dev nD) (t : Fin cfg0.N) (h0 : ¬t.val % 4 = 0) :
    (stepAt V c t.val t.isLt).2 = k0_pay2 (stepAt V c (t.val - 1) (Nat.lt_of_le_of_lt (Nat.sub_le _ _) t.isLt)).2 (iblk V c 0 t) (iblk V c 1 t) := by
  by_cases h1 : t.val % 4 = 3
  · refine (snd_of_eq (stepAt_last V c t h0 h1)).trans ?_
    exact acc_last (F := Ideal) c (grid0.coords t) (ms0 t) (hs0 t) (ms1 t) (hs1 t) (ms2 t) (hs2 t) (ms3 t) (hs3 t) accM (Memref.isWhole_whole _) (fun h => h0 ((atFirstStep_iff t).mp h)) ((atLastStep_iff t).mpr h1) (iblk V c 0 t) (iblk V c 1 t) (iblk V c 2 t) (stepAt V c (t.val - 1) (Nat.lt_of_le_of_lt (Nat.sub_le _ _) t.isLt)).2
  · refine (snd_of_eq (stepAt_mid V c t h0 h1)).trans ?_
    exact acc_mid (F := Ideal) c (grid0.coords t) (ms0 t) (hs0 t) (ms1 t) (hs1 t) (ms2 t) (hs2 t) (ms3 t) (hs3 t) accM (Memref.isWhole_whole _) (fun h => h0 ((atFirstStep_iff t).mp h)) (fun h => h1 ((atLastStep_iff t).mp h)) (iblk V c 0 t) (iblk V c 1 t) (iblk V c 2 t) (stepAt V c (t.val - 1) (Nat.lt_of_le_of_lt (Nat.sub_le _ _) t.isLt)).2

/-- At a block's last step the output block is, entry by entry, the activation of the accumulator plus the bias row. -/
theorem out_at_last (c : Dev nD) (t : Fin cfg0.N) (h1 : t.val % 4 = 3) (r : Fin 1024) (q : Fin 2048) :
    (stepAt V c t.val t.isLt).1 (ix2 r q)
      = Cert.Mlp.gelu ((stepAt V c t.val t.isLt).2 (ix2 r q) + (iblk V c 2 t : Vec Ideal S1x2048 .f32) (ix2 (0 : Fin 1) q)) := by
  have h0 : ¬t.val % 4 = 0 := by omega
  have e := stepAt_last V c t h0 h1
  rw [snd_of_eq e]
  refine (congrFun (fst_of_eq e) (ix2 r q)).trans ?_
  rw [acc_last (F := Ideal)]
  exact out_last_apply c (grid0.coords t) (ms0 t) (hs0 t) (ms1 t) (hs1 t) (ms2 t) (hs2 t) (ms3 t) (hs3 t) accM (Memref.isWhole_whole _) (fun h => h0 ((atFirstStep_iff t).mp h)) ((atLastStep_iff t).mpr h1) (iblk V c 0 t) (iblk V c 1 t) (iblk V c 2 t) (stepAt V c (t.val - 1) (Nat.lt_of_le_of_lt (Nat.sub_le _ _) t.isLt)).2 r q

/-! ## Input blocks, entry by entry -/

/-- The left block at point t: entry (p, k) is the array's entry (1024·(t / 32) + p, 1024·(t mod 4) + k). -/
theorem iblk0_apply (c : Dev nD) (X : (⟨2, ![4096, 4096]⟩ : Shape).Idx → EReal)
    (hX : V c (Pipeline.arrRef spec0 0) = X) (t : Fin cfg0.N) (p : Fin 1024) (k : Fin 1024) (r : Fin 4096) (f : Fin 4096)
    (hr : r.val = 1024 * (t.val / 32) + p.val) (hf : f.val = 1024 * (t.val % 4) + k.val) :
    (iblk V c 0 t : Vec Ideal S1024x1024 .bf16) (ix2 p k)
      = X (ix2 r f) := by
  subst hX
  obtain ⟨e0, e1, -⟩ := idx_facts t
  unfold iblk
  rw [View.read_apply]
  show V c (Pipeline.arrRef spec0 0) (((cfg0.win 0).blk t).view.emb (ix2 p k)) = V c (Pipeline.arrRef spec0 0) (ix2 r f)
  refine congrArg _ (funext fun a => Fin.ext ?_)
  match a with
  | ⟨0, _⟩ => show win0_0.index t (0 : Fin 2) * 1024 + 1 * p.val = r.val; rw [e0, hr]; omega
  | ⟨1, _⟩ => show win0_0.index t (1 : Fin 2) * 1024 + 1 * k.val = f.val; rw [e1, hf]; omega

/-- The right block at point t: entry (k, q) is the array's entry (1024·(t mod 4) + k, 2048·((t / 4) mod 8) + q). -/
theorem iblk1_apply (c : Dev nD) (W : (⟨2, ![4096, 16384]⟩ : Shape).Idx → EReal)
    (hW : V c (Pipeline.arrRef spec0 1) = W) (t : Fin cfg0.N) (k : Fin 1024) (q : Fin 2048) (f : Fin 4096) (h : Fin 16384)
    (hf : f.val = 1024 * (t.val % 4) + k.val) (hh : h.val = 2048 * (t.val / 4 % 8) + q.val) :
    (iblk V c 1 t : Vec Ideal S1024x2048 .bf16) (ix2 k q)
      = W (ix2 f h) := by
  subst hW
  obtain ⟨-, -, e0, e1, -⟩ := idx_facts t
  unfold iblk
  rw [View.read_apply]
  show V c (Pipeline.arrRef spec0 1) (((cfg0.win 1).blk t).view.emb (ix2 k q)) = V c (Pipeline.arrRef spec0 1) (ix2 f h)
  refine congrArg _ (funext fun a => Fin.ext ?_)
  match a with
  | ⟨0, _⟩ => show win0_1.index t (0 : Fin 2) * 1024 + 1 * k.val = f.val; rw [e0, hf]; omega
  | ⟨1, _⟩ => show win0_1.index t (1 : Fin 2) * 2048 + 1 * q.val = h.val; rw [e1, hh]; omega

/-- The bias block at point t: entry (0, q) is the bias row's entry (0, 2048·((t / 4) mod 8) + q). -/
theorem iblk2_apply (c : Dev nD) (B : (⟨2, ![1, 16384]⟩ : Shape).Idx → EReal)
    (hB : V c (Pipeline.arrRef spec0 2) = B) (t : Fin cfg0.N) (q : Fin 2048) (h : Fin 16384)
    (hh : h.val = 2048 * (t.val / 4 % 8) + q.val) :
    (iblk V c 2 t : Vec Ideal S1x2048 .f32) (ix2 (0 : Fin 1) q)
      = B (ix2 (0 : Fin 1) h) := by
  subst hB
  obtain ⟨-, -, -, -, e0, e1, -⟩ := idx_facts t
  unfold iblk
  rw [View.read_apply]
  show V c (Pipeline.arrRef spec0 2) (((cfg0.win 2).blk t).view.emb (ix2 (0 : Fin 1) q)) = V c (Pipeline.arrRef spec0 2) (ix2 (0 : Fin 1) h)
  refine congrArg _ (funext fun a => Fin.ext ?_)
  match a with
  | ⟨0, _⟩ => show win0_2.index t (0 : Fin 2) * 1 + 1 * 0 = 0; rw [e0]
  | ⟨1, _⟩ => show win0_2.index t (1 : Fin 2) * 2048 + 1 * q.val = h.val; rw [e1, hh]; omega

/-! ## A block's four steps -/

theorem pt_lt (I : Fin 4) (J : Fin 8) (n : Fin 4) : 32 * I.val + 4 * J.val + n.val < cfg0.N := by
  rw [show cfg0.N = 128 from N_0]; omega

/-- The grid point of block (I, J) at reduction step n. -/
def pt (I : Fin 4) (J : Fin 8) (n : Fin 4) : Fin cfg0.N := ⟨32 * I.val + 4 * J.val + n.val, pt_lt I J n⟩

theorem pt_val (I : Fin 4) (J : Fin 8) (n : Fin 4) : (pt I J n).val = 32 * I.val + 4 * J.val + n.val := rfl

/-- After the last step of block (I, J) the accumulator holds, at (p, q), the whole contraction of row 1024·I + p of the
    left array with column 2048·J + q of the right one. -/
theorem acc_block (c : Dev nD) (X : (⟨2, ![4096, 4096]⟩ : Shape).Idx → EReal) (W : (⟨2, ![4096, 16384]⟩ : Shape).Idx → EReal)
    (hX : V c (Pipeline.arrRef spec0 0) = X) (hW : V c (Pipeline.arrRef spec0 1) = W) (I : Fin 4) (J : Fin 8) (p : Fin 1024) (q : Fin 2048) :
    (stepAt V c (pt I J 3).val (pt I J 3).isLt).2 (ix2 p q)
      = ∑ k : Fin 4096, X (ix2 (row1024 I p) k) * W (ix2 k (col16384 J q)) := by
  have hI := I.isLt
  have hJ := J.isLt
  refine Cert.Mlp.Gemm1.acc_final X W I J
    (fun n => iblk V c 0 (pt I J n)) (fun n => iblk V c 1 (pt I J n)) ?hx ?hw
    (fun n => (stepAt V c (pt I J n).val (pt I J n).isLt).2) ?h0 ?hs p q
  case hx =>
    intro n p k
    have hn := n.isLt
    exact iblk0_apply V c X hX (pt I J n) p k (row1024 I p) (red4096 n k)
      (by rw [row1024_val, pt_val]; omega) (by rw [red4096_val, pt_val]; omega)
  case hw =>
    intro n k q
    have hn := n.isLt
    exact iblk1_apply V c W hW (pt I J n) k q (red4096 n k) (col16384 J q)
      (by rw [red4096_val, pt_val]; omega) (by rw [col16384_val, pt_val]; omega)
  case h0 =>
    exact acc_at_first V c (pt I J 0) (by rw [pt_val]; show (32 * I.val + 4 * J.val + 0) % 4 = 0; omega)
  case hs =>
    intro n
    have hn := n.isLt
    show (stepAt V c (pt I J n.succ).val (pt I J n.succ).isLt).2
      = k0_pay2 (stepAt V c (pt I J n.castSucc).val (pt I J n.castSucc).isLt).2 (iblk V c 0 (pt I J n.succ)) (iblk V c 1 (pt I J n.succ))
    rw [acc_at_step V c (pt I J n.succ) (by rw [pt_val]; show ¬(32 * I.val + 4 * J.val + (n.val + 1)) % 4 = 0; omega)]
    rw [stepAt_congr V c ((pt I J n.succ).val - 1) (pt I J n.castSucc).val _ (pt I J n.castSucc).isLt
      (by rw [pt_val, pt_val]; show 32 * I.val + 4 * J.val + (n.val + 1) - 1 = 32 * I.val + 4 * J.val + n.val; omega)]

/-- The output block written out at the last step of block (I, J): at (p, q) the specification's entry at
    (1024·I + p, 2048·J + q). -/
theorem out_block (c : Dev nD) (X : (⟨2, ![4096, 4096]⟩ : Shape).Idx → EReal) (W : (⟨2, ![4096, 16384]⟩ : Shape).Idx → EReal)
    (B : (⟨2, ![1, 16384]⟩ : Shape).Idx → EReal) (hX : V c (Pipeline.arrRef spec0 0) = X) (hW : V c (Pipeline.arrRef spec0 1) = W)
    (hB : V c (Pipeline.arrRef spec0 2) = B) (I : Fin 4) (J : Fin 8) (t : Fin cfg0.N) (ht : t.val = 32 * I.val + 4 * J.val + 3)
    (p : Fin 1024) (q : Fin 2048) :
    (stepAt V c t.val t.isLt).1 (ix2 p q)
      = G1 X W B (ix2 (row1024 I p) (col16384 J q)) := by
  have hI := I.isLt
  have hJ := J.isLt
  obtain rfl : t = pt I J 3 := Fin.ext ht
  rw [out_at_last V c (pt I J 3) (by rw [pt_val]; show (32 * I.val + 4 * J.val + 3) % 4 = 3; omega) p q]
  rw [acc_block V c X W hX hW I J p q, G1_apply]
  exact congrArg (fun z => Cert.Mlp.gelu (_ + z)) (iblk2_apply V c B hB (pt I J 3) q (col16384 J q)
    (by rw [col16384_val, pt_val]; show 2048 * J.val + q.val = 2048 * ((32 * I.val + 4 * J.val + 3) / 4 % 8) + q.val; omega))

end Region

end Cert.Mlp.Gemm1W

end
-- ==== Proof.Gemm1Final.lean ====
/-
  The first matrix product as an array: after the region the result array holds, at every (r, f), the activation of the
  contraction of row r of the left array with column f of the right one plus the bias entry of column f.

  The output block is written back at the last step of each (row block, column block), and there it is that block of
  the specification: entry (p, q) of block (I, J) sits at (1024·I + p, 2048·J + q). The thirty-two blocks tile the
  4096 × 16384 array: entry (r, f) lies in the block of the point 32·(r / 1024) + 4·(f / 2048) + 3.
-/
import proofs.«169177_j50285477101612_2_alg».proof.Proof.Gemm1Acc

set_option maxRecDepth 16384

noncomputable section

open scoped BigOperators

namespace Cert.Mlp.Gemm1W

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Gemm1

section Region
variable (V : (c : Dev nD) → (b : Ref sig .tc) → Buf (Elt Ideal) ((c : Thread nD τ).loc b))

/-- What a point that writes its block back writes: its block of the specification of the three arrays. -/
theorem flushed_eq (c : Dev nD) (t : Fin cfg0.N) (hf : (cfg0.win 3).flush t = true) :
    (dat (F := Ideal) V c).flushed 3 t = ((cfg0.win 3).blk t).view.read (Elt Ideal)
      (G1 (V c (Pipeline.arrRef spec0 0)) (V c (Pipeline.arrRef spec0 1)) (V c (Pipeline.arrRef spec0 2))) := by
  have hN : t.val < 128 := lt_of_lt_of_eq t.isLt (show cfg0.N = 128 from N_0)
  have h3 : t.val % 4 = 3 := (flush0_3 t).mp hf
  obtain ⟨-, -, -, -, -, -, e0, e1⟩ := idx_facts t
  show (cfg0.win 3).cut (grid0.coords t) ((dat (F := Ideal) V c).after 3 t) = _
  rw [after3]
  refine funext fun (j : S1024x2048.Idx) => ?_
  obtain ⟨p, q, rfl⟩ : ∃ (p : Fin 1024) (q : Fin 2048), j = ix2 p q := ⟨j 0, j 1, eq_ix2 j⟩
  rw [View.read_apply]
  show (stepAt V c t.val t.isLt).1 (ix2 p q)
    = G1 (V c (Pipeline.arrRef spec0 0)) (V c (Pipeline.arrRef spec0 1)) (V c (Pipeline.arrRef spec0 2)) (((cfg0.win 3).blk t).view.emb (ix2 p q))
  rw [out_block V c _ _ _ rfl rfl rfl ⟨t.val / 32, by omega⟩ ⟨t.val / 4 % 8, by omega⟩ t
    (by show t.val = 32 * (t.val / 32) + 4 * (t.val / 4 % 8) + 3; omega) p q]
  refine congrArg _ (funext fun a => Fin.ext ?_)
  match a with
  | ⟨0, _⟩ => show 1024 * (t.val / 32) + p.val = win0_3.index t (0 : Fin 2) * 1024 + 1 * p.val; rw [e0]; omega
  | ⟨1, _⟩ => show 2048 * (t.val / 4 % 8) + q.val = win0_3.index t (1 : Fin 2) * 2048 + 1 * q.val; rw [e1]; omega

/-- An index of the array is in point t's block iff each coordinate is in the block's range on its axis. -/
theorem mem_blk (t : Fin cfg0.N) (i : S4096x16384.Idx) :
    i ∈ ((cfg0.win 3).blk t).view.set ↔ ∀ a : Fin 2, win0_3.index t a * S1024x2048.size a ≤ (i a).val ∧ (i a).val < win0_3.index t a * S1024x2048.size a + S1024x2048.size a := by
  show i ∈ ((View.whole main_v6).slice (win0_3.rect t)).set ↔ _
  rw [View.set_slice_whole, Rect.mem_set_unit]
  exact Iff.rfl

/-- Every entry of the array lies in the block some point writes back. -/
theorem covered (i : S4096x16384.Idx) :
    ∃ t : Fin cfg0.N, (cfg0.win 3).flush t = true ∧ i ∈ ((cfg0.win 3).blk t).view.set := by
  have hi0 : (i 0).val < 4096 := (i 0).isLt
  have hi1 : (i 1).val < 16384 := (i 1).isLt
  have hlt : 32 * ((i 0).val / 1024) + 4 * ((i 1).val / 2048) + 3 < cfg0.N := by
    rw [show cfg0.N = 128 from N_0]; omega
  refine ⟨⟨32 * ((i 0).val / 1024) + 4 * ((i 1).val / 2048) + 3, hlt⟩, (flush0_3 _).mpr (by show (32 * ((i 0).val / 1024) + 4 * ((i 1).val / 2048) + 3) % 4 = 3; omega), ?_⟩
  obtain ⟨-, -, -, -, -, -, e0, e1⟩ := idx_facts ⟨32 * ((i 0).val / 1024) + 4 * ((i 1).val / 2048) + 3, hlt⟩
  rw [mem_blk]
  intro a
  match a with
  | ⟨0, _⟩ =>
    show win0_3.index ⟨32 * ((i 0).val / 1024) + 4 * ((i 1).val / 2048) + 3, hlt⟩ (0 : Fin 2) * 1024 ≤ (i 0).val ∧ (i 0).val < win0_3.index ⟨32 * ((i 0).val / 1024) + 4 * ((i 1).val / 2048) + 3, hlt⟩ (0 : Fin 2) * 1024 + 1024
    rw [e0]; show (32 * ((i 0).val / 1024) + 4 * ((i 1).val / 2048) + 3) / 32 * 1024 ≤ (i 0).val ∧ (i 0).val < (32 * ((i 0).val / 1024) + 4 * ((i 1).val / 2048) + 3) / 32 * 1024 + 1024
    omega
  | ⟨1, _⟩ =>
    show win0_3.index ⟨32 * ((i 0).val / 1024) + 4 * ((i 1).val / 2048) + 3, hlt⟩ (1 : Fin 2) * 2048 ≤ (i 1).val ∧ (i 1).val < win0_3.index ⟨32 * ((i 0).val / 1024) + 4 * ((i 1).val / 2048) + 3, hlt⟩ (1 : Fin 2) * 2048 + 2048
    rw [e1]; show (32 * ((i 0).val / 1024) + 4 * ((i 1).val / 2048) + 3) / 4 % 8 * 2048 ≤ (i 1).val ∧ (i 1).val < (32 * ((i 0).val / 1024) + 4 * ((i 1).val / 2048) + 3) / 4 % 8 * 2048 + 2048
    omega

/-- THE RESULT ARRAY after the region: the specification of the three input arrays as the region finds them. -/
theorem final_out_V (c : Dev nD) :
    (dat (F := Ideal) V c).arrAt 3 cfg0.N
      = G1 (V c (Pipeline.arrRef spec0 0)) (V c (Pipeline.arrRef spec0 1)) (V c (Pipeline.arrRef spec0 2)) :=
  (dat (F := Ideal) V c).arrAt_eq_of_cover 3 _ (fun t hf => flushed_eq V c t hf) covered

/-- The same with the three input arrays named. -/
theorem final_out (c : Dev nD) (X : (⟨2, ![4096, 4096]⟩ : Shape).Idx → EReal) (W : (⟨2, ![4096, 16384]⟩ : Shape).Idx → EReal)
    (B : (⟨2, ![1, 16384]⟩ : Shape).Idx → EReal) (hX : V c (Pipeline.arrRef spec0 0) = X) (hW : V c (Pipeline.arrRef spec0 1) = W)
    (hB : V c (Pipeline.arrRef spec0 2) = B) :
    (dat (F := Ideal) V c).arrAt 3 cfg0.N = G1 X W B := by
  subst hX hW hB
  exact final_out_V V c

end Region

end Cert.Mlp.Gemm1W

end
-- ==== Proof.Gemm2Pieces.lean ====
/-
  The second matrix product's body, read back as values: what the recorded stores of each of the three kinds of step
  leave in the accumulator and in the output block.

  * First step of a block: the accumulator is zeroed and then holds zero plus the step's partial product.
  * Middle step: the accumulator, found at acc, holds acc plus the step's partial product.
  * Last step: the accumulator likewise, and the output block holds the new accumulator plus the bias row.

  Each is one store through the whole buffer, whose payload's loads read whole buffers; the first step's load of the
  accumulator reads back the zero stored just before it.
-/
import proofs.«169177_j50285477101612_2_alg».proof.Proof.Gemm2Frame
import Idealize.ShloMosaic.Lib.Pipeline.Value

set_option maxRecDepth 16384

noncomputable section

namespace Cert.Mlp.Gemm2V

open Idealize.ShloMosaic Idealize.ShloMosaic.TcCoe Idealize.ShloMosaic.Tactic
open Idealize.SL.Sem
open Cert.KernelIdeal Cert.KernelIdeal.Gen Cert.KernelIdeal.Gemm2

variable {F : FTy → Type} [FloatOps F]

/-- The zero offsets of a store or load through a whole two-axis buffer. -/
theorem hz : (![0, 0] : Fin 2 → Nat) = fun _ => 0 := funext fun a => by fin_cases a <;> rfl

/-- The first step of a block: the accumulator is zeroed, read back, and left at zero plus the step's partial product. -/
theorem acc_first (c : Dev nD) (i : grid1.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : atFirstStep i) (hc1 : ¬atLastStep i)
    (x0 : Vec F S1024x512 .bf16) (x1 : Vec F S512x2048 .bf16) (x2 : Vec F S1x2048 .f32) :
    accOf (runFirst c i arg3 harg3 arg4 harg4 arg5 harg5 arg6 harg6 arg7 harg7 hc0 hc1 x0 x1 x2).1 = k1_pay2 (k1_pay1 (F := F)) x0 x1 := by
  unfold accOf
  rw [View.read_writes_eq_canon _ _ _ (coverFirst c i arg3 harg3 arg4 harg4 arg5 harg5 arg6 harg6 arg7 harg7 hc0 hc1 x0 x1 x2)]
  unfold runFirst
  dsimp only
  sl_unfold_words
  rw [View.canon_cons_unit_zero (S := S1024x2048) hz, View.readCov_unit_zero (S := S1024x2048) _ hz]
  simp only [View.readAt_eq_ld, harg3.read_unread, harg4.read_unread, View.ld_unit_zero (S := S1024x512) hz,
    View.ld_unit_zero (S := S512x2048) hz]

/-- A middle step: the accumulator, found at `acc`, is left at `acc` plus the step's partial product. -/
theorem acc_mid (c : Dev nD) (i : grid1.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬atFirstStep i) (hc1 : ¬atLastStep i)
    (x0 : Vec F S1024x512 .bf16) (x1 : Vec F S512x2048 .bf16) (x2 : Vec F S1x2048 .f32) (acc : Vec F S1024x2048 .f32) :
    accOf (runMid c i arg3 harg3 arg4 harg4 arg5 harg5 arg6 harg6 arg7 harg7 hc0 hc1 x0 x1 x2 acc).1 = k1_pay2 acc x0 x1 := by
  unfold accOf
  rw [View.read_writes_eq_canon _ _ _ (coverMid c i arg3 harg3 arg4 harg4 arg5 harg5 arg6 harg6 arg7 harg7 hc0 hc1 x0 x1 x2 acc)]
  unfold runMid
  dsimp only
  sl_unfold_words
  rw [View.canon_unit_zero (S := S1024x2048) hz]
  simp only [View.readAt_eq_ld, harg3.read_unread, harg4.read_unread, harg7.read_unread, View.ld_unit_zero (S := S1024x512) hz,
    View.ld_unit_zero (S := S512x2048) hz, View.ld_unit_zero (S := S1024x2048) hz]

/-- The last step: the accumulator likewise, -/
theorem acc_last (c : Dev nD) (i : grid1.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬atFirstStep i) (hc1 : atLastStep i)
    (x0 : Vec F S1024x512 .bf16) (x1 : Vec F S512x2048 .bf16) (x2 : Vec F S1x2048 .f32) (acc : Vec F S1024x2048 .f32) :
    accOf (runLast c i arg3 harg3 arg4 harg4 arg5 harg5 arg6 harg6 arg7 harg7 hc0 hc1 x0 x1 x2 acc).2.1 = k1_pay2 acc x0 x1 := by
  unfold accOf
  rw [View.read_writes_eq_canon _ _ _ (coverLastAcc c i arg3 harg3 arg4 harg4 arg5 harg5 arg6 harg6 arg7 harg7 hc0 hc1 x0 x1 x2 acc)]
  unfold runLast
  dsimp only
  sl_unfold_words
  rw [View.canon_unit_zero (S := S1024x2048) hz]
  simp only [View.readAt_eq_ld, harg3.read_unread, harg4.read_unread, harg7.read_unread, View.ld_unit_zero (S := S1024x512) hz,
    View.ld_unit_zero (S := S512x2048) hz, View.ld_unit_zero (S := S1024x2048) hz]

/-- and the output block is what the accumulator then holds plus the bias row. -/
theorem out_last (c : Dev nD) (i : grid1.Coords) (arg3 : Memref sig .tc .vmem S1024x512 .bf16) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬atFirstStep i) (hc1 : atLastStep i)
    (x0 : Vec F S1024x512 .bf16) (x1 : Vec F S512x2048 .bf16) (x2 : Vec F S1x2048 .f32) (acc : Vec F S1024x2048 .f32) :
    outOf (runLast c i arg3 harg3 arg4 harg4 arg5 harg5 arg6 harg6 arg7 harg7 hc0 hc1 x0 x1 x2 acc).1 = k1_pay3 (k1_pay2 acc x0 x1) x2 := by
  unfold outOf
  rw [View.read_writes_eq_canon _ _ _ (coverLastOut c i arg3 harg3 arg4 harg4 arg5 harg5 arg6 harg6 arg7 harg7 hc0 hc1 x0 x1 x2 acc)]
  unfold runLast
  dsimp only
  sl_unfold_words
  rw [View.canon_unit_zero (S := S1024x2048) hz, View.readCov_unit_zero (S := S1024x2048) _ hz]
  simp only [View.readAt_eq_ld, harg3.read_unread, harg4.read_unread, harg5.read_unread, harg7.read_unread, View.ld_unit_zero (S := S1024x512) hz,
    View.ld_unit_zero (S := S512x2048) hz, View.ld_unit_zero (S := S1024x2048) hz, View.ld_unit_zero (S := S1x2048) hz]

end Cert.Mlp.Gemm2V

end
-- ==== Proof.Gemm2Acc.lean ====
/-
  The second matrix product's accumulator along a block's thirty-two steps, over the extended reals.

  Point number t of the grid is (row block t / 64, column block (t / 32) mod 2, step t mod 32). At every point the
  accumulator is the step's payload of the two input blocks over what the point before left (over zero at a block's
  first step); an input block's entry (p, k) is the array's entry at (block index × block size + p, …). So after the last
  step of block (I, J) the accumulator holds, at (p, q), the whole sum over the 16384 contracted positions of the rows
  1024·I + p of the left array against the columns 2048·J + q of the right one, and the output block holds that plus
  the bias entry of column 2048·J + q.
-/
import proofs.«169177_j50285477101612_2_alg».proof.Proof.Gemm2Pieces
import proofs.«169177_j50285477101612_2_alg».proof.Proof.GemmAcc

set_option maxRecDepth 16384

noncomputable section

open scoped BigOperators

namespace Cert.Mlp.Gemm2V

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Gemm2

/-- The specification of the second product: every row of H against every column of W, plus the bias row. -/
def G2 (H : (⟨2, ![4096, 16384]⟩ : Shape).Idx → EReal) (W : (⟨2, ![16384, 4096]⟩ : Shape).Idx → EReal)
    (B : (⟨2, ![1, 4096]⟩ : Shape).Idx → EReal) : (⟨2, ![4096, 4096]⟩ : Shape).Idx → EReal :=
  fun i => (∑ f : Fin 16384, H (ix2 (⟨(i 0).val, (i 0).isLt⟩ : Fin 4096) f) * W (ix2 f (⟨(i 1).val, (i 1).isLt⟩ : Fin 4096)))
    + B (ix2 (0 : Fin 1) (⟨(i 1).val, (i 1).isLt⟩ : Fin 4096))

/-- At coordinates (r, h). -/
theorem G2_apply (H : (⟨2, ![4096, 16384]⟩ : Shape).Idx → EReal) (W : (⟨2, ![16384, 4096]⟩ : Shape).Idx → EReal)
    (B : (⟨2, ![1, 4096]⟩ : Shape).Idx → EReal) (r h : Fin 4096) :
    G2 H W B (ix2 r h) = (∑ f : Fin 16384, H (ix2 r f) * W (ix2 f h)) + B (ix2 (0 : Fin 1) h) := rfl

section Region
variable (V : (c : Dev nD) → (b : Ref sig .tc) → Buf (Elt Ideal) ((c : Thread nD τ).loc b))

/-- The printed index maps, decided once over the grid: where each window's block sits at point t. -/
theorem idx_facts : ∀ t : Fin cfg1.N, win1_0.index t (0 : Fin 2) = t.val / 64 ∧ win1_0.index t (1 : Fin 2) = t.val % 32
    ∧ win1_1.index t (0 : Fin 2) = t.val % 32 ∧ win1_1.index t (1 : Fin 2) = t.val / 32 % 2
    ∧ win1_2.index t (0 : Fin 2) = 0 ∧ win1_2.index t (1 : Fin 2) = t.val / 32 % 2
    ∧ win1_3.index t (0 : Fin 2) = t.val / 64 ∧ win1_3.index t (1 : Fin 2) = t.val / 32 % 2 :=
  (by decide +kernel : ∀ t : Fin grid1.N, _)

/-! ## The accumulator, point by point -/

/-- The recursion does not depend on how the position is written. -/
theorem snd_of_eq {α β : Type} {x : α × β} {a : α} {b : β} (h : x = (a, b)) : x.2 = b := by rw [h]
theorem fst_of_eq {α β : Type} {x : α × β} {a : α} {b : β} (h : x = (a, b)) : x.1 = a := by rw [h]

theorem stepAt_congr (c : Dev nD) (a b : ℕ) (ha : a < cfg1.N) (hb : b < cfg1.N) (e : a = b) :
    stepAt V c a ha = stepAt V c b hb := by subst e; rfl

/-- At a block's first step the accumulator is the step's payload over zero. -/
theorem acc_at_first (c : Dev nD) (t : Fin cfg1.N) (h0 : t.val % 32 = 0) :
    (stepAt V c t.val t.isLt).2 = k1_pay2 (k1_pay1 (F := Ideal)) (iblk V c 0 t) (iblk V c 1 t) := by
  have h1 : ¬t.val % 32 = 31 := by omega
  refine (snd_of_eq (stepAt_first V c t h0 h1)).trans ?_
  exact acc_first (F := Ideal) c (grid1.coords t) (ms0 t) (hs0 t) (ms1 t) (hs1 t) (ms2 t) (hs2 t) (ms3 t) (hs3 t) accM (Memref.isWhole_whole _) ((atFirstStep_iff t).mpr h0) (fun h => h1 ((atLastStep_iff t).mp h)) (iblk V c 0 t) (iblk V c 1 t) (iblk V c 2 t)

/-- At every other step it is the step's payload over what the point before left. -/
theorem acc_at_step (c : Dev nD) (t : Fin cfg1.N) (h0 : ¬t.val % 32 = 0) :
    (stepAt V c t.val t.isLt).2 = k1_pay2 (stepAt V c (t.val - 1) (Nat.lt_of_le_of_lt (Nat.sub_le _ _) t.isLt)).2 (iblk V c 0 t) (iblk V c 1 t) := by
  by_cases h1 : t.val % 32 = 31
  · refine (snd_of_eq (stepAt_last V c t h0 h1)).trans ?_
    exact acc_last (F := Ideal) c (grid1.coords t) (ms0 t) (hs0 t) (ms1 t) (hs1 t) (ms2 t) (hs2 t) (ms3 t) (hs3 t) accM (Memref.isWhole_whole _) (fun h => h0 ((atFirstStep_iff t).mp h)) ((atLastStep_iff t).mpr h1) (iblk V c 0 t) (iblk V c 1 t) (iblk V c 2 t) (stepAt V c (t.val - 1) (Nat.lt_of_le_of_lt (Nat.sub_le _ _) t.isLt)).2
  · refine (snd_of_eq (stepAt_mid V c t h0 h1)).trans ?_
    exact acc_mid (F := Ideal) c (grid1.coords t) (ms0 t) (hs0 t) (ms1 t) (hs1 t) (ms2 t) (hs2 t) (ms3 t) (hs3 t) accM (Memref.isWhole_whole _) (fun h => h0 ((atFirstStep_iff t).mp h)) (fun h => h1 ((atLastStep_iff t).mp h)) (iblk V c 0 t) (iblk V c 1 t) (iblk V c 2 t) (stepAt V c (t.val - 1) (Nat.lt_of_le_of_lt (Nat.sub_le _ _) t.isLt)).2

/-- At a block's last step the output block is the accumulator plus the bias row. -/
theorem out_at_last (c : Dev nD) (t : Fin cfg1.N) (h1 : t.val % 32 = 31) :
    (stepAt V c t.val t.isLt).1 = k1_pay3 (stepAt V c t.val t.isLt).2 (iblk V c 2 t) := by
  have h0 : ¬t.val % 32 = 0 := by omega
  have e := stepAt_last V c t h0 h1
  rw [snd_of_eq e]
  refine (fst_of_eq e).trans ?_
  rw [acc_last (F := Ideal)]
  exact out_last (F := Ideal) c (grid1.coords t) (ms0 t) (hs0 t) (ms1 t) (hs1 t) (ms2 t) (hs2 t) (ms3 t) (hs3 t) accM (Memref.isWhole_whole _) (fun h => h0 ((atFirstStep_iff t).mp h)) ((atLastStep_iff t).mpr h1) (iblk V c 0 t) (iblk V c 1 t) (iblk V c 2 t) (stepAt V c (t.val - 1) (Nat.lt_of_le_of_lt (Nat.sub_le _ _) t.isLt)).2

/-! ## Input blocks, entry by entry -/

/-- The left block at point t: entry (p, k) is the array's entry (1024·(t / 64) + p, 512·(t mod 32) + k). -/
theorem iblk0_apply (c : Dev nD) (H : (⟨2, ![4096, 16384]⟩ : Shape).Idx → EReal)
    (hH : V c (Pipeline.arrRef spec1 0) = H) (t : Fin cfg1.N) (p : Fin 1024) (k : Fin 512) (r : Fin 4096) (f : Fin 16384)
    (hr : r.val = 1024 * (t.val / 64) + p.val) (hf : f.val = 512 * (t.val % 32) + k.val) :
    (iblk V c 0 t : Vec Ideal S1024x512 .bf16) (ix2 p k)
      = H (ix2 r f) := by
  subst hH
  obtain ⟨e0, e1, -⟩ := idx_facts t
  unfold iblk
  rw [View.read_apply]
  show V c (Pipeline.arrRef spec1 0) (((cfg1.win 0).blk t).view.emb (ix2 p k)) = V c (Pipeline.arrRef spec1 0) (ix2 r f)
  refine congrArg _ (funext fun a => Fin.ext ?_)
  match a with
  | ⟨0, _⟩ => show win1_0.index t (0 : Fin 2) * 1024 + 1 * p.val = r.val; rw [e0, hr]; omega
  | ⟨1, _⟩ => show win1_0.index t (1 : Fin 2) * 512 + 1 * k.val = f.val; rw [e1, hf]; omega

/-- The right block at point t: entry (k, q) is the array's entry (512·(t mod 32) + k, 2048·((t / 32) mod 2) + q). -/
theorem iblk1_apply (c : Dev nD) (W : (⟨2, ![16384, 4096]⟩ : Shape).Idx → EReal)
    (hW : V c (Pipeline.arrRef spec1 1) = W) (t : Fin cfg1.N) (k : Fin 512) (q : Fin 2048) (f : Fin 16384) (h : Fin 4096)
    (hf : f.val = 512 * (t.val % 32) + k.val) (hh : h.val = 2048 * (t.val / 32 % 2) + q.val) :
    (iblk V c 1 t : Vec Ideal S512x2048 .bf16) (ix2 k q)
      = W (ix2 f h) := by
  subst hW
  obtain ⟨-, -, e0, e1, -⟩ := idx_facts t
  unfold iblk
  rw [View.read_apply]
  show V c (Pipeline.arrRef spec1 1) (((cfg1.win 1).blk t).view.emb (ix2 k q)) = V c (Pipeline.arrRef spec1 1) (ix2 f h)
  refine congrArg _ (funext fun a => Fin.ext ?_)
  match a with
  | ⟨0, _⟩ => show win1_1.index t (0 : Fin 2) * 512 + 1 * k.val = f.val; rw [e0, hf]; omega
  | ⟨1, _⟩ => show win1_1.index t (1 : Fin 2) * 2048 + 1 * q.val = h.val; rw [e1, hh]; omega

/-- The bias block at point t: entry (0, q) is the bias row's entry (0, 2048·((t / 32) mod 2) + q). -/
theorem iblk2_apply (c : Dev nD) (B : (⟨2, ![1, 4096]⟩ : Shape).Idx → EReal)
    (hB : V c (Pipeline.arrRef spec1 2) = B) (t : Fin cfg1.N) (q : Fin 2048) (h : Fin 4096)
    (hh : h.val = 2048 * (t.val / 32 % 2) + q.val) :
    (iblk V c 2 t : Vec Ideal S1x2048 .f32) (ix2 (0 : Fin 1) q)
      = B (ix2 (0 : Fin 1) h) := by
  subst hB
  obtain ⟨-, -, -, -, e0, e1, -⟩ := idx_facts t
  unfold iblk
  rw [View.read_apply]
  show V c (Pipeline.arrRef spec1 2) (((cfg1.win 2).blk t).view.emb (ix2 (0 : Fin 1) q)) = V c (Pipeline.arrRef spec1 2) (ix2 (0 : Fin 1) h)
  refine congrArg _ (funext fun a => Fin.ext ?_)
  match a with
  | ⟨0, _⟩ => show win1_2.index t (0 : Fin 2) * 1 + 1 * 0 = 0; rw [e0]
  | ⟨1, _⟩ => show win1_2.index t (1 : Fin 2) * 2048 + 1 * q.val = h.val; rw [e1, hh]; omega

/-! ## A block's thirty-two steps -/

theorem pt_lt (I : Fin 4) (J : Fin 2) (n : Fin 32) : 64 * I.val + 32 * J.val + n.val < cfg1.N := by
  rw [show cfg1.N = 256 from N_1]; omega

/-- The grid point of block (I, J) at reduction step n. -/
def pt (I : Fin 4) (J : Fin 2) (n : Fin 32) : Fin cfg1.N := ⟨64 * I.val + 32 * J.val + n.val, pt_lt I J n⟩

theorem pt_val (I : Fin 4) (J : Fin 2) (n : Fin 32) : (pt I J n).val = 64 * I.val + 32 * J.val + n.val := rfl

/-- After the last step of block (I, J) the accumulator holds, at (p, q), the whole contraction of row 1024·I + p of the
    left array with column 2048·J + q of the right one. -/
theorem acc_block (c : Dev nD) (H : (⟨2, ![4096, 16384]⟩ : Shape).Idx → EReal) (W : (⟨2, ![16384, 4096]⟩ : Shape).Idx → EReal)
    (hH : V c (Pipeline.arrRef spec1 0) = H) (hW : V c (Pipeline.arrRef spec1 1) = W) (I : Fin 4) (J : Fin 2) (p : Fin 1024) (q : Fin 2048) :
    (stepAt V c (pt I J 31).val (pt I J 31).isLt).2 (ix2 p q)
      = ∑ f : Fin 16384, H (ix2 (row1024 I p) f) * W (ix2 f (col4096 J q)) := by
  have hI := I.isLt
  have hJ := J.isLt
  refine Cert.Mlp.Gemm2.acc_final H W I J
    (fun n => iblk V c 0 (pt I J n)) (fun n => iblk V c 1 (pt I J n)) ?hg ?hw
    (fun n => (stepAt V c (pt I J n).val (pt I J n).isLt).2) ?h0 ?hs p q
  case hg =>
    intro n p k
    have hn := n.isLt
    exact iblk0_apply V c H hH (pt I J n) p k (row1024 I p) (red16384 n k)
      (by rw [row1024_val, pt_val]; omega) (by rw [red16384_val, pt_val]; omega)
  case hw =>
    intro n k q
    have hn := n.isLt
    exact iblk1_apply V c W hW (pt I J n) k q (red16384 n k) (col4096 J q)
      (by rw [red16384_val, pt_val]; omega) (by rw [col4096_val, pt_val]; omega)
  case h0 =>
    exact acc_at_first V c (pt I J 0) (by rw [pt_val]; show (64 * I.val + 32 * J.val + 0) % 32 = 0; omega)
  case hs =>
    intro n
    have hn := n.isLt
    show (stepAt V c (pt I J n.succ).val (pt I J n.succ).isLt).2
      = k1_pay2 (stepAt V c (pt I J n.castSucc).val (pt I J n.castSucc).isLt).2 (iblk V c 0 (pt I J n.succ)) (iblk V c 1 (pt I J n.succ))
    rw [acc_at_step V c (pt I J n.succ) (by rw [pt_val]; show ¬(64 * I.val + 32 * J.val + (n.val + 1)) % 32 = 0; omega)]
    rw [stepAt_congr V c ((pt I J n.succ).val - 1) (pt I J n.castSucc).val _ (pt I J n.castSucc).isLt
      (by rw [pt_val, pt_val]; show 64 * I.val + 32 * J.val + (n.val + 1) - 1 = 64 * I.val + 32 * J.val + n.val; omega)]

/-- The output block written out at the last step of block (I, J): at (p, q) the specification's entry at
    (1024·I + p, 2048·J + q). -/
theorem out_block (c : Dev nD) (H : (⟨2, ![4096, 16384]⟩ : Shape).Idx → EReal) (W : (⟨2, ![16384, 4096]⟩ : Shape).Idx → EReal)
    (B : (⟨2, ![1, 4096]⟩ : Shape).Idx → EReal) (hH : V c (Pipeline.arrRef spec1 0) = H) (hW : V c (Pipeline.arrRef spec1 1) = W)
    (hB : V c (Pipeline.arrRef spec1 2) = B) (I : Fin 4) (J : Fin 2) (t : Fin cfg1.N) (ht : t.val = 64 * I.val + 32 * J.val + 31)
    (p : Fin 1024) (q : Fin 2048) :
    (stepAt V c t.val t.isLt).1 (ix2 p q)
      = G2 H W B (ix2 (row1024 I p) (col4096 J q)) := by
  have hI := I.isLt
  have hJ := J.isLt
  obtain rfl : t = pt I J 31 := Fin.ext ht
  rw [out_at_last V c (pt I J 31) (by rw [pt_val]; show (64 * I.val + 32 * J.val + 31) % 32 = 31; omega)]
  refine (Cert.Mlp.Gemm2.pay3_apply _ _ p q).trans ?_
  rw [acc_block V c H W hH hW I J p q, G2_apply]
  exact congrArg (fun z => _ + z) (iblk2_apply V c B hB (pt I J 31) q (col4096 J q)
    (by rw [col4096_val, pt_val]; show 2048 * J.val + q.val = 2048 * ((64 * I.val + 32 * J.val + 31) / 32 % 2) + q.val; omega))

end Region

end Cert.Mlp.Gemm2V

end
-- ==== Proof.Gemm2Value.lean ====
/-
  The second matrix product as an array: after the region the result array holds, at every (r, h), the contraction of
  row r of the left array with column h of the right one plus the bias entry of column h.

  The output block is written back at the last step of each (row block, column block), and there it is that block of
  the specification: entry (p, q) of block (I, J) sits at (1024·I + p, 2048·J + q). The eight blocks tile the
  4096 × 4096 array: entry (r, h) lies in the block of the point 64·(r / 1024) + 32·(h / 2048) + 31.
-/
import proofs.«169177_j50285477101612_2_alg».proof.Proof.Gemm2Acc

set_option maxRecDepth 16384

noncomputable section

open scoped BigOperators

namespace Cert.Mlp.Gemm2V

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Gemm2

section Region
variable (V : (c : Dev nD) → (b : Ref sig .tc) → Buf (Elt Ideal) ((c : Thread nD τ).loc b))

/-- What a point that writes its block back writes: its block of the specification of the three arrays. -/
theorem flushed_eq (c : Dev nD) (t : Fin cfg1.N) (hf : (cfg1.win 3).flush t = true) :
    (dat (F := Ideal) V c).flushed 3 t = ((cfg1.win 3).blk t).view.read (Elt Ideal)
      (G2 (V c (Pipeline.arrRef spec1 0)) (V c (Pipeline.arrRef spec1 1)) (V c (Pipeline.arrRef spec1 2))) := by
  have hN : t.val < 256 := lt_of_lt_of_eq t.isLt (show cfg1.N = 256 from N_1)
  have h31 : t.val % 32 = 31 := (flush1_3 t).mp hf
  obtain ⟨-, -, -, -, -, -, e0, e1⟩ := idx_facts t
  show (cfg1.win 3).cut (grid1.coords t) ((dat (F := Ideal) V c).after 3 t) = _
  rw [after3]
  refine funext fun (j : S1024x2048.Idx) => ?_
  obtain ⟨p, q, rfl⟩ : ∃ (p : Fin 1024) (q : Fin 2048), j = ix2 p q := ⟨j 0, j 1, eq_ix2 j⟩
  rw [View.read_apply]
  show (stepAt V c t.val t.isLt).1 (ix2 p q)
    = G2 (V c (Pipeline.arrRef spec1 0)) (V c (Pipeline.arrRef spec1 1)) (V c (Pipeline.arrRef spec1 2)) (((cfg1.win 3).blk t).view.emb (ix2 p q))
  rw [out_block V c _ _ _ rfl rfl rfl ⟨t.val / 64, by omega⟩ ⟨t.val / 32 % 2, by omega⟩ t
    (by show t.val = 64 * (t.val / 64) + 32 * (t.val / 32 % 2) + 31; omega) p q]
  refine congrArg _ (funext fun a => Fin.ext ?_)
  match a with
  | ⟨0, _⟩ => show 1024 * (t.val / 64) + p.val = win1_3.index t (0 : Fin 2) * 1024 + 1 * p.val; rw [e0]; omega
  | ⟨1, _⟩ => show 2048 * (t.val / 32 % 2) + q.val = win1_3.index t (1 : Fin 2) * 2048 + 1 * q.val; rw [e1]; omega

/-- An index of the array is in point t's block iff each coordinate is in the block's range on its axis. -/
theorem mem_blk (t : Fin cfg1.N) (i : S4096x4096.Idx) :
    i ∈ ((cfg1.win 3).blk t).view.set ↔ ∀ a : Fin 2, win1_3.index t a * S1024x2048.size a ≤ (i a).val ∧ (i a).val < win1_3.index t a * S1024x2048.size a + S1024x2048.size a := by
  show i ∈ ((View.whole main_v7).slice (win1_3.rect t)).set ↔ _
  rw [View.set_slice_whole, Rect.mem_set_unit]
  exact Iff.rfl

/-- Every entry of the array lies in the block some point writes back. -/
theorem covered (i : S4096x4096.Idx) :
    ∃ t : Fin cfg1.N, (cfg1.win 3).flush t = true ∧ i ∈ ((cfg1.win 3).blk t).view.set := by
  have hi0 : (i 0).val < 4096 := (i 0).isLt
  have hi1 : (i 1).val < 4096 := (i 1).isLt
  have hlt : 64 * ((i 0).val / 1024) + 32 * ((i 1).val / 2048) + 31 < cfg1.N := by
    rw [show cfg1.N = 256 from N_1]; omega
  refine ⟨⟨64 * ((i 0).val / 1024) + 32 * ((i 1).val / 2048) + 31, hlt⟩, (flush1_3 _).mpr (by show (64 * ((i 0).val / 1024) + 32 * ((i 1).val / 2048) + 31) % 32 = 31; omega), ?_⟩
  obtain ⟨-, -, -, -, -, -, e0, e1⟩ := idx_facts ⟨64 * ((i 0).val / 1024) + 32 * ((i 1).val / 2048) + 31, hlt⟩
  rw [mem_blk]
  intro a
  match a with
  | ⟨0, _⟩ =>
    show win1_3.index ⟨64 * ((i 0).val / 1024) + 32 * ((i 1).val / 2048) + 31, hlt⟩ (0 : Fin 2) * 1024 ≤ (i 0).val ∧ (i 0).val < win1_3.index ⟨64 * ((i 0).val / 1024) + 32 * ((i 1).val / 2048) + 31, hlt⟩ (0 : Fin 2) * 1024 + 1024
    rw [e0]; show (64 * ((i 0).val / 1024) + 32 * ((i 1).val / 2048) + 31) / 64 * 1024 ≤ (i 0).val ∧ (i 0).val < (64 * ((i 0).val / 1024) + 32 * ((i 1).val / 2048) + 31) / 64 * 1024 + 1024
    omega
  | ⟨1, _⟩ =>
    show win1_3.index ⟨64 * ((i 0).val / 1024) + 32 * ((i 1).val / 2048) + 31, hlt⟩ (1 : Fin 2) * 2048 ≤ (i 1).val ∧ (i 1).val < win1_3.index ⟨64 * ((i 0).val / 1024) + 32 * ((i 1).val / 2048) + 31, hlt⟩ (1 : Fin 2) * 2048 + 2048
    rw [e1]; show (64 * ((i 0).val / 1024) + 32 * ((i 1).val / 2048) + 31) / 32 % 2 * 2048 ≤ (i 1).val ∧ (i 1).val < (64 * ((i 0).val / 1024) + 32 * ((i 1).val / 2048) + 31) / 32 % 2 * 2048 + 2048
    omega

/-- THE RESULT ARRAY after the region: the specification of the three input arrays as the region finds them. -/
theorem final_out_V (c : Dev nD) :
    (dat (F := Ideal) V c).arrAt 3 cfg1.N
      = G2 (V c (Pipeline.arrRef spec1 0)) (V c (Pipeline.arrRef spec1 1)) (V c (Pipeline.arrRef spec1 2)) :=
  (dat (F := Ideal) V c).arrAt_eq_of_cover 3 _ (fun t hf => flushed_eq V c t hf) covered

/-- The same with the three input arrays named. -/
theorem final_out (c : Dev nD) (H : (⟨2, ![4096, 16384]⟩ : Shape).Idx → EReal) (W : (⟨2, ![16384, 4096]⟩ : Shape).Idx → EReal)
    (B : (⟨2, ![1, 4096]⟩ : Shape).Idx → EReal) (hH : V c (Pipeline.arrRef spec1 0) = H) (hW : V c (Pipeline.arrRef spec1 1) = W)
    (hB : V c (Pipeline.arrRef spec1 2) = B) :
    (dat (F := Ideal) V c).arrAt 3 cfg1.N = G2 H W B := by
  subst hH hW hB
  exact final_out_V V c

end Region

end Cert.Mlp.Gemm2V

end
-- ==== Proof.HostLayout.lean ====
/-
  The layout changes around the two products, read at an index.

  The input's 2 × 2048 rows are renumbered 0 … 4095 (row (b, s) becomes row 2048·b + s) before the first product and
  the result's rows are numbered back after the second; both are reshapes, which keep every entry's row-major position:
  ((b · 2048 + s) · 4096 + k on both sides). Each bias vector becomes a matrix with one row. The rounding of the operands to a
  narrower format is the identity on extended reals.
-/
import Idealize.ShloMosaic.Lib.ValueLayout
import proofs.«169177_j50285477101612_2_alg».proof.Proof.MlpSpec

noncomputable section

namespace Cert.Mlp.Layout

open Idealize.ShloMosaic Idealize.ShloMosaic.ValueIdx

variable {α : Type}

/-! ## Rows renumbered -/

/-- The 2 × 2048 × 4096 array as a 4096 × 4096 matrix: row 2048·b + s is row (b, s). -/
theorem flatten_rows_apply (x : (⟨3, ![2, 2048, 4096]⟩ : Shape).Idx → α)
    (h : (⟨3, ![2, 2048, 4096]⟩ : Shape).ShapeCasts ⟨2, ![4096, 4096]⟩) (b : Fin 2) (s : Fin 2048) (k : Fin 4096) :
    shapeCast ⟨2, ![4096, 4096]⟩ x h (ix2 (rowOf b s) k) = x (ix3 b s k) :=
  shapeCast_apply x h _ _ (by
    rw [Shape.rowMajor_val_three, Shape.rowMajor_val_two]
    show (b.val * 2048 + s.val) * 4096 + k.val = (2048 * b.val + s.val) * 4096 + k.val
    omega)

/-- The same at any row r, by its quotient and remainder by 2048. -/
theorem flatten_rows_apply' (x : (⟨3, ![2, 2048, 4096]⟩ : Shape).Idx → α)
    (h : (⟨3, ![2, 2048, 4096]⟩ : Shape).ShapeCasts ⟨2, ![4096, 4096]⟩) (r k : Fin 4096) :
    shapeCast ⟨2, ![4096, 4096]⟩ x h (ix2 r k)
      = x (ix3 (⟨r.val / 2048, by omega⟩ : Fin 2) (⟨r.val % 2048, by omega⟩ : Fin 2048) k) := by
  have e := flatten_rows_apply x h ⟨r.val / 2048, by omega⟩ ⟨r.val % 2048, by omega⟩ k
  rwa [rowOf_div_mod] at e

/-- The 4096 × 4096 matrix as a 2 × 2048 × 4096 array: row (b, s) is row 2048·b + s. -/
theorem unflatten_rows_apply (v : (⟨2, ![4096, 4096]⟩ : Shape).Idx → α)
    (h : (⟨2, ![4096, 4096]⟩ : Shape).ShapeCasts ⟨3, ![2, 2048, 4096]⟩) (b : Fin 2) (s : Fin 2048) (c : Fin 4096) :
    shapeCast ⟨3, ![2, 2048, 4096]⟩ v h (ix3 b s c) = v (ix2 (rowOf b s) c) :=
  shapeCast_apply v h _ _ (by
    rw [Shape.rowMajor_val_three, Shape.rowMajor_val_two]
    show (2048 * b.val + s.val) * 4096 + c.val = (b.val * 2048 + s.val) * 4096 + c.val
    omega)

/-! ## A bias vector as a one-row matrix -/

/-- The first bias, 16384 long, as a 1 × 16384 matrix. -/
theorem bias1_row_apply (v : (⟨1, ![16384]⟩ : Shape).Idx → α) (h : (⟨1, ![16384]⟩ : Shape).ShapeCasts ⟨2, ![1, 16384]⟩)
    (f : Fin 16384) : shapeCast ⟨2, ![1, 16384]⟩ v h (ix2 (0 : Fin 1) f) = v (ix1 f) :=
  shapeCast_a_1a_apply v h 0 f

/-- The second bias, 4096 long, as a 1 × 4096 matrix. -/
theorem bias2_row_apply (v : (⟨1, ![4096]⟩ : Shape).Idx → α) (h : (⟨1, ![4096]⟩ : Shape).ShapeCasts ⟨2, ![1, 4096]⟩)
    (c : Fin 4096) : shapeCast ⟨2, ![1, 4096]⟩ v h (ix2 (0 : Fin 1) c) = v (ix1 c) :=
  shapeCast_a_1a_apply v h 0 c

/-! ## Operands rounded to a narrower format: the identity on extended reals -/

/-- The renumbered input, rounded: row 2048·b + s, column k, is the input at (b, s, k). -/
theorem x_rounded_apply (x : FVec Ideal ⟨3, ![2, 2048, 4096]⟩ .f32)
    (h : (⟨3, ![2, 2048, 4096]⟩ : Shape).ShapeCasts ⟨2, ![4096, 4096]⟩) (hb : FTy.bf16.bits < FTy.f32.bits)
    (b : Fin 2) (s : Fin 2048) (k : Fin 4096) :
    (truncf .bf16 (shapeCast ⟨2, ![4096, 4096]⟩ x h) hb : FVec Ideal ⟨2, ![4096, 4096]⟩ .bf16) (ix2 (rowOf b s) k)
      = x (ix3 b s k) :=
  (truncf_apply _ hb _).trans (flatten_rows_apply x h b s k)

/-- A rounded array is the array. -/
theorem rounded_eq {s : Shape} (w : FVec Ideal s .f32) (hb : FTy.bf16.bits < FTy.f32.bits) :
    (truncf .bf16 w hb : FVec Ideal s .bf16) = w := rfl

end Cert.Mlp.Layout

end
-- ==== Proof.KernelValue.lean ====
/-
  The idealized kernel's result as a function of its arguments. The host stretch before the calls flattens the two
  leading axes of x and rounds x and both weight matrices (the identity on extended reals) and turns the two biases into
  rows; the first call leaves in its output array gelu(X·W1 + b1), the second, which reads that array, H·W2 + b2; the
  closing reshape numbers the rows back by (batch, position). Block by block these are the perceptron of the arguments.
-/
import proofs.«169177_j50285477101612_2_alg».proof.Proof.MainRun
import proofs.«169177_j50285477101612_2_alg».proof.Proof.Gemm1Final
import proofs.«169177_j50285477101612_2_alg».proof.Proof.Gemm2Value
import proofs.«169177_j50285477101612_2_alg».proof.Proof.HostLayout
import proofs.«169177_j50285477101612_2_alg».proof.Proof.MlpBlocks
import Idealize.ShloMosaic.Lib.StableHlo.Run

set_option maxRecDepth 16384

noncomputable section

namespace Cert.KernelIdeal.WholeValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Whole

variable (m : (ℓ : Loc nD τ sig) → Buf (Elt Ideal) ℓ)

/-! ## What the host stretches write -/

/-- x, its two leading axes flattened, then rounded. -/
theorem W1_v1 (c : Dev nD) : W1 m c (Proc.devRef .tc main_v1)
    = truncf (F := Ideal) .bf16 (shapeCast S4096x4096 (m ((c : Thread nD τ).loc main_arg0)) shapeCasts_S2x2048x4096_S4096x4096) bitsLt_bf16_f32 := by
  show StableHlo.after hostOps0 (fun b => m (c, b)) (Proc.devRef .tc main_v1) = _
  after_results
  all_goals rfl
/-- The first weight matrix, rounded. -/
theorem W1_v2 (c : Dev nD) : W1 m c (Proc.devRef .tc main_v2)
    = truncf (F := Ideal) .bf16 (m ((c : Thread nD τ).loc main_arg1)) bitsLt_bf16_f32 := by
  show StableHlo.after hostOps0 (fun b => m (c, b)) (Proc.devRef .tc main_v2) = _
  after_results
  all_goals rfl
/-- The second weight matrix, rounded. -/
theorem W1_v3 (c : Dev nD) : W1 m c (Proc.devRef .tc main_v3)
    = truncf (F := Ideal) .bf16 (m ((c : Thread nD τ).loc main_arg3)) bitsLt_bf16_f32 := by
  show StableHlo.after hostOps0 (fun b => m (c, b)) (Proc.devRef .tc main_v3) = _
  after_results
  all_goals rfl
/-- The first bias as a row. -/
theorem W1_v4 (c : Dev nD) : W1 m c (Proc.devRef .tc main_v4)
    = shapeCast S1x16384 (m ((c : Thread nD τ).loc main_arg2)) shapeCasts_S16384_S1x16384 := by
  show StableHlo.after hostOps0 (fun b => m (c, b)) (Proc.devRef .tc main_v4) = _
  after_results
  all_goals rfl
/-- The second bias as a row. -/
theorem W1_v5 (c : Dev nD) : W1 m c (Proc.devRef .tc main_v5)
    = shapeCast S1x4096 (m ((c : Thread nD τ).loc main_arg4)) shapeCasts_S4096_S1x4096 := by
  show StableHlo.after hostOps0 (fun b => m (c, b)) (Proc.devRef .tc main_v5) = _
  after_results
  all_goals rfl
/-- The result: the second product's output with its rows unflattened. -/
theorem W4_v8 (c : Dev nD) : W4 m c (Proc.devRef .tc main_v8)
    = shapeCast S2x2048x4096 (W3 m c (Proc.devRef .tc main_v7)) shapeCasts_S4096x4096_S2x2048x4096 := by
  show StableHlo.after hostOps2 (W3 m c) (Proc.devRef .tc main_v8) = _
  after_results
  all_goals rfl

/-! ## The result -/

theorem result_eq (c : Dev nD) :
    W4 m c (Proc.devRef .tc main_v8) = Cert.Mlp.mlp3 (m ((c : Thread nD τ).loc main_arg0)) (m ((c : Thread nD τ).loc main_arg1)) (m ((c : Thread nD τ).loc main_arg2)) (m ((c : Thread nD τ).loc main_arg3)) (m ((c : Thread nD τ).loc main_arg4)) := by
  have hH : W2 m c (Proc.devRef .tc main_v6) = Cert.Mlp.Gemm1W.G1 (W1 m c (Proc.devRef .tc main_v1)) (W1 m c (Proc.devRef .tc main_v2)) (W1 m c (Proc.devRef .tc main_v4)) :=
    (W2_arr m c 3).trans (Cert.Mlp.Gemm1W.final_out (V1 m) c (W1 m c (Proc.devRef .tc main_v1)) (W1 m c (Proc.devRef .tc main_v2)) (W1 m c (Proc.devRef .tc main_v4)) rfl rfl rfl)
  have hO : W3 m c (Proc.devRef .tc main_v7) = Cert.Mlp.Gemm2V.G2 (W2 m c (Proc.devRef .tc main_v6)) (W1 m c (Proc.devRef .tc main_v3)) (W1 m c (Proc.devRef .tc main_v5)) :=
    (W3_arr m c 3).trans (Cert.Mlp.Gemm2V.final_out (V2 m) c (W2 m c (Proc.devRef .tc main_v6)) (W1 m c (Proc.devRef .tc main_v3)) (W1 m c (Proc.devRef .tc main_v5)) rfl (W2_of_ne m c main_v3 (by decide)) (W2_of_ne m c main_v5 (by decide)))
  refine Cert.Mlp.result_of_blocks (W1 m c (Proc.devRef .tc main_v1)) (m ((c : Thread nD τ).loc main_arg1)) (m ((c : Thread nD τ).loc main_arg2)) (m ((c : Thread nD τ).loc main_arg3)) (m ((c : Thread nD τ).loc main_arg4)) (m ((c : Thread nD τ).loc main_arg0)) (fun b s k => ?_)
    (W2 m c (Proc.devRef .tc main_v6)) (fun I J p q => ?_) (W3 m c (Proc.devRef .tc main_v7)) (fun I J p q => ?_) _ (fun b s h => ?_)
  · rw [W1_v1]; exact Cert.Mlp.Layout.x_rounded_apply _ _ _ b s k
  · rw [hH, Cert.Mlp.Gemm1W.G1_apply, W1_v2, W1_v4, Cert.Mlp.Layout.rounded_eq, Cert.Mlp.Layout.bias1_row_apply]
  · rw [hO, Cert.Mlp.Gemm2V.G2_apply, W1_v3, W1_v5, Cert.Mlp.Layout.rounded_eq, Cert.Mlp.Layout.bias2_row_apply]
  · rw [W4_v8]; exact Cert.Mlp.Layout.unflatten_rows_apply _ _ b s h

end Cert.KernelIdeal.WholeValue

end
-- ==== Proof.RefValue.lean ====
/-
  The reference computes the specification.

  The reference is a sequence of whole-array operations: a product of the 2 × 2048 × 4096 input with the first weight
  matrix contracted along the last axis, the first bias added to every row, the tanh form of GELU spelt out operation by
  operation with its cube associated as (t·t)·t, a second product with the second weight matrix, and the second bias
  added to every row. Read at one index (b, s, h), every elementwise operation reads its operands at the same index,
  every broadcast bias reads its vector at the last coordinate, and each product is the sum over its contracted
  coordinate; what is left is, term for term, the specification's row formula.
-/
import proofs.«169177_j50285477101612_2_alg».proof.Proof.Gen.ReferenceIdeal.Read
import proofs.«169177_j50285477101612_2_alg».proof.Proof.MlpSpec

noncomputable section

open scoped BigOperators

namespace Cert.Mlp.Ref

open Cert.ReferenceIdeal Cert.ReferenceIdeal.Gen Cert.ReferenceIdeal.Read Idealize.ShloMosaic Idealize.ShloMosaic.ValueIdx

variable (x0 : (⟨S2x2048x4096, .f32⟩ : BufTy).Contents (Elt Ideal)) (x1 : (⟨S4096x16384, .f32⟩ : BufTy).Contents (Elt Ideal))
  (x2 : (⟨S16384, .f32⟩ : BufTy).Contents (Elt Ideal)) (x3 : (⟨S16384x4096, .f32⟩ : BufTy).Contents (Elt Ideal))
  (x4 : (⟨S4096, .f32⟩ : BufTy).Contents (Elt Ideal))

/-- The first layer: the product plus the bias, at (b, s, f), is the specification's hidden unit f of row (b, s). -/
theorem hidden_apply (b : Fin 2) (s : Fin 2048) (f : Fin 16384) :
    val_main_v3 (F := Ideal) x0 x1 x2 (ix3 b s f)
      = hiddenRow (fun k => x0 (ix3 b s k)) (fun k f => x1 (ix2 k f)) (fun f => x2 (ix1 f)) f := by
  have el : ∀ k : Fin 4096, lidx_main_v0 (ix3 b s f) k = ix3 b s k := fun k => funext fun a => Fin.ext (by
    match a with
    | ⟨0, _⟩ => rfl
    | ⟨1, _⟩ => rfl
    | ⟨2, _⟩ => rfl)
  have er : ∀ k : Fin 4096, ridx_main_v0 (ix3 b s f) k = ix2 k f := fun k => funext fun a => Fin.ext (by
    match a with
    | ⟨0, _⟩ => rfl
    | ⟨1, _⟩ => rfl)
  have eb : idx_main_v1 (idx_main_v2 (ix3 b s f)) = ix1 f := funext fun a => Fin.ext (by
    match a with
    | ⟨0, _⟩ => rfl)
  rw [val_main_v3_apply, val_main_v0_apply, val_main_v2_apply, val_main_v1_apply, eb]
  simp only [el, er, Ideal.addf_def]
  rfl

/-- The activation: the sixteen elementwise operations after the first layer are the specification's GELU of it. -/
theorem act_apply (i : S2x2048x16384.Idx) :
    val_main_v16 (F := Ideal) x0 x1 x2 i = gelu (val_main_v3 (F := Ideal) x0 x1 x2 i) := by
  rw [val_main_v16_apply, val_main_v15_apply, val_main_v14_apply, val_main_cst_2_apply, val_main_v13_apply,
    val_main_v12_apply, val_main_cst_1_apply, val_main_v11_apply, val_main_v10_apply, val_main_v9_apply,
    val_main_cst_0_apply, val_main_v8_apply, val_main_v7_apply, val_main_v6_apply, val_main_cst_apply,
    val_main_v5_apply, val_main_v4_apply]
  generalize val_main_v3 (F := Ideal) x0 x1 x2 i = t
  simp only [Ideal.mulf_def, Ideal.addf_def, Ideal.hostUnary_tanh_def, Ideal.ofBits_def]
  rfl

/-- THE REFERENCE IS THE SPECIFICATION: the reference's result array is the perceptron of the five argument arrays. -/
theorem val_main_v20_eq_mlp3 : val_main_v20 (F := Ideal) x0 x1 x2 x3 x4 = mlp3 x0 x1 x2 x3 x4 := by
  funext i
  obtain ⟨b, s, h, rfl⟩ : ∃ (b : Fin 2) (s : Fin 2048) (h : Fin 4096), i = ix3 b s h := ⟨i 0, i 1, i 2, eq_ix3 i⟩
  have el : ∀ f : Fin 16384, lidx_main_v17 (ix3 b s h) f = ix3 b s f := fun f => funext fun a => Fin.ext (by
    match a with
    | ⟨0, _⟩ => rfl
    | ⟨1, _⟩ => rfl
    | ⟨2, _⟩ => rfl)
  have er : ∀ f : Fin 16384, ridx_main_v17 (ix3 b s h) f = ix2 f h := fun f => funext fun a => Fin.ext (by
    match a with
    | ⟨0, _⟩ => rfl
    | ⟨1, _⟩ => rfl)
  have eb : idx_main_v18 (idx_main_v19 (ix3 b s h)) = ix1 h := funext fun a => Fin.ext (by
    match a with
    | ⟨0, _⟩ => rfl)
  rw [mlp3_apply, val_main_v20_apply, val_main_v17_apply, val_main_v19_apply, val_main_v18_apply, eb]
  simp only [el, er, act_apply, hidden_apply, Ideal.addf_def]
  rfl

end Cert.Mlp.Ref

end
-- ==== Proof.lean ====
/-
  The certificate of a two-layer perceptron block: out = gelu(x·W1 + b1)·W2 + b2 with the tanh form of gelu, computed
  by two K-blocked matrix-product kernels (each accumulates one partial product per reduction step into a scratch
  accumulator zeroed at the first step, and finishes its output block at the last step: the first applies the bias
  and the activation, the second the bias) against one whole contraction each. Over the extended reals the two
  programs are the same function of the arguments: rounding the operands to a narrower format is the identity, a sum
  over the reduction axis taken block by block is the whole sum (addition is commutative and associative, nothing
  finite is needed), the cube h·(h·h) is (h·h)·h (multiplication is commutative), and the flattening of the two
  leading axes of x is undone by the closing reshape. Both kernels run to the end, fault nowhere and leave the
  arguments as launched: each call is a segment of the program between host stretches, its invariant tracking the
  accumulator from point to point.
-/
import proofs.«169177_j50285477101612_2_alg».proof.Defs
import proofs.«169177_j50285477101612_2_alg».proof.Proof.Gen.Kernel
import proofs.«169177_j50285477101612_2_alg».proof.Proof.Gen.KernelIdeal
import proofs.«169177_j50285477101612_2_alg».proof.Proof.Gen.ReferenceIdeal
import proofs.«169177_j50285477101612_2_alg».proof.Proof.Gen.Pre_finite_inputs
import proofs.«169177_j50285477101612_2_alg».proof.Proof.BitsMainRun
import proofs.«169177_j50285477101612_2_alg».proof.Proof.MainRun
import proofs.«169177_j50285477101612_2_alg».proof.Proof.KernelValue
import proofs.«169177_j50285477101612_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel (hKernel := Cert.Kernel.Gen.facts) (hPre_finite_inputs := Cert.Pre_finite_inputs.Gen.facts) :=
  fun m ρ _ => Cert.Kernel.Whole.frame (F := Bits) m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Whole.frame (F := Ideal) m ρ

/-- The reference is host operations only: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the perceptron block of the arguments, entry by entry. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Mlp.mlp3 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun _ h c =>
      ⟨(h c _ (Cert.KernelIdeal.Whole.mem_uc Cert.KernelIdeal.main_v8 (by decide))).trans (Cert.KernelIdeal.WholeValue.result_eq m c),
       (h c _ (Cert.KernelIdeal.Whole.mem_uc Cert.KernelIdeal.main_arg0 (by decide))).trans (Cert.KernelIdeal.Whole.W4_main_arg0 m c),
       (h c _ (Cert.KernelIdeal.Whole.mem_uc Cert.KernelIdeal.main_arg1 (by decide))).trans (Cert.KernelIdeal.Whole.W4_main_arg1 m c),
       (h c _ (Cert.KernelIdeal.Whole.mem_uc Cert.KernelIdeal.main_arg2 (by decide))).trans (Cert.KernelIdeal.Whole.W4_main_arg2 m c),
       (h c _ (Cert.KernelIdeal.Whole.mem_uc Cert.KernelIdeal.main_arg3 (by decide))).trans (Cert.KernelIdeal.Whole.W4_main_arg3 m c),
       (h c _ (Cert.KernelIdeal.Whole.mem_uc Cert.KernelIdeal.main_arg4 (by decide))).trans (Cert.KernelIdeal.Whole.W4_main_arg4 m c)⟩)
      (Cert.KernelIdeal.Whole.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v20_eq, Cert.Mlp.Ref.val_main_v20_eq_mlp3,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
